-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x64x64 : Shape := ⟨4, ![32, 64, 64, 64]⟩
abbrev S3x3x64x128 : Shape := ⟨4, ![3, 3, 64, 128]⟩
abbrev S128 : Shape := ⟨1, ![128]⟩
abbrev S_ : Shape := ⟨0, ![]⟩

class Facts : Prop where
  bcast_S_S32x64x64x64 : S_.BroadcastsInDim S32x64x64x64 (![] : Fin 0 → Fin S32x64x64x64.rank)
  reducesTo_S32x64x64x64_S_d0_1_2_3 : S32x64x64x64.ReducesTo [0, 1, 2, 3] S_
  h_S_ : 0 < S_.numel
  bcast_S_S3x3x64x128 : S_.BroadcastsInDim S3x3x64x128 (![] : Fin 0 → Fin S3x3x64x128.rank)
  reducesTo_S3x3x64x128_S_d0_1_2_3 : S3x3x64x128.ReducesTo [0, 1, 2, 3] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S32x64x64x64 .f32) (main_arg1 : FVec F S3x3x64x128 .f32) (main_arg2 : FVec F S128 .f32) (main_arg3 : FVec F S128 .f32) : IVec S_ 1 :=
  let main_v0 : FVec F S32x64x64x64 .f32 := Host.absf main_arg0
  let main_cst : FVec F S_ .f32 := constant S_ .f32 0x7F800000#32
  let main_v1 : FVec F S32x64x64x64 .f32 := broadcastInDim S32x64x64x64 ![] bcast_S_S32x64x64x64 main_cst
  let main_v2 : IVec S32x64x64x64 1 := cmpf .olt main_v0 main_v1
  let main_c : IVec S_ 1 := constantI S_ 1 1#1
  let main_v3 : IVec S_ 1 := (fun x v => Host.reduce IntOp.andi x v reducesTo_S32x64x64x64_S_d0_1_2_3 h_S_) main_v2 main_c
  let main_v4 : FVec F S3x3x64x128 .f32 := Host.absf main_arg1
  let main_cst_0 : FVec F S_ .f32 := constant S_ .f32 0x7F800000#32
  let main_v5 : FVec F S3x3x64x128 .f32 := broadcastInDim S3x3x64x128 ![] bcast_S_S3x3x64x128 main_cst_0
  let main_v6 : IVec S3x3x64x128 1 := cmpf .olt main_v4 main_v5
  let main_c_1 : IVec S_ 1 := constantI S_ 1 1#1
  let main_v7 : IVec S_ 1 := (fun x v => Host.reduce IntOp.andi x v reducesTo_S3x3x64x128_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S32x64x64x64 : Shape := ⟨4, ![32, 64, 64, 64]⟩
abbrev S3x3x64x128 : Shape := ⟨4, ![3, 3, 64, 128]⟩
abbrev S128 : Shape := ⟨1, ![128]⟩
abbrev S_ : Shape := ⟨0, ![]⟩
abbrev S32x68x68x64 : Shape := ⟨4, ![32, 68, 68, 64]⟩
abbrev S576x128 : Shape := ⟨2, ![576, 128]⟩
abbrev S32x128x2 : Shape := ⟨3, ![32, 128, 2]⟩
abbrev S1x68x68x64 : Shape := ⟨4, ![1, 68, 68, 64]⟩
abbrev S1x128x2 : Shape := ⟨3, ![1, 128, 2]⟩
abbrev S68x68x64 : Shape := ⟨3, ![68, 68, 64]⟩
abbrev S64x64x64 : Shape := ⟨3, ![64, 64, 64]⟩
abbrev S4096x64 : Shape := ⟨2, ![4096, 64]⟩
abbrev S4096x576 : Shape := ⟨2, ![4096, 576]⟩
abbrev S128x4096 : Shape := ⟨2, ![128, 4096]⟩
abbrev S128x1 : Shape := ⟨2, ![128, 1]⟩
abbrev S128x2 : Shape := ⟨2, ![128, 2]⟩
abbrev S32x128x4096 : Shape := ⟨3, ![32, 128, 4096]⟩
abbrev S1x128x4096 : Shape := ⟨3, ![1, 128, 4096]⟩
abbrev S32x128x64x64 : Shape := ⟨4, ![32, 128, 64, 64]⟩

abbrev nBuf : Space → Nat
  | .hbm => 40
  | .vmem => 12
  | .smem => 0
  | _ => 0

abbrev bufTy : (tb : Table) → Fin (tcTables nBuf tb) → BufTy
  | .hbm, ⟨0, _⟩ => ⟨S32x64x64x64, .f32⟩
  | .hbm, ⟨1, _⟩ => ⟨S3x3x64x128, .f32⟩
  | .hbm, ⟨2, _⟩ => ⟨S128, .f32⟩
  | .hbm, ⟨3, _⟩ => ⟨S128, .f32⟩
  | .hbm, ⟨4, _⟩ => ⟨S32x64x64x64, .f32⟩
  | .hbm, ⟨5, _⟩ => ⟨S_, .i32⟩
  | .hbm, ⟨6, _⟩ => ⟨S_, .f32⟩
  | .hbm, ⟨7, _⟩ => ⟨S32x68x68x64, .f32⟩
  | .hbm, ⟨8, _⟩ => ⟨S32x68x68x64, .bf16⟩
  | .hbm, ⟨9, _⟩ => ⟨S576x128, .f32⟩
  | .hbm, ⟨10, _⟩ => ⟨S576x128, .bf16⟩
  | .hbm, ⟨11, _⟩ => ⟨S32x128x2, .f32⟩
  | .hbm, ⟨12, _⟩ => ⟨S_, .f32⟩
  | .hbm, ⟨13, _⟩ => ⟨S128x2, .f32⟩
  | .hbm, ⟨14, _⟩ => ⟨S128x1, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S128x1, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S128x1, .f32⟩
  | .hbm, ⟨37, _⟩ => ⟨S128x1, .f32⟩
  | .hbm, ⟨38, _⟩ => ⟨S32x128x4096, .f32⟩
  | .hbm, ⟨39, _⟩ => ⟨S32x128x64x64, .f32⟩
  | .local _ .vmem, ⟨0, _⟩ => ⟨S1x68x68x64, .bf16⟩
  | .local _ .vmem, ⟨1, _⟩ => ⟨S1x68x68x64, .bf16⟩
  | .local _ .vmem, ⟨2, _⟩ => ⟨S576x128, .bf16⟩
  | .local _ .vmem, ⟨3, _⟩ => ⟨S1x128x2, .f32⟩
  | .local _ .vmem, ⟨4, _⟩ => ⟨S1x128x2, .f32⟩
  | .local _ .vmem, ⟨5, _⟩ => ⟨S1x68x68x64, .bf16⟩
  | .local _ .vmem, ⟨6, _⟩ => ⟨S1x68x68x64, .bf16⟩
  | .local _ .vmem, ⟨7, _⟩ => ⟨S576x128, .bf16⟩
  | .local _ .vmem, ⟨8, _⟩ => ⟨S128x1, .f32⟩
  | .local _ .vmem, ⟨9, _⟩ => ⟨S128x1, .f32⟩
  | .local _ .vmem, ⟨10, _⟩ => ⟨S1x128x4096, .f32⟩
  | .local _ .vmem, ⟨11, _⟩ => ⟨S1x128x4096, .f32⟩
  | _, _ => ⟨S32x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x68x68x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x68x68x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S576x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x128x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S32x64x64x64_S32x64x64x64_0_2_3_1 : S32x64x64x64.Transposes [0, 2, 3, 1] S32x64x64x64
  pads_S32x64x64x64_S32x68x68x64_000_220_220_000 : S32x64x64x64.Pads (![0, 2, 2, 0] : Fin 4 → Nat) ![0, 2, 2, 0] ![0, 0, 0, 0] S32x68x68x64
  h_S_ : 0 < S_.numel
  bitsLt_bf16_f32 : FTy.bits .bf16 < FTy.bits .f32
  shapeCasts_S3x3x64x128_S576x128 : S3x3x64x128.ShapeCasts S576x128
  inb_S1x68x68x64_S1x68x68x64_0_0_0_0 : ∀ a, (![0, 0, 0, 0] : Fin 4 → Nat) a + S1x68x68x64.size a ≤ S1x68x68x64.size a
  h_S1x68x68x64 : 0 < S1x68x68x64.numel
  shapeCasts_S1x68x68x64_S68x68x64 : S1x68x68x64.ShapeCasts S68x68x64
  slices_S68x68x64_o0_0_0_S64x64x64 : S68x68x64.Slices ![0, 0, 0] S64x64x64
  shapeCasts_S64x64x64_S4096x64 : S64x64x64.ShapeCasts S4096x64
  slices_S68x68x64_o0_2_0_S64x64x64 : S68x68x64.Slices ![0, 2, 0] S64x64x64
  slices_S68x68x64_o0_4_0_S64x64x64 : S68x68x64.Slices ![0, 4, 0] S64x64x64
  slices_S68x68x64_o2_0_0_S64x64x64 : S68x68x64.Slices ![2, 0, 0] S64x64x64
  slices_S68x68x64_o2_2_0_S64x64x64 : S68x68x64.Slices ![2, 2, 0] S64x64x64
  slices_S68x68x64_o2_4_0_S64x64x64 : S68x68x64.Slices ![2, 4, 0] S64x64x64
  slices_S68x68x64_o4_0_0_S64x64x64 : S68x68x64.Slices ![4, 0, 0] S64x64x64
  slices_S68x68x64_o4_2_0_S64x64x64 : S68x68x64.Slices ![4, 2, 0] S64x64x64
  slices_S68x68x64_o4_4_0_S64x64x64 : S68x68x64.Slices ![4, 4, 0] S64x64x64
  concatenates_S4096x64_S4096x64_S4096x64_S4096x64_S4096x64_S4096x64_S4096x64_S4096x64_S4096x64_S4096x576_d1 : Shape.Concatenates [S4096x64, S4096x64, S4096x64, S4096x64, S4096x64, S4096x64, S4096x64, S4096x64, S4096x64] S4096x576 1
  inb_S576x128_S576x128_0_0 : ∀ a, (![0, 0] : Fin 2 → Nat) a + S576x128.size a ≤ S576x128.size a
  h_S576x128 : 0 < S576x128.numel
  shapeCasts_S576x128_S576x128 : S576x128.ShapeCasts S576x128
  reduces_S128x4096_S128 : S128x4096.Reduces [1] S128
  shapeCasts_S128_S128x1 : S128.ShapeCasts S128x1
  concatenates_S128x1_S128x1_S128x2_d1 : Shape.Concatenates [S128x1, S128x1] S128x2 1
  inb_S1x128x2_S1x128x2_0_0_0 : ∀ a, (![0, 0, 0] : Fin 3 → Nat) a + S1x128x2.size a ≤ S1x128x2.size a
  h_S1x128x2 : 0 < S1x128x2.numel
  shapeCasts_S1x128x2_S128x2 : S1x128x2.ShapeCasts S128x2
  shapeCasts_S128x2_S1x128x2 : S128x2.ShapeCasts S1x128x2
  reducesTo_S32x128x2_S128x2_d0 : S32x128x2.ReducesTo [0] S128x2
  slices_S128x2_S128x1_0_0 : S128x2.Slices ![0, 0] S128x1
  shapeCasts_S128x1_S128 : S128x1.ShapeCasts S128
  bcast_S_S128 : S_.BroadcastsInDim S128 (![] : Fin 0 → Fin S128.rank)
  slices_S128x2_S128x1_0_1 : S128x2.Slices ![0, 1] S128x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x4096 : S128x1.Broadcasts S128x4096
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  shapeCasts_S128x4096_S1x128x4096 : S128x4096.ShapeCasts S1x128x4096
  shapeCasts_S32x128x4096_S32x128x64x64 : S32x128x4096.ShapeCasts S32x128x64x64
  dot_S576x128_S4096x576_S128x4096_0_1_1_0_n_n_wf : DotDims.WF S576x128 S4096x576 S128x4096 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x68x68x64.size a ≤ S32x68x68x64.size a
  hwx0_0 : ∀ i : grid0.Coords, EltTy.bits .bf16 = 32 ∨ (Rect.block (s := S32x68x68x64) S1x68x68x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S576x128.size a ≤ S576x128.size a
  hwx0_1 : ∀ i : grid0.Coords, EltTy.bits .bf16 = 32 ∨ (Rect.block (s := S576x128) S576x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2.size a ≤ S32x128x2.size a
  hwx0_2 : ∀ i : grid0.Coords, EltTy.bits .f32 = 32 ∨ (Rect.block (s := S32x128x2) S1x128x2.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x68x68x64.size a ≤ S32x68x68x64.size a
  hwx1_0 : ∀ i : grid1.Coords, EltTy.bits .bf16 = 32 ∨ (Rect.block (s := S32x68x68x64) S1x68x68x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S576x128.size a ≤ S576x128.size a
  hwx1_1 : ∀ i : grid1.Coords, EltTy.bits .bf16 = 32 ∨ (Rect.block (s := S576x128) S576x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S128x1.size a
  hwx1_3 : ∀ i : grid1.Coords, EltTy.bits .f32 = 32 ∨ (Rect.block (s := S128x1) S128x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128x4096.size a ≤ S32x128x4096.size a
  hwx1_4 : ∀ i : grid1.Coords, EltTy.bits .f32 = 32 ∨ (Rect.block (s := S32x128x4096) S1x128x4096.size (cc1_transform_4 i) (hinb1_4 i)).WholeWords (EltTy.packing .f32)

variable [Facts₀]

def dot_S576x128_S4096x576_S128x4096_0_1_1_0_n_n : DotDims S576x128 S4096x576 S128x4096 where
  lhsContracting := [0]
  rhsContracting := [1]
  lhsNonContracting := [1]
  rhsNonContracting := [0]
  lhsBatch := []
  rhsBatch := []
  wf := dot_S576x128_S4096x576_S128x4096_0_1_1_0_n_n_wf

abbrev win0_0 : Pipeline.Window sig grid0 :=
  Pipeline.Window.ofSpec (Memref.whole main_v2) S1x68x68x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S576x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1x68x68x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S576x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S128x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32x64x64x64 : Shape := ⟨4, ![32, 64, 64, 64]⟩
abbrev S3x3x64x128 : Shape := ⟨4, ![3, 3, 64, 128]⟩
abbrev S128 : Shape := ⟨1, ![128]⟩
abbrev S_ : Shape := ⟨0, ![]⟩
abbrev S32x68x68x128 : Shape := ⟨4, ![32, 68, 68, 128]⟩
abbrev S3x3x128x128 : Shape := ⟨4, ![3, 3, 128, 128]⟩
abbrev S1152x128 : Shape := ⟨2, ![1152, 128]⟩
abbrev S32x64x64x128 : Shape := ⟨4, ![32, 64, 64, 128]⟩
abbrev S32x2x128 : Shape := ⟨3, ![32, 2, 128]⟩
abbrev S1x68x68x128 : Shape := ⟨4, ![1, 68, 68, 128]⟩
abbrev S1x64x64x128 : Shape := ⟨4, ![1, 64, 64, 128]⟩
abbrev S1x2x128 : Shape := ⟨3, ![1, 2, 128]⟩
abbrev S68x68x128 : Shape := ⟨3, ![68, 68, 128]⟩
abbrev S64x64x128 : Shape := ⟨3, ![64, 64, 128]⟩
abbrev S4096x128 : Shape := ⟨2, ![4096, 128]⟩
abbrev S4096x1152 : Shape := ⟨2, ![4096, 1152]⟩
abbrev S1x128 : Shape := ⟨2, ![1, 128]⟩
abbrev S2x128 : Shape := ⟨2, ![2, 128]⟩
abbrev S1x1x1x128 : Shape := ⟨4, ![1, 1, 1, 128]⟩
abbrev S32x128x64x64 : Shape := ⟨4, ![32, 128, 64, 64]⟩

abbrev nBuf : Space → Nat
  | .hbm => 48
  | .vmem => 13
  | .smem => 0
  | _ => 0

abbrev bufTy : (tb : Table) → Fin (tcTables nBuf tb) → BufTy
  | .hbm, ⟨0, _⟩ => ⟨S32x64x64x64, .f32⟩
  | .hbm, ⟨1, _⟩ => ⟨S3x3x64x128, .f32⟩
  | .hbm, ⟨2, _⟩ => ⟨S128, .f32⟩
  | .hbm, ⟨3, _⟩ => ⟨S128, .f32⟩
  | .hbm, ⟨4, _⟩ => ⟨S32x64x64x64, .f32⟩
  | .hbm, ⟨5, _⟩ => ⟨S_, .i32⟩
  | .hbm, ⟨6, _⟩ => ⟨S_, .f32⟩
  | .hbm, ⟨7, _⟩ => ⟨S32x68x68x128, .f32⟩
  | .hbm, ⟨8, _⟩ => ⟨S_, .i32⟩
  | .hbm, ⟨9, _⟩ => ⟨S_, .f32⟩
  | .hbm, ⟨10, _⟩ => ⟨S3x3x128x128, .f32⟩
  | .hbm, ⟨11, _⟩ => ⟨S1152x128, .f32⟩
  | .hbm, ⟨12, _⟩ => ⟨S_, .f32⟩
  | .hbm, ⟨13, _⟩ => ⟨S_, .f32⟩
  | .hbm, ⟨14, _⟩ => ⟨S128, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S32x64x64x128, .f32⟩
  | .hbm, ⟨19, _⟩ => ⟨S32x2x128, .f32⟩
  | .hbm, ⟨20, _⟩ => ⟨S_, .f32⟩
  | .hbm, ⟨21, _⟩ => ⟨S2x128, .f32⟩
  | .hbm, ⟨22, _⟩ => ⟨S1x128, .f32⟩
  | .hbm, ⟨23, _⟩ => ⟨S128, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S1x128, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S128, .f32⟩
  | .hbm, ⟨44, _⟩ => ⟨S1x1x1x128, .f32⟩
  | .hbm, ⟨45, _⟩ => ⟨S1x1x1x128, .f32⟩
  | .hbm, ⟨46, _⟩ => ⟨S32x64x64x128, .f32⟩
  | .hbm, ⟨47, _⟩ => ⟨S32x128x64x64, .f32⟩
  | .local _ .vmem, ⟨0, _⟩ => ⟨S1x68x68x128, .f32⟩
  | .local _ .vmem, ⟨1, _⟩ => ⟨S1x68x68x128, .f32⟩
  | .local _ .vmem, ⟨2, _⟩ => ⟨S1152x128, .f32⟩
  | .local _ .vmem, ⟨3, _⟩ => ⟨S1x64x64x128, .f32⟩
  | .local _ .vmem, ⟨4, _⟩ => ⟨S1x64x64x128, .f32⟩
  | .local _ .vmem, ⟨5, _⟩ => ⟨S1x2x128, .f32⟩
  | .local _ .vmem, ⟨6, _⟩ => ⟨S1x2x128, .f32⟩
  | .local _ .vmem, ⟨7, _⟩ => ⟨S1x64x64x128, .f32⟩
  | .local _ .vmem, ⟨8, _⟩ => ⟨S1x64x64x128, .f32⟩
  | .local _ .vmem, ⟨9, _⟩ => ⟨S1x1x1x128, .f32⟩
  | .local _ .vmem, ⟨10, _⟩ => ⟨S1x1x1x128, .f32⟩
  | .local _ .vmem, ⟨11, _⟩ => ⟨S1x64x64x128, .f32⟩
  | .local _ .vmem, ⟨12, _⟩ => ⟨S1x64x64x128, .f32⟩
  | _, _ => ⟨S32x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_call2_v0 : Ref sig .tc := ⟨.hbm, 13, rfl⟩
abbrev main_v4 : Ref sig .tc := ⟨.hbm, 14, rfl⟩
abbrev main_c_1 : Ref sig .tc := ⟨.hbm, 15, rfl⟩
abbrev main_call3_v0 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x68x68x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x64x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1x1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1x1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x64x64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S32x64x64x64_S32x64x64x64_0_2_3_1 : S32x64x64x64.Transposes [0, 2, 3, 1] S32x64x64x64
  pads_S32x64x64x64_S32x68x68x128_000_220_220_0640 : S32x64x64x64.Pads (![0, 2, 2, 0] : Fin 4 → Nat) ![0, 2, 2, 64] ![0, 0, 0, 0] S32x68x68x128
  h_S_ : 0 < S_.numel
  pads_S3x3x64x128_S3x3x128x128_000_000_0640_000 : S3x3x64x128.Pads (![0, 0, 0, 0] : Fin 4 → Nat) ![0, 0, 64, 0] ![0, 0, 0, 0] S3x3x128x128
  shapeCasts_S3x3x128x128_S1152x128 : S3x3x128x128.ShapeCasts S1152x128
  pads_S128_S128_000 : S128.Pads (![0] : Fin 1 → Nat) ![0] ![0] S128
  inb_S1x68x68x128_S1x68x68x128_0_0_0_0 : ∀ a, (![0, 0, 0, 0] : Fin 4 → Nat) a + S1x68x68x128.size a ≤ S1x68x68x128.size a
  h_S1x68x68x128 : 0 < S1x68x68x128.numel
  shapeCasts_S1x68x68x128_S68x68x128 : S1x68x68x128.ShapeCasts S68x68x128
  slices_S68x68x128_o0_0_0_S64x64x128 : S68x68x128.Slices ![0, 0, 0] S64x64x128
  shapeCasts_S64x64x128_S4096x128 : S64x64x128.ShapeCasts S4096x128
  slices_S68x68x128_o0_2_0_S64x64x128 : S68x68x128.Slices ![0, 2, 0] S64x64x128
  slices_S68x68x128_o0_4_0_S64x64x128 : S68x68x128.Slices ![0, 4, 0] S64x64x128
  slices_S68x68x128_o2_0_0_S64x64x128 : S68x68x128.Slices ![2, 0, 0] S64x64x128
  slices_S68x68x128_o2_2_0_S64x64x128 : S68x68x128.Slices ![2, 2, 0] S64x64x128
  slices_S68x68x128_o2_4_0_S64x64x128 : S68x68x128.Slices ![2, 4, 0] S64x64x128
  slices_S68x68x128_o4_0_0_S64x64x128 : S68x68x128.Slices ![4, 0, 0] S64x64x128
  slices_S68x68x128_o4_2_0_S64x64x128 : S68x68x128.Slices ![4, 2, 0] S64x64x128
  slices_S68x68x128_o4_4_0_S64x64x128 : S68x68x128.Slices ![4, 4, 0] S64x64x128
  concatenates_S4096x128_S4096x128_S4096x128_S4096x128_S4096x128_S4096x128_S4096x128_S4096x128_S4096x128_S4096x1152_d1 : Shape.Concatenates [S4096x128, S4096x128, S4096x128, S4096x128, S4096x128, S4096x128, S4096x128, S4096x128, S4096x128] S4096x1152 1
  inb_S1152x128_S1152x128_0_0 : ∀ a, (![0, 0] : Fin 2 → Nat) a + S1152x128.size a ≤ S1152x128.size a
  h_S1152x128 : 0 < S1152x128.numel
  shapeCasts_S1152x128_S1152x128 : S1152x128.ShapeCasts S1152x128
  reduces_S4096x128_S128 : S4096x128.Reduces [0] S128
  shapeCasts_S128_S1x128 : S128.ShapeCasts S1x128
  concatenates_S1x128_S1x128_S2x128_d0 : Shape.Concatenates [S1x128, S1x128] S2x128 0
  shapeCasts_S2x128_S1x2x128 : S2x128.ShapeCasts S1x2x128
  inb_S1x2x128_S1x2x128_0_0_0 : ∀ a, (![0, 0, 0] : Fin 3 → Nat) a + S1x2x128.size a ≤ S1x2x128.size a
  h_S1x2x128 : 0 < S1x2x128.numel
  shapeCasts_S4096x128_S1x64x64x128 : S4096x128.ShapeCasts S1x64x64x128
  inb_S1x64x64x128_S1x64x64x128_0_0_0_0 : ∀ a, (![0, 0, 0, 0] : Fin 4 → Nat) a + S1x64x64x128.size a ≤ S1x64x64x128.size a
  h_S1x64x64x128 : 0 < S1x64x64x128.numel
  reducesTo_S32x2x128_S2x128_d0 : S32x2x128.ReducesTo [0] S2x128
  slices_S2x128_S1x128_0_0 : S2x128.Slices ![0, 0] S1x128
  shapeCasts_S1x128_S128 : S1x128.ShapeCasts S128
  bcast_S_S128 : S_.BroadcastsInDim S128 (![] : Fin 0 → Fin S128.rank)
  slices_S2x128_S1x128_1_0 : S2x128.Slices ![1, 0] S1x128
  shapeCasts_S128_S1x1x1x128 : S128.ShapeCasts S1x1x1x128
  shapeCasts_S1x64x64x128_S1x64x64x128 : S1x64x64x128.ShapeCasts S1x64x64x128
  inb_S1x1x1x128_S1x1x1x128_0_0_0_0 : ∀ a, (![0, 0, 0, 0] : Fin 4 → Nat) a + S1x1x1x128.size a ≤ S1x1x1x128.size a
  h_S1x1x1x128 : 0 < S1x1x1x128.numel
  shapeCasts_S1x1x1x128_S1x1x1x128 : S1x1x1x128.ShapeCasts S1x1x1x128
  broadcasts_S1x1x1x128_S1x64x64x128 : S1x1x1x128.Broadcasts S1x64x64x128
  transposes_S32x64x64x128_S32x128x64x64_0_3_1_2 : S32x64x64x128.Transposes [0, 3, 1, 2] S32x128x64x64
  dot_S4096x1152_S1152x128_S4096x128_1_0_0_1_n_n_wf : DotDims.WF S4096x1152 S1152x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x68x68x128.size a ≤ S32x68x68x128.size a
  hwx0_0 : ∀ i : grid0.Coords, EltTy.bits .f32 = 32 ∨ (Rect.block (s := S32x68x68x128) S1x68x68x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1152x128.size a ≤ S1152x128.size a
  hwx0_1 : ∀ i : grid0.Coords, EltTy.bits .f32 = 32 ∨ (Rect.block (s := S1152x128) S1152x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64x128.size a ≤ S32x64x64x128.size a
  hwx0_2 : ∀ i : grid0.Coords, EltTy.bits .f32 = 32 ∨ (Rect.block (s := S32x64x64x128) S1x64x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x128.size a ≤ S32x2x128.size a
  hwx0_3 : ∀ i : grid0.Coords, EltTy.bits .f32 = 32 ∨ (Rect.block (s := S32x2x128) S1x2x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x64x128.size a ≤ S32x64x64x128.size a
  hwx1_0 : ∀ i : grid1.Coords, EltTy.bits .f32 = 32 ∨ (Rect.block (s := S32x64x64x128) S1x64x64x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1x1x128.size a ≤ S1x1x1x128.size a
  hwx1_1 : ∀ i : grid1.Coords, EltTy.bits .f32 = 32 ∨ (Rect.block (s := S1x1x1x128) S1x1x1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1x1x128.size a ≤ S1x1x1x128.size a
  hwx1_2 : ∀ i : grid1.Coords, EltTy.bits .f32 = 32 ∨ (Rect.block (s := S1x1x1x128) S1x1x1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x64x128.size a ≤ S32x64x64x128.size a
  hwx1_3 : ∀ i : grid1.Coords, EltTy.bits .f32 = 32 ∨ (Rect.block (s := S32x64x64x128) S1x64x64x128.size (cc1_transform_3 i) (hinb1_3 i)).WholeWords (EltTy.packing .f32)

variable [Facts₀]

def dot_S4096x1152_S1152x128_S4096x128_1_0_0_1_n_n : DotDims S4096x1152 S1152x128 S4096x128 where
  lhsContracting := [1]
  rhsContracting := [0]
  lhsNonContracting := [0]
  rhsNonContracting := [1]
  lhsBatch := []
  rhsBatch := []
  wf := dot_S4096x1152_S1152x128_S4096x128_1_0_0_1_n_n_wf

abbrev win0_0 : Pipeline.Window sig grid0 :=
  Pipeline.Window.ofSpec (Memref.whole main_v1) S1x68x68x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1152x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6_0) S1x64x64x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_1) S1x2x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6_0) S1x64x64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x1x1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x1x1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x64x64x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.KerRun.lean ====
/-
  The kernel program's run with its result array named.

  The program is a chain of seven segments: three stretches of host operations, the first
  pallas_call, a stretch of host operations, the second pallas_call, and a last stretch. The
  contents of every buffer at each boundary are a fold from the launch memory (`W0` … `W7` of the
  generated frame); every weakly fair execution terminates without a fault, and in its final state
  every unscoped buffer holds the last boundary's contents. Read at the result buffer this gives
  the result array as `W7` there, beside the four argument arrays as launched.
-/
import proofs.«176068_g2000404705935580_pallasbulk_80_2_alg».proof.Proof.Gen.KernelIdeal.Frame

set_option maxRecDepth 16384

noncomputable section

namespace Cert.KernelIdeal.KerValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last
    boundary's contents and the four argument arrays end as launched. -/
theorem run_named : θ_run defs (onTc (τ := τ) (main (F := F))) ⟨m, fun _ => 0, ρ⟩ (fun r => ∀ c : Dev nD,
      r.2.mem ((c.tc : Thread nD τ).loc main_v28) = W7 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v28 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.KerValue

end
-- ==== Proof.KerRegion1.lean ====
/-
  The second pallas_call's result array as one function of its operand arrays.

  The call runs over the 32 images. At image `n` it reads block `n` of the haloed input (one
  image, [1, 68, 68, 64]), the whole weight matrix and the whole scale and shift columns, and
  writes block `n` of the result ([1, 128, 4096]). So the result array at `(n, c, r)` is the body's
  stored value, computed from image `n` and the three whole arrays, at `(0, c, r)`; the 32 blocks
  tile the array.
-/
import proofs.«176068_g2000404705935580_pallasbulk_80_2_alg».proof.Proof.Gen.KernelIdeal.Frame
import Idealize.ShloMosaic.Lib.Pipeline.Value
import Idealize.ShloMosaic.Lib.ValueIdx

set_option maxRecDepth 16384

noncomputable section

namespace Cert.KernelIdeal.KerValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable {F : FTy → Type} [FloatOps F]
variable (V : (c : Dev nD) → (b : Ref sig .tc) → Buf (Elt F) ((c : Thread nD τ).loc b))

/-- Image `n` of a batch of haloed images, as a batch of one. -/
def imageOf (xp : S32x68x68x64.Idx → Elt F .bf16) (n : Fin 32) : S1x68x68x64.Idx → Elt F .bf16 :=
  fun y => xp (ix4 n (y 1) (y 2) (y 3))

/-- The result array of the second call from its four operand arrays. -/
def applied (xp : S32x68x68x64.Idx → Elt F .bf16) (wf : S576x128.Idx → Elt F .bf16)
    (sc sh : S128x1.Idx → Elt F .f32) : S32x128x4096.Idx → Elt F .f32 :=
  fun i => k1_pay1 (imageOf xp (i 0)) wf sc sh (ix3 0 (i 1) (i 2))

theorem zero4 : (![0, 0, 0, 0] : Fin 4 → Nat) = fun _ => 0 := funext fun a => by fin_cases a <;> rfl
theorem zero3 : (![0, 0, 0] : Fin 3 → Nat) = fun _ => 0 := funext fun a => by fin_cases a <;> rfl
theorem zero2 : (![0, 0] : Fin 2 → Nat) = fun _ => 0 := funext fun a => by fin_cases a <;> rfl

/-- The index maps of the second call over its grid: the image and result blocks follow the grid point, the weight,
    scale and shift blocks stay at the origin. -/
theorem index_facts1 : ∀ t : Fin cfg1.N,
    win1_0.index t (0 : Fin 4) = t.val ∧ win1_0.index t (1 : Fin 4) = 0 ∧ win1_0.index t (2 : Fin 4) = 0 ∧ win1_0.index t (3 : Fin 4) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- What grid point `t` writes back is block `t` of `applied` of the operand arrays as the call finds them. -/
theorem flushed1_eq (c : Dev nD) (t : Fin cfg1.N) :
    (dat1 V c).flushed 4 t = ((cfg1.win 4).blk t).view.read (Elt F)
      (applied (V c main_v2) (V c main_v4) (V c main_v25) (V c main_v26)) := by
  show (cfg1.win 4).cut (grid1.coords t) ((dat1 V c).after 4 t) = _
  rw [after1_4]
  unfold out1_4
  rw [View.canon_unit_zero zero3]
  simp only [View.ld_unit_zero (S := S1x68x68x64) zero4, View.ld_unit_zero (S := S576x128) zero2,
    View.ld_unit_zero (S := S128x1) zero2]
  obtain ⟨a0, a1, a2, a3, b0, b1, c0, c1, d0, d1, e0, e1, e2⟩ := index_facts1 t
  have hI0 : iblk1 V c 0 t = imageOf (V c main_v2) (Fin.cast N_1 t) := by
    funext y
    show V c main_v2 (((cfg1.win 0).blk t).view.emb y) = V c main_v2 _
    refine congrArg _ (funext fun a => Fin.ext ?_)
    match a with
    | ⟨0, _⟩ => show win1_0.index t (0 : Fin 4) * 1 + 1 * (y 0).val = t.val; have : (y 0).val < 1 := (y 0).isLt; omega
    | ⟨1, _⟩ => show win1_0.index t (1 : Fin 4) * 68 + 1 * (y 1).val = (y 1).val; omega
    | ⟨2, _⟩ => show win1_0.index t (2 : Fin 4) * 68 + 1 * (y 2).val = (y 2).val; omega
    | ⟨3, _⟩ => show win1_0.index t (3 : Fin 4) * 64 + 1 * (y 3).val = (y 3).val; omega
  have hI1 : iblk1 V c 1 t = V c main_v4 := by
    funext y
    show V c main_v4 (((cfg1.win 1).blk t).view.emb y) = V c main_v4 y
    refine congrArg _ (funext fun a => Fin.ext ?_)
    match a with
    | ⟨0, _⟩ => show win1_1.index t (0 : Fin 2) * 576 + 1 * (y 0).val = (y 0).val; omega
    | ⟨1, _⟩ => show win1_1.index t (1 : Fin 2) * 128 + 1 * (y 1).val = (y 1).val; omega
  have hI2 : iblk1 V c 2 t = V c main_v25 := by
    funext y
    show V c main_v25 (((cfg1.win 2).blk t).view.emb y) = V c main_v25 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 1 + 1 * (y 1).val = (y 1).val; omega
  have hI3 : iblk1 V c 3 t = V c main_v26 := by
    funext y
    show V c main_v26 (((cfg1.win 3).blk t).view.emb y) = V c main_v26 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 1 + 1 * (y 1).val = (y 1).val; omega
  rw [hI0, hI1, hI2, hI3]
  funext j
  show k1_pay1 (imageOf (V c main_v2) (Fin.cast N_1 t)) (V c main_v4) (V c main_v25) (V c main_v26) j
    = applied (V c main_v2) (V c main_v4) (V c main_v25) (V c main_v26) (((cfg1.win 4).blk t).view.emb j)
  unfold applied
  have hn : (((cfg1.win 4).blk t).view.emb j) 0 = Fin.cast N_1 t :=
    Fin.ext (by show win1_4.index t (0 : Fin 3) * 1 + 1 * (j 0).val = t.val; have : (j 0).val < 1 := (j 0).isLt; omega)
  rw [hn]
  refine congrArg _ (funext fun a => Fin.ext ?_)
  match a with
  | ⟨0, _⟩ => show (j 0).val = 0; have : (j 0).val < 1 := (j 0).isLt; omega
  | ⟨1, _⟩ => show (j 1).val = win1_4.index t (1 : Fin 3) * 128 + 1 * (j 1).val; omega
  | ⟨2, _⟩ => show (j 2).val = win1_4.index t (2 : Fin 3) * 4096 + 1 * (j 2).val; omega

/-- An index of the result array is in grid point `t`'s block iff each coordinate is in the block's range. -/
theorem mem_block1 (t : Fin cfg1.N) (i : S32x128x4096.Idx) :
    i ∈ ((cfg1.win 4).blk t).view.set ↔ ∀ a : Fin 3, win1_4.index t a * S1x128x4096.size a ≤ (i a).val
      ∧ (i a).val < win1_4.index t a * S1x128x4096.size a + S1x128x4096.size a := by
  show i ∈ ((View.whole main_v27).slice (win1_4.rect t)).set ↔ _
  rw [View.set_slice_whole, Rect.mem_set_unit]
  exact Iff.rfl

/-- Every index of the result array is in the block of the grid point that is its image number. -/
theorem cover1 (i : S32x128x4096.Idx) :
    ∃ t : Fin cfg1.N, (cfg1.win 4).flush t = true ∧ i ∈ ((cfg1.win 4).blk t).view.set := by
  have hi0 : (i 0).val < 32 := (i 0).isLt
  have hi1 : (i 1).val < 128 := (i 1).isLt
  have hi2 : (i 2).val < 4096 := (i 2).isLt
  refine ⟨Fin.cast N_1.symm (i 0), flush1_4 _, ?_⟩
  rw [mem_block1]
  obtain ⟨a0, a1, a2, a3, b0, b1, c0, c1, d0, d1, e0, e1, e2⟩ := index_facts1 (Fin.cast N_1.symm (i 0))
  have e0' : win1_4.index (Fin.cast N_1.symm (i 0)) (0 : Fin 3) = (i 0).val := e0
  intro a
  match a with
  | ⟨0, _⟩ => show win1_4.index (Fin.cast N_1.symm (i 0)) (0 : Fin 3) * 1 ≤ (i 0).val ∧ (i 0).val < win1_4.index (Fin.cast N_1.symm (i 0)) (0 : Fin 3) * 1 + 1; omega
  | ⟨1, _⟩ => show win1_4.index (Fin.cast N_1.symm (i 0)) (1 : Fin 3) * 128 ≤ (i 1).val ∧ (i 1).val < win1_4.index (Fin.cast N_1.symm (i 0)) (1 : Fin 3) * 128 + 128; omega
  | ⟨2, _⟩ => show win1_4.index (Fin.cast N_1.symm (i 0)) (2 : Fin 3) * 4096 ≤ (i 2).val ∧ (i 2).val < win1_4.index (Fin.cast N_1.symm (i 0)) (2 : Fin 3) * 4096 + 4096; omega

/-- The result array after the second call is `applied` of the operand arrays as the call finds them. -/
theorem arr1 (c : Dev nD) :
    (dat1 V c).arrAt 4 cfg1.N = applied (V c main_v2) (V c main_v4) (V c main_v25) (V c main_v26) :=
  (dat1 V c).arrAt_eq_of_cover 4 _ (fun t _ => flushed1_eq V c t) cover1

end Cert.KernelIdeal.KerValue

end
-- ==== Proof.KerRegion0.lean ====
/-
  The first pallas_call's result array as one function of its operand arrays.

  The call runs over the 32 images. At image `n` it reads block `n` of the haloed input and the whole
  weight matrix, and writes block `n` of the statistics array ([1, 128, 2]: per output channel the sum
  of the convolution over the image's positions and the sum of its square). So the statistics array
  at `(n, c, s)` is the body's stored value, computed from image `n` and the weights, at `(0, c, s)`; the
  32 blocks tile the array.
-/
import proofs.«176068_g2000404705935580_pallasbulk_80_2_alg».proof.Proof.KerRegion1

set_option maxRecDepth 16384

noncomputable section

namespace Cert.KernelIdeal.KerValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable {F : FTy → Type} [FloatOps F]
variable (V : (c : Dev nD) → (b : Ref sig .tc) → Buf (Elt F) ((c : Thread nD τ).loc b))

/-- The statistics array of the first call from its two operand arrays. -/
def statistics (xp : S32x68x68x64.Idx → Elt F .bf16) (wf : S576x128.Idx → Elt F .bf16) : S32x128x2.Idx → Elt F .f32 :=
  fun i => k0_pay1 (imageOf xp (i 0)) wf (ix3 0 (i 1) (i 2))

/-- The index maps of the first call over its grid: the image and statistics blocks follow the grid point, the
    weight block stays at the origin. -/
theorem index_facts0 : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- What grid point `t` writes back is block `t` of `statistics` of the operand arrays as the call finds them. -/
theorem flushed0_eq (c : Dev nD) (t : Fin cfg0.N) :
    (dat0 V c).flushed 2 t = ((cfg0.win 2).blk t).view.read (Elt F) (statistics (V c main_v2) (V c main_v4)) := by
  show (cfg0.win 2).cut (grid0.coords t) ((dat0 V c).after 2 t) = _
  rw [after0_2]
  unfold out0_2
  rw [View.canon_unit_zero zero3]
  simp only [View.ld_unit_zero (S := S1x68x68x64) zero4, View.ld_unit_zero (S := S576x128) zero2]
  obtain ⟨a0, a1, a2, a3, b0, b1, e0, e1, e2⟩ := index_facts0 t
  have hI0 : iblk0 V c 0 t = imageOf (V c main_v2) (Fin.cast N_0 t) := by
    funext y
    show V c main_v2 (((cfg0.win 0).blk t).view.emb y) = V c main_v2 _
    refine congrArg _ (funext fun a => Fin.ext ?_)
    match a with
    | ⟨0, _⟩ => show win0_0.index t (0 : Fin 4) * 1 + 1 * (y 0).val = t.val; have : (y 0).val < 1 := (y 0).isLt; omega
    | ⟨1, _⟩ => show win0_0.index t (1 : Fin 4) * 68 + 1 * (y 1).val = (y 1).val; omega
    | ⟨2, _⟩ => show win0_0.index t (2 : Fin 4) * 68 + 1 * (y 2).val = (y 2).val; omega
    | ⟨3, _⟩ => show win0_0.index t (3 : Fin 4) * 64 + 1 * (y 3).val = (y 3).val; omega
  have hI1 : iblk0 V c 1 t = V c main_v4 := by
    funext y
    show V c main_v4 (((cfg0.win 1).blk t).view.emb y) = V c main_v4 y
    refine congrArg _ (funext fun a => Fin.ext ?_)
    match a with
    | ⟨0, _⟩ => show win0_1.index t (0 : Fin 2) * 576 + 1 * (y 0).val = (y 0).val; omega
    | ⟨1, _⟩ => show win0_1.index t (1 : Fin 2) * 128 + 1 * (y 1).val = (y 1).val; omega
  rw [hI0, hI1]
  funext j
  show k0_pay1 (imageOf (V c main_v2) (Fin.cast N_0 t)) (V c main_v4) j
    = statistics (V c main_v2) (V c main_v4) (((cfg0.win 2).blk t).view.emb j)
  unfold statistics
  have hn : (((cfg0.win 2).blk t).view.emb j) 0 = Fin.cast N_0 t :=
    Fin.ext (by show win0_2.index t (0 : Fin 3) * 1 + 1 * (j 0).val = t.val; have : (j 0).val < 1 := (j 0).isLt; omega)
  rw [hn]
  refine congrArg _ (funext fun a => Fin.ext ?_)
  match a with
  | ⟨0, _⟩ => show (j 0).val = 0; have : (j 0).val < 1 := (j 0).isLt; omega
  | ⟨1, _⟩ => show (j 1).val = win0_2.index t (1 : Fin 3) * 128 + 1 * (j 1).val; omega
  | ⟨2, _⟩ => show (j 2).val = win0_2.index t (2 : Fin 3) * 2 + 1 * (j 2).val; omega

/-- An index of the statistics array is in grid point `t`'s block iff each coordinate is in the block's range. -/
theorem mem_block0 (t : Fin cfg0.N) (i : S32x128x2.Idx) :
    i ∈ ((cfg0.win 2).blk t).view.set ↔ ∀ a : Fin 3, win0_2.index t a * S1x128x2.size a ≤ (i a).val
      ∧ (i a).val < win0_2.index t a * S1x128x2.size a + S1x128x2.size a := by
  show i ∈ ((View.whole main_v5).slice (win0_2.rect t)).set ↔ _
  rw [View.set_slice_whole, Rect.mem_set_unit]
  exact Iff.rfl

/-- Every index of the statistics array is in the block of the grid point that is its image number. -/
theorem cover0 (i : S32x128x2.Idx) :
    ∃ t : Fin cfg0.N, (cfg0.win 2).flush t = true ∧ i ∈ ((cfg0.win 2).blk t).view.set := by
  have hi0 : (i 0).val < 32 := (i 0).isLt
  have hi1 : (i 1).val < 128 := (i 1).isLt
  have hi2 : (i 2).val < 2 := (i 2).isLt
  refine ⟨Fin.cast N_0.symm (i 0), flush0_2 _, ?_⟩
  rw [mem_block0]
  obtain ⟨a0, a1, a2, a3, b0, b1, e0, e1, e2⟩ := index_facts0 (Fin.cast N_0.symm (i 0))
  have e0' : win0_2.index (Fin.cast N_0.symm (i 0)) (0 : Fin 3) = (i 0).val := e0
  intro a
  match a with
  | ⟨0, _⟩ => show win0_2.index (Fin.cast N_0.symm (i 0)) (0 : Fin 3) * 1 ≤ (i 0).val ∧ (i 0).val < win0_2.index (Fin.cast N_0.symm (i 0)) (0 : Fin 3) * 1 + 1; omega
  | ⟨1, _⟩ => show win0_2.index (Fin.cast N_0.symm (i 0)) (1 : Fin 3) * 128 ≤ (i 1).val ∧ (i 1).val < win0_2.index (Fin.cast N_0.symm (i 0)) (1 : Fin 3) * 128 + 128; omega
  | ⟨2, _⟩ => show win0_2.index (Fin.cast N_0.symm (i 0)) (2 : Fin 3) * 2 ≤ (i 2).val ∧ (i 2).val < win0_2.index (Fin.cast N_0.symm (i 0)) (2 : Fin 3) * 2 + 2; omega

/-- The statistics array after the first call is `statistics` of the operand arrays as the call finds them. -/
theorem arr0 (c : Dev nD) :
    (dat0 V c).arrAt 2 cfg0.N = statistics (V c main_v2) (V c main_v4) :=
  (dat0 V c).arrAt_eq_of_cover 2 _ (fun t _ => flushed0_eq V c t) cover0

end Cert.KernelIdeal.KerValue

end
-- ==== Proof.LibDenseTN.lean ====
/-
  A matrix product with the left operand transposed and the right operand transposed, read at an index.

  For `l : [K, A]` and `r : [B, K]` the product with dimension numbers "contract axis 0 of the left with axis 1 of
  the right, no batch axes" — `lᵀ · rᵀ`, what `lax.dot_general(l, r, (((0,), (1,)), ((), ())))` lowers to, on the matrix
  unit (into a zero accumulator) and on the host alike — is, at the ideal instance and at the element `(a, b)`, the
  exact sum over `k` of `l (k, a) · r (b, k)`. General in `K`, `A`, `B` and in the operands' float formats.
-/
import Idealize.ShloMosaic.PureOps.Ideal
import Idealize.ShloMosaic.PureOps.Ideal.Laws
import Idealize.ShloMosaic.Lib.ValueIdx

noncomputable section

open scoped BigOperators

namespace Cert.Lib.DenseTN

open Idealize.ShloMosaic Idealize.ShloMosaic.ValueIdx

/-- The dimension numbers of `lᵀ · rᵀ` for `l : [K, A]`, `r : [B, K]`. -/
abbrev dims (K A B : Nat)
    (wf : DotDims.WF ⟨2, ![K, A]⟩ ⟨2, ![B, K]⟩ ⟨2, ![A, B]⟩ [0] [1] [1] [0] [] []) :
    DotDims ⟨2, ![K, A]⟩ ⟨2, ![B, K]⟩ ⟨2, ![A, B]⟩ where
  lhsContracting := [0]
  rhsContracting := [1]
  lhsNonContracting := [1]
  rhsNonContracting := [0]
  lhsBatch := []
  rhsBatch := []
  wf := wf

section
variable {K A B : Nat} (wf : DotDims.WF ⟨2, ![K, A]⟩ ⟨2, ![B, K]⟩ ⟨2, ![A, B]⟩ [0] [1] [1] [0] [] [])

/-- The left operand's row is the contraction coordinate … -/
theorem lhs0 (i : (⟨2, ![A, B]⟩ : Shape).Idx) (q : (dims K A B wf).contr.Idx) :
    ((dims K A B wf).lhsIdx i q 0).val = (q ⟨0, (Nat.one_pos : 0 < 1)⟩).val :=
  (dims K A B wf).lhsIdx_val_of_single rfl i q

/-- … and its column the result's row. -/
theorem lhs1 (i : (⟨2, ![A, B]⟩ : Shape).Idx) (q : (dims K A B wf).contr.Idx) :
    ((dims K A B wf).lhsIdx i q 1).val = (i 0).val := by
  unfold DotDims.lhsIdx
  rw [dif_neg (show ¬(1 : Fin 2) ∈ (dims K A B wf).lhsBatch from List.not_mem_nil),
    dif_pos (show (1 : Fin 2) ∈ (dims K A B wf).lhsNonContracting from List.mem_singleton.mpr rfl)]
  rfl

/-- The right operand's row is the result's column … -/
theorem rhs0 (i : (⟨2, ![A, B]⟩ : Shape).Idx) (q : (dims K A B wf).contr.Idx) :
    ((dims K A B wf).rhsIdx i q 0).val = (i 1).val := by
  unfold DotDims.rhsIdx
  rw [dif_neg (show ¬(0 : Fin 2) ∈ (dims K A B wf).rhsBatch from List.not_mem_nil),
    dif_pos (show (0 : Fin 2) ∈ (dims K A B wf).rhsNonContracting from List.mem_singleton.mpr rfl)]
  rfl

/-- … and its column the contraction coordinate. -/
theorem rhs1 (i : (⟨2, ![A, B]⟩ : Shape).Idx) (q : (dims K A B wf).contr.Idx) :
    ((dims K A B wf).rhsIdx i q 1).val = (q ⟨0, (Nat.one_pos : 0 < 1)⟩).val :=
  (dims K A B wf).rhsIdx_val_of_single rfl i q

/-- The contraction's sum, re-indexed by its one coordinate. -/
theorem sum_contr {φ₁ φ₂ : FTy} (l : FVec Ideal ⟨2, ![K, A]⟩ φ₁) (r : FVec Ideal ⟨2, ![B, K]⟩ φ₂) (a : Fin A) (b : Fin B) :
    (∑ q : (dims K A B wf).contr.Idx,
        l ((dims K A B wf).lhsIdx (ix2 a b) q) * r ((dims K A B wf).rhsIdx (ix2 a b) q))
      = ∑ k : Fin K, l (ix2 k a) * r (ix2 b k) := by
  rw [← Equiv.sum_comp (contrEquiv1 (dims K A B wf) K rfl rfl).symm]
  refine Finset.sum_congr rfl fun k _ => ?_
  have hk := contrEquiv1_symm_val (dims K A B wf) K rfl rfl k
  have el : (dims K A B wf).lhsIdx (ix2 a b) ((contrEquiv1 (dims K A B wf) K rfl rfl).symm k) = ix2 k a :=
    funext fun x => Fin.ext (by
      match x with
      | ⟨0, _⟩ => exact (lhs0 wf _ _).trans hk
      | ⟨1, _⟩ => exact lhs1 wf _ _)
  have er : (dims K A B wf).rhsIdx (ix2 a b) ((contrEquiv1 (dims K A B wf) K rfl rfl).symm k) = ix2 b k :=
    funext fun x => Fin.ext (by
      match x with
      | ⟨0, _⟩ => exact rhs0 wf _ _
      | ⟨1, _⟩ => exact (rhs1 wf _ _).trans hk)
  rw [el, er]

/-- THE MATRIX UNIT'S PRODUCT into a zero accumulator, read at `(a, b)`. -/
theorem matmul_apply {φ₁ φ₂ : FTy} (prec : Option ContractPrecision)
    (l : FVec Ideal ⟨2, ![K, A]⟩ φ₁) (r : FVec Ideal ⟨2, ![B, K]⟩ φ₂) (a : Fin A) (b : Fin B) :
    FloatOps.matmul (dims K A B wf) prec l r (constant (F := Ideal) ⟨2, ![A, B]⟩ .f32 0x00000000#32) (ix2 a b)
      = ∑ k : Fin K, l (ix2 k a) * r (ix2 b k) := by
  rw [Ideal.matmul_constant_zero_apply]
  exact sum_contr wf l r a b

/-- THE HOST'S PRODUCT, read at `(a, b)`. -/
theorem dotGeneral_apply {φ₁ φ₂ : FTy} (prec : Option ContractPrecision) (sched : HostSchedule)
    (l : FVec Ideal ⟨2, ![K, A]⟩ φ₁) (r : FVec Ideal ⟨2, ![B, K]⟩ φ₂) (a : Fin A) (b : Fin B) :
    FloatOps.dotGeneral (dims K A B wf) prec sched l r (ix2 a b) = ∑ k : Fin K, l (ix2 k a) * r (ix2 b k) := by
  rw [Ideal.dotGeneral_apply]
  exact sum_contr wf l r a b

end

end Cert.Lib.DenseTN

end
-- ==== Proof.LibReshape4.lean ====
/-
  Row-major re-layouts of a rank-4 array, read at an element.

  An array `[a, b, c, d]` and its two flattened views hold the same entries in the same row-major order:
  * `[a·b, c·d]`: row `i·b + j`, column `k·d + l` is the entry `(i, j, k, l)` — in both directions;
  * `[a, b, c·d]`: `(i, j, k·d + l)` is the entry `(i, j, k, l)` — in both directions.
  Also a row `[1, g]` seen as a column `[g, 1]`, and the index a sum over the second axis of a matrix runs over:
  `p` with the coordinate `k` put back is `(p, k)`.
  General in the extents and the element type.
-/
import Idealize.ShloMosaic.PureOps.Ideal
import Idealize.ShloMosaic.Lib.ValueIdx
import Idealize.ShloMosaic.Lib.Pipeline.Value
import Idealize.ShloMosaic.PureOps.Reduce

noncomputable section

namespace Cert.Lib.Reshape4

open Idealize.ShloMosaic Idealize.ShloMosaic.ValueIdx

variable {α : Type}

/-! ## Both pairs of axes merged: `[a, b, c, d] ↔ [a·b, c·d]` -/

/-- `[a, b, c, d]` seen as `[n, m]` (`m = c·d`): row `i·b + j`, column `k·d + l` reads `(i, j, k, l)`. -/
theorem shapeCast_abcd_nm_apply {a b c d n m : Nat} (x : (⟨4, ![a, b, c, d]⟩ : Shape).Idx → α)
    (h : (⟨4, ![a, b, c, d]⟩ : Shape).ShapeCasts ⟨2, ![n, m]⟩) (hm : m = c * d)
    (i : Fin a) (j : Fin b) (k : Fin c) (l : Fin d) (r : Fin n) (q : Fin m)
    (hr : r.val = i.val * b + j.val) (hq : q.val = k.val * d + l.val) :
    shapeCast ⟨2, ![n, m]⟩ x h (ix2 r q) = x (ix4 i j k l) :=
  shapeCast_apply x h _ _ (by
    rw [Shape.rowMajor_val_four, Shape.rowMajor_val_two]
    show ((i.val * b + j.val) * c + k.val) * d + l.val = r.val * m + q.val
    rw [hr, hq, hm]; ring)

/-- `[n, m]` seen as `[a, b, c, d]`: `(i, j, k, l)` reads row `i·b + j`, column `k·d + l`. -/
theorem shapeCast_nm_abcd_apply {a b c d n m : Nat} (y : (⟨2, ![n, m]⟩ : Shape).Idx → α)
    (h : (⟨2, ![n, m]⟩ : Shape).ShapeCasts ⟨4, ![a, b, c, d]⟩) (hm : m = c * d)
    (i : Fin a) (j : Fin b) (k : Fin c) (l : Fin d) (r : Fin n) (q : Fin m)
    (hr : r.val = i.val * b + j.val) (hq : q.val = k.val * d + l.val) :
    shapeCast ⟨4, ![a, b, c, d]⟩ y h (ix4 i j k l) = y (ix2 r q) :=
  shapeCast_apply y h _ _ (by
    rw [Shape.rowMajor_val_four, Shape.rowMajor_val_two]
    show r.val * m + q.val = ((i.val * b + j.val) * c + k.val) * d + l.val
    rw [hr, hq, hm]; ring)

/-! ## The last two axes merged: `[a, b, c, d] ↔ [a, b, c·d]` -/

/-- `[a, b, c, d]` seen as `[a, b, m]` (`m = c·d`): `(i, j, k·d + l)` reads `(i, j, k, l)`. -/
theorem shapeCast_abcd_abm_apply {a b c d m : Nat} (x : (⟨4, ![a, b, c, d]⟩ : Shape).Idx → α)
    (h : (⟨4, ![a, b, c, d]⟩ : Shape).ShapeCasts ⟨3, ![a, b, m]⟩) (hm : m = c * d)
    (i : Fin a) (j : Fin b) (k : Fin c) (l : Fin d) (q : Fin m) (hq : q.val = k.val * d + l.val) :
    shapeCast ⟨3, ![a, b, m]⟩ x h (ix3 i j q) = x (ix4 i j k l) :=
  shapeCast_apply x h _ _ (by
    rw [Shape.rowMajor_val_four, Shape.rowMajor_val_three]
    show ((i.val * b + j.val) * c + k.val) * d + l.val = (i.val * b + j.val) * m + q.val
    rw [hq, hm]; ring)

/-- `[a, b, m]` seen as `[a, b, c, d]`: `(i, j, k, l)` reads `(i, j, k·d + l)`. -/
theorem shapeCast_abm_abcd_apply {a b c d m : Nat} (y : (⟨3, ![a, b, m]⟩ : Shape).Idx → α)
    (h : (⟨3, ![a, b, m]⟩ : Shape).ShapeCasts ⟨4, ![a, b, c, d]⟩) (hm : m = c * d)
    (i : Fin a) (j : Fin b) (k : Fin c) (l : Fin d) (q : Fin m) (hq : q.val = k.val * d + l.val) :
    shapeCast ⟨4, ![a, b, c, d]⟩ y h (ix4 i j k l) = y (ix3 i j q) :=
  shapeCast_apply y h _ _ (by
    rw [Shape.rowMajor_val_four, Shape.rowMajor_val_three]
    show (i.val * b + j.val) * m + q.val = ((i.val * b + j.val) * c + k.val) * d + l.val
    rw [hq, hm]; ring)

/-! ## A row as a column -/

/-- A row `[1, g]` seen as a column `[g, 1]` reads, at `(p, u)`, the row's entry `p`. -/
theorem shapeCast_row_col_apply {g : Nat} (x : (⟨2, ![1, g]⟩ : Shape).Idx → α)
    (h : (⟨2, ![1, g]⟩ : Shape).ShapeCasts ⟨2, ![g, 1]⟩) (p : Fin g) (u : Fin 1) :
    shapeCast ⟨2, ![g, 1]⟩ x h (ix2 p u) = x (ix2 (0 : Fin 1) p) :=
  shapeCast_apply x h _ _ (by
    have hu : u.val = 0 := by omega
    rw [Shape.rowMajor_val_two, Shape.rowMajor_val_two]
    show 0 * g + p.val = p.val * 1 + u.val
    rw [hu, Nat.zero_mul, Nat.zero_add, Nat.mul_one, Nat.add_zero])

/-! ## The index a sum over a matrix's second axis runs over -/

/-- `p` with the coordinate `k` put back on the second axis is `(p, k)`. -/
theorem lift_axis1 {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

end Cert.Lib.Reshape4

end
-- ==== Proof.KerPayload.lean ====
/-
  The arithmetic of the two kernel bodies, read at an index on the extended reals.

  Both bodies start from one haloed image `xim : [1, 68, 68, 64]` and the weight matrix `wf : [576, 128]`
  (row `k = 64·t + ci` holds tap `t`, input channel `ci`). Tap `t` has vertical offset `2·(t / 3)` and
  horizontal offset `2·(t % 3)`; its window of the image, flattened to [4096, 64], has at position
  `r = 64·p + q` and channel `ci` the image's entry at row `p + 2·(t / 3)`, column `q + 2·(t % 3)`.
  The nine windows side by side are the patch matrix [4096, 576], and the product of the transposed
  weights with the transposed patches is the convolution matrix [128, 4096]: at `(c, r)` the sum over
  `k` of `wf (k, c)` times the patch entry `(r, k)`.
  The first body stores, per channel, the sum of the convolution matrix's row and the sum of its squares;
  the second stores the convolution matrix times a scale column plus a shift column.
-/
import proofs.«176068_g2000404705935580_pallasbulk_80_2_alg».proof.Proof.KerRegion0
import proofs.«176068_g2000404705935580_pallasbulk_80_2_alg».proof.Proof.LibDenseTN
import proofs.«176068_g2000404705935580_pallasbulk_80_2_alg».proof.Proof.LibReshape4
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.KerValue

open Cert.KernelIdeal Cert.KernelIdeal.Gen
open Idealize.ShloMosaic Idealize.ShloMosaic.ValueIdx

/-- Every tap's window lies inside the haloed image. -/
theorem tap_slices : ∀ t : Fin 9, S68x68x64.Slices ![2 * (t.val / 3), 2 * (t.val % 3), 0] S64x64x64 := by decide

/-- Tap `t`'s window of a haloed image, flattened to [4096, 64]. -/
def tapPiece (xim : FVec Ideal S1x68x68x64 .bf16) (t : Fin 9) : FVec Ideal S4096x64 .bf16 :=
  shapeCast S4096x64 (extractStridedSlice S64x64x64 ![2 * (t.val / 3), 2 * (t.val % 3), 0]
    (shapeCast S68x68x64 xim shapeCasts_S1x68x68x64_S68x68x64) (tap_slices t)) shapeCasts_S64x64x64_S4096x64

/-- Tap `t`'s window at position `r = 64·p + q` and channel `ci` is the image at row `p + 2·(t / 3)`,
    column `q + 2·(t % 3)`. -/
theorem tapPiece_apply (xim : FVec Ideal S1x68x68x64 .bf16) (t : Fin 9) (r : Fin 4096) (ci : Fin 64) :
    tapPiece xim t (ix2 r ci)
      = xim (ix4 (0 : Fin 1) (⟨r.val / 64 + 2 * (t.val / 3), by have := t.isLt; have := r.isLt; omega⟩ : Fin 68)
          (⟨r.val % 64 + 2 * (t.val % 3), by omega⟩ : Fin 68) ci) := by
  have ht := t.isLt
  have hr := r.isLt
  unfold tapPiece
  refine (shapeCast_apply _ _ (ix2 r ci) (ix3 (⟨r.val / 64, by omega⟩ : Fin 64) (⟨r.val % 64, by omega⟩ : Fin 64) ci) ?_).trans ?_
  · rw [Shape.rowMajor_val_three, Shape.rowMajor_val_two]
    show (r.val / 64 * 64 + r.val % 64) * 64 + ci.val = r.val * 64 + ci.val
    omega
  refine (extractStridedSlice_apply _ _ _ _ (ix3 (⟨r.val / 64 + 2 * (t.val / 3), by omega⟩ : Fin 68)
    (⟨r.val % 64 + 2 * (t.val % 3), by omega⟩ : Fin 68) ci) ?_).trans ?_
  · intro a
    match a with
    | ⟨0, _⟩ => show r.val / 64 + 2 * (t.val / 3) = 2 * (t.val / 3) + r.val / 64; omega
    | ⟨1, _⟩ => show r.val % 64 + 2 * (t.val % 3) = 2 * (t.val % 3) + r.val % 64; omega
    | ⟨2, _⟩ => show ci.val = 0 + ci.val; omega
  refine shapeCast_apply _ _ _ _ ?_
  rw [Shape.rowMajor_val_four, Shape.rowMajor_val_three]
  show ((0 * 68 + (r.val / 64 + 2 * (t.val / 3))) * 68 + (r.val % 64 + 2 * (t.val % 3))) * 64 + ci.val
    = ((r.val / 64 + 2 * (t.val / 3)) * 68 + (r.val % 64 + 2 * (t.val % 3))) * 64 + ci.val
  omega

/-- The patch matrix [4096, 576]: the nine taps' windows side by side. -/
def patches (xim : FVec Ideal S1x68x68x64 .bf16) : FVec Ideal S4096x576 .bf16 :=
  concatenate S4096x576 1 [⟨S4096x64, tapPiece xim 0⟩, ⟨S4096x64, tapPiece xim 1⟩, ⟨S4096x64, tapPiece xim 2⟩,
    ⟨S4096x64, tapPiece xim 3⟩, ⟨S4096x64, tapPiece xim 4⟩, ⟨S4096x64, tapPiece xim 5⟩, ⟨S4096x64, tapPiece xim 6⟩,
    ⟨S4096x64, tapPiece xim 7⟩, ⟨S4096x64, tapPiece xim 8⟩]
    concatenates_S4096x64_S4096x64_S4096x64_S4096x64_S4096x64_S4096x64_S4096x64_S4096x64_S4096x64_S4096x576_d1

/-- The patch matrix at position `r` and column `k = 64·t + ci` is tap `t`'s window at `(r, ci)`. -/
theorem patches_apply (xim : FVec Ideal S1x68x68x64 .bf16) (r : Fin 4096) (k : Fin 576) :
    patches xim (ix2 r k)
      = tapPiece xim (⟨k.val / 64, by have := k.isLt; omega⟩ : Fin 9) (ix2 r (⟨k.val % 64, by omega⟩ : Fin 64)) := by
  unfold patches
  have h' : Shape.Concatenates ((List.ofFn fun n : Fin 9 => (⟨S4096x64, tapPiece xim n⟩ : (s : Shape) × (s.Idx → Ideal .bf16))).map (·.1))
      S4096x576 1 :=
    concatenates_S4096x64_S4096x64_S4096x64_S4096x64_S4096x64_S4096x64_S4096x64_S4096x64_S4096x64_S4096x576_d1
  exact concatenate_ofFn_apply (t := S4096x576) (s₁ := S4096x64) (1 : Fin 2) (fun t : Fin 9 => tapPiece xim t) h'
    rfl 64 rfl (ix2 r k) (⟨k.val / 64, by have := k.isLt; omega⟩ : Fin 9) rfl (ix2 r (⟨k.val % 64, by omega⟩ : Fin 64)) rfl
    (fun b hb => by
      match b with
      | ⟨0, _⟩ => rfl
      | ⟨1, _⟩ => exact absurd rfl hb)

/-- The image's entry that the patch matrix has at position `r`, column `k = 64·t + ci`. -/
def patchAt (xim : FVec Ideal S1x68x68x64 .bf16) (r : Fin 4096) (k : Fin 576) : EReal :=
  xim (ix4 (0 : Fin 1) (⟨r.val / 64 + 2 * (k.val / 64 / 3), by have := k.isLt; have := r.isLt; omega⟩ : Fin 68)
    (⟨r.val % 64 + 2 * (k.val / 64 % 3), by omega⟩ : Fin 68) (⟨k.val % 64, by omega⟩ : Fin 64))

/-- The convolution matrix [128, 4096]: the transposed weights times the transposed patches. -/
def convMat (xim : FVec Ideal S1x68x68x64 .bf16) (wf : FVec Ideal S576x128 .bf16) : FVec Ideal S128x4096 .f32 :=
  matmul dot_S576x128_S4096x576_S128x4096_0_1_1_0_n_n none (shapeCast S576x128 wf shapeCasts_S576x128_S576x128)
    (patches xim) (constant S128x4096 .f32 0x00000000#32)

/-- The convolution matrix at channel `c`, position `r`: the sum over the 576 rows of the weight matrix. -/
theorem convMat_apply (xim : FVec Ideal S1x68x68x64 .bf16) (wf : FVec Ideal S576x128 .bf16) (c : Fin 128) (r : Fin 4096) :
    convMat xim wf (ix2 c r) = ∑ k : Fin 576, wf (ix2 k c) * patchAt xim r k := by
  unfold convMat
  refine (Cert.Lib.DenseTN.matmul_apply dot_S576x128_S4096x576_S128x4096_0_1_1_0_n_n_wf none _ _ c r).trans ?_
  refine Finset.sum_congr rfl fun k _ => ?_
  rw [shapeCast_self, patches_apply, tapPiece_apply]
  rfl

/-- The first body's stored value, over the convolution matrix. -/
theorem pay_stats_eq (xim : FVec Ideal S1x68x68x64 .bf16) (wf : FVec Ideal S576x128 .bf16) :
    k0_pay1 (F := Ideal) xim wf
      = shapeCast S1x128x2 (concatenate S128x2 1
          [⟨S128x1, shapeCast S128x1 (multiReduction (F := Ideal) .add [1] S128 (convMat xim wf) 0x00000000#32 reduces_S128x4096_S128 (.inl rfl) rfl) shapeCasts_S128_S128x1⟩,
           ⟨S128x1, shapeCast S128x1 (multiReduction (F := Ideal) .add [1] S128 (mulf (convMat xim wf) (convMat xim wf)) 0x00000000#32 reduces_S128x4096_S128 (.inl rfl) rfl) shapeCasts_S128_S128x1⟩]
          concatenates_S128x1_S128x1_S128x2_d1) shapeCasts_S128x2_S1x128x2 := rfl

/-- The second body's stored value, over the convolution matrix. -/
theorem pay_apply_eq (xim : FVec Ideal S1x68x68x64 .bf16) (wf : FVec Ideal S576x128 .bf16) (sc sh : FVec Ideal S128x1 .f32) :
    k1_pay1 (F := Ideal) xim wf sc sh
      = shapeCast S1x128x4096 (addf (mulf (convMat xim wf)
            (broadcastTo S128x4096 (shapeCast S128x1 sc shapeCasts_S128x1_S128x1) broadcasts_S128x1_S128x4096))
          (broadcastTo S128x4096 (shapeCast S128x1 sh shapeCasts_S128x1_S128x1) broadcasts_S128x1_S128x4096))
          shapeCasts_S128x4096_S1x128x4096 := rfl

/-- At channel `c` the first column of the first body's stored value is the sum of the convolution matrix's row `c`. -/
theorem pay_stats_sum (xim : FVec Ideal S1x68x68x64 .bf16) (wf : FVec Ideal S576x128 .bf16) (c : Fin 128) :
    k0_pay1 (F := Ideal) xim wf (ix3 (0 : Fin 1) c (0 : Fin 2)) = ∑ r : Fin 4096, convMat xim wf (ix2 c r) := by
  rw [pay_stats_eq]
  refine (shapeCast_apply _ _ (ix3 (0 : Fin 1) c (0 : Fin 2)) (ix2 c (0 : Fin 2)) ?_).trans ?_
  · rw [Shape.rowMajor_val_two, Shape.rowMajor_val_three]
    show c.val * 2 + 0 = (0 * 128 + c.val) * 2 + 0
    omega
  refine (concatenate_pair_apply_left (t := S128x2) (s₁ := S128x1) (s₂ := S128x1) (1 : Fin 2) _ _ _ (ix2 c (0 : Fin 2)) rfl (ix2 c (0 : Fin 1)) (fun b => by
    match b with
    | ⟨0, _⟩ => rfl
    | ⟨1, _⟩ => rfl)).trans ?_
  refine (shapeCast_apply _ _ (ix2 c (0 : Fin 1)) (ix1 c) ?_).trans ?_
  · rw [Shape.rowMajor_val_one, Shape.rowMajor_val_two]
    show c.val = c.val * 1 + 0
    omega
  refine (Ideal.multiReduction_add_single _ _ _ _ _ (ix1 c)).trans ?_
  refine Finset.sum_congr rfl fun k _ => ?_
  rw [Cert.Lib.Reshape4.lift_axis1]
  rfl

/-- At channel `c` the second column of the first body's stored value is the sum of the squares of the convolution
    matrix's row `c`. -/
theorem pay_stats_sq (xim : FVec Ideal S1x68x68x64 .bf16) (wf : FVec Ideal S576x128 .bf16) (c : Fin 128) :
    k0_pay1 (F := Ideal) xim wf (ix3 (0 : Fin 1) c (1 : Fin 2))
      = ∑ r : Fin 4096, convMat xim wf (ix2 c r) * convMat xim wf (ix2 c r) := by
  rw [pay_stats_eq]
  refine (shapeCast_apply _ _ (ix3 (0 : Fin 1) c (1 : Fin 2)) (ix2 c (1 : Fin 2)) ?_).trans ?_
  · rw [Shape.rowMajor_val_two, Shape.rowMajor_val_three]
    show c.val * 2 + 1 = (0 * 128 + c.val) * 2 + 1
    omega
  refine (concatenate_pair_apply_right (t := S128x2) (s₁ := S128x1) (s₂ := S128x1) (1 : Fin 2) _ _ _ (ix2 c (1 : Fin 2)) rfl rfl (ix2 c (0 : Fin 1)) (fun b hb => by
    match b with
    | ⟨0, _⟩ => rfl
    | ⟨1, _⟩ => exact absurd rfl hb) rfl).trans ?_
  refine (shapeCast_apply _ _ (ix2 c (0 : Fin 1)) (ix1 c) ?_).trans ?_
  · rw [Shape.rowMajor_val_one, Shape.rowMajor_val_two]
    show c.val = c.val * 1 + 0
    omega
  refine (Ideal.multiReduction_add_single _ _ _ _ _ (ix1 c)).trans ?_
  refine Finset.sum_congr rfl fun k _ => ?_
  rw [Cert.Lib.Reshape4.lift_axis1]
  rfl

/-- The second body's stored value at channel `c`, position `r`: the convolution matrix there times the scale of
    channel `c`, plus its shift. -/
theorem pay_apply_apply (xim : FVec Ideal S1x68x68x64 .bf16) (wf : FVec Ideal S576x128 .bf16) (sc sh : FVec Ideal S128x1 .f32)
    (c : Fin 128) (r : Fin 4096) :
    k1_pay1 (F := Ideal) xim wf sc sh (ix3 (0 : Fin 1) c r)
      = convMat xim wf (ix2 c r) * sc (ix2 c (0 : Fin 1)) + sh (ix2 c (0 : Fin 1)) := by
  rw [pay_apply_eq]
  refine (shapeCast_apply _ _ (ix3 (0 : Fin 1) c r) (ix2 c r) ?_).trans ?_
  · rw [Shape.rowMajor_val_two, Shape.rowMajor_val_three]
    show c.val * 4096 + r.val = (0 * 128 + c.val) * 4096 + r.val
    omega
  rw [shapeCast_self, shapeCast_self]
  show convMat xim wf (ix2 c r) * broadcastTo S128x4096 sc broadcasts_S128x1_S128x4096 (ix2 c r)
      + broadcastTo S128x4096 sh broadcasts_S128x1_S128x4096 (ix2 c r) = _
  rw [broadcastTo_apply sc _ (ix2 c r) (ix2 c (0 : Fin 1)) (fun a => by
        match a with
        | ⟨0, _⟩ => rfl
        | ⟨1, _⟩ => rfl),
    broadcastTo_apply sh _ (ix2 c r) (ix2 c (0 : Fin 1)) (fun a => by
        match a with
        | ⟨0, _⟩ => rfl
        | ⟨1, _⟩ => rfl)]

end Cert.KernelIdeal.KerValue

end
-- ==== Proof.Spec.lean ====
/-
  The function both programs compute: a 3x3 convolution with dilation 2 over a zero halo of width 2
  (64 input channels, 128 output channels, 64x64 images, batch 32), followed by batch normalisation
  with the batch statistics taken over the batch and the 4096 positions of an image.

  Everything is stated on the extended reals, index by index:
  * `halo x n i j ci` is the image `n` with its halo, at row `i`, column `j` (both below 68) and
    input channel `ci`: the entry `x[n, ci, i-2, j-2]` inside, zero on the halo;
  * `conv x w n c p q` is the sum over the nine taps `t = 3·ky + kx` and the 64 input channels of
    `w[ky, kx, ci, c] · halo[n, p + 2·ky, q + 2·kx, ci]`;
  * `tot1`, `tot2` are the per-channel sums of `conv` and of its square over the batch and the
    positions `r = 64·p + q` of an image, each taken image by image and then over the batch;
  * `scaleOf`, `shiftOf` turn these two sums, `γ` and `β` into the affine map of the normalisation:
    mean = tot1 / 131072, var = max (tot2 / 131072 - mean², 0), scale = γ · rsqrt (var + ε),
    shift = β - mean · scale;
  * `result` is `conv · scale + shift`, laid out as [image, channel, row, column].
-/
import Idealize.ShloMosaic.PureOps.Ideal
import Idealize.ShloMosaic.Lib.ValueIdx

noncomputable section

open Idealize.ShloMosaic Idealize.ShloMosaic.ValueIdx
open scoped BigOperators

namespace Cert.ConvBN

abbrev SX : Shape := ⟨4, ![32, 64, 64, 64]⟩
abbrev SW : Shape := ⟨4, ![3, 3, 64, 128]⟩
abbrev SV : Shape := ⟨1, ![128]⟩
abbrev S0 : Shape := ⟨0, ![]⟩
abbrev SO : Shape := ⟨4, ![32, 128, 64, 64]⟩

/-- Image `n` with its zero halo of width 2, at row `i`, column `j`, input channel `ci`. -/
def halo (x : FVec Ideal SX .f32) (n : Fin 32) (i j : Fin 68) (ci : Fin 64) : EReal :=
  if h : (2 ≤ i.val ∧ i.val < 66) ∧ (2 ≤ j.val ∧ j.val < 66) then
    x (ix4 n ci ⟨i.val - 2, by omega⟩ ⟨j.val - 2, by omega⟩)
  else 0

/-- The vertical offset of tap `t` is `t / 3`, the horizontal one `t % 3`. -/
def tapRow (t : Fin 9) : Fin 3 := ⟨t.val / 3, by have := t.isLt; omega⟩
def tapCol (t : Fin 9) : Fin 3 := ⟨t.val % 3, by omega⟩

/-- The convolution at image `n`, output channel `c`, row `p`, column `q`. -/
def conv (x : FVec Ideal SX .f32) (w : FVec Ideal SW .f32) (n : Fin 32) (c : Fin 128) (p q : Fin 64) : EReal :=
  ∑ t : Fin 9, ∑ ci : Fin 64,
    w (ix4 (tapRow t) (tapCol t) ci c)
      * halo x n ⟨p.val + 2 * (tapRow t).val, by have := (tapRow t).isLt; have := p.isLt; omega⟩
          ⟨q.val + 2 * (tapCol t).val, by have := (tapCol t).isLt; have := q.isLt; omega⟩ ci

/-- The convolution at position `r = 64·p + q` of image `n`. -/
def convAt (x : FVec Ideal SX .f32) (w : FVec Ideal SW .f32) (n : Fin 32) (c : Fin 128) (r : Fin 4096) : EReal :=
  conv x w n c ⟨r.val / 64, by have := r.isLt; omega⟩ ⟨r.val % 64, by omega⟩

/-- The sum of the convolution over the batch and the positions, per output channel. -/
def tot1 (x : FVec Ideal SX .f32) (w : FVec Ideal SW .f32) : FVec Ideal SV .f32 :=
  fun i => Ideal.ofBits .f32 0x00000000#32 + ∑ n : Fin 32, ∑ r : Fin 4096, convAt x w n (i 0) r

/-- The sum of the convolution's square over the batch and the positions, per output channel. -/
def tot2 (x : FVec Ideal SX .f32) (w : FVec Ideal SW .f32) : FVec Ideal SV .f32 :=
  fun i => Ideal.ofBits .f32 0x00000000#32 + ∑ n : Fin 32, ∑ r : Fin 4096, convAt x w n (i 0) r * convAt x w n (i 0) r

/-- The number of summed entries per channel, 32 · 4096 = 131072, as a row. -/
def count : FVec Ideal SV .f32 := broadcastInDim SV ![] (by decide) (constant S0 .f32 0x48000000#32)

/-- The mean per channel. -/
def meanOf (t1 : FVec Ideal SV .f32) : FVec Ideal SV .f32 := Host.divf t1 count

/-- The scale of the normalisation: `γ · rsqrt (max (tot2 / count - mean², 0) + ε)`. -/
def scaleOf (t1 t2 γ : FVec Ideal SV .f32) : FVec Ideal SV .f32 :=
  mulf γ (Host.rsqrt (addf
    (maximumf (subf (Host.divf t2 count) (mulf (meanOf t1) (meanOf t1)))
      (broadcastInDim SV ![] (by decide) (constant S0 .f32 0x00000000#32)))
    (broadcastInDim SV ![] (by decide) (constant S0 .f32 0x3727C5AC#32))))

/-- The shift of the normalisation: `β - mean · scale`. -/
def shiftOf (t1 t2 γ β : FVec Ideal SV .f32) : FVec Ideal SV .f32 :=
  subf β (mulf (meanOf t1) (scaleOf t1 t2 γ))

/-- The normalised convolution, as [image, channel, row, column]. -/
def result (x : FVec Ideal SX .f32) (w : FVec Ideal SW .f32) (γ β : FVec Ideal SV .f32) : FVec Ideal SO .f32 :=
  fun i => conv x w (i 0) (i 1) (i 2) (i 3) * scaleOf (tot1 x w) (tot2 x w) γ (ix1 (i 1))
    + shiftOf (tot1 x w) (tot2 x w) γ β (ix1 (i 1))

end Cert.ConvBN

end
-- ==== Proof.KerHost.lean ====
/-
  The kernel program's host operations read: the result buffer at the last boundary, back through the two
  pallas_calls and the stretches of host operations, as a term of the launch memory's argument arrays.
-/
import proofs.«176068_g2000404705935580_pallasbulk_80_2_alg».proof.Proof.KerRegion0
import proofs.«176068_g2000404705935580_pallasbulk_80_2_alg».proof.Proof.Spec
import Idealize.ShloMosaic.Lib.StableHlo.Run

set_option maxRecDepth 16384

noncomputable section

namespace Cert.KernelIdeal.KerValue

open Cert.KernelIdeal Cert.KernelIdeal.Gen
open Idealize.ShloMosaic Idealize.ShloMosaic.TcCoe Idealize.ShloMosaic.ValueIdx Idealize.SL.Sem
open Idealize.ShloMosaic.StableHlo
open Idealize.ShloMosaic.Pipeline (Dat Cfg Window)

variable (m : (ℓ : Loc nD τ sig) → Buf (Elt Ideal) ℓ) (ρ : Dev nD → PrngReg)

/-- The last stretch reshapes the second call's result [32, 128, 4096] to [32, 128, 64, 64]. -/
theorem W7_result (c : Dev nD) : W7 m ρ c (Proc.devRef .tc main_v28)
    = shapeCast S32x128x64x64 (W6 m ρ c (Proc.devRef .tc main_v27) : S32x128x4096.Idx → EReal) shapeCasts_S32x128x4096_S32x128x64x64 := by
  show StableHlo.after hostOps2 _ (Proc.devRef .tc main_v28) = _
  after_results
  rfl

/-- The second call's result array, from the contents it is entered with. -/
theorem W6_result (c : Dev nD) : W6 m ρ c (Proc.devRef .tc main_v27)
    = applied (V5 m ρ c main_v2) (V5 m ρ c main_v4) (V5 m ρ c main_v25) (V5 m ρ c main_v26) :=
  (W6_arr m ρ c 4).trans (arr1 (V5 m ρ) c)

/-- The haloed input is not written between the two calls, and the first call only reads it. -/
theorem V5_v2 (c : Dev nD) : V5 m ρ c main_v2 = V3 m ρ c main_v2 := by
  show StableHlo.after hostOps1 (W4 m ρ c) (Proc.devRef .tc main_v2) = _
  after_results
  exact (W4_arr m ρ c 0).trans ((dat0 (V3 m ρ) c).arrAt_in 0 rfl _)

/-- The weight matrix is not written between the two calls, and the first call only reads it. -/
theorem V5_v4 (c : Dev nD) : V5 m ρ c main_v4 = V3 m ρ c main_v4 := by
  show StableHlo.after hostOps1 (W4 m ρ c) (Proc.devRef .tc main_v4) = _
  after_results
  exact (W4_arr m ρ c 1).trans ((dat0 (V3 m ρ) c).arrAt_in 1 rfl _)

/-- The statistics array as the middle stretch finds it. -/
theorem W4_stats (c : Dev nD) : W4 m ρ c (Proc.devRef .tc main_v5) = statistics (V3 m ρ c main_v2) (V3 m ρ c main_v4) :=
  (W4_arr m ρ c 2).trans (arr0 (V3 m ρ) c)

/-- No operation before the first call, and not the call, writes `γ`. -/
theorem W4_gamma (c : Dev nD) : W4 m ρ c (Proc.devRef .tc main_arg2) = m ((c : Thread nD τ).loc main_arg2) := by
  refine (W4_of_ne m ρ c main_arg2 (by decide)).trans ?_
  show StableHlo.after hostOps0_2 (StableHlo.after hostOps0_1 (StableHlo.after hostOps0 (W0 m ρ c))) (Proc.devRef .tc main_arg2) = _
  after_results

/-- No operation before the first call, and not the call, writes `β`. -/
theorem W4_beta (c : Dev nD) : W4 m ρ c (Proc.devRef .tc main_arg3) = m ((c : Thread nD τ).loc main_arg3) := by
  refine (W4_of_ne m ρ c main_arg3 (by decide)).trans ?_
  show StableHlo.after hostOps0_2 (StableHlo.after hostOps0_1 (StableHlo.after hostOps0 (W0 m ρ c))) (Proc.devRef .tc main_arg3) = _
  after_results

/-- The per-channel totals over the batch of the statistics array's column `s` (0: the sums, 1: the sums of squares). -/
def totals (st : S32x128x2.Idx → EReal) (s : Fin 2) (hs : S128x2.Slices ![0, s.val] S128x1) : S128.Idx → EReal :=
  shapeCast S128 (extractStridedSlice S128x1 ![0, s.val]
    (Host.reduceAdd (F := Ideal) st (constant (F := Ideal) S_ .f32 0x00000000#32) reducesTo_S32x128x2_S128x2_d0 h_S_) hs) shapeCasts_S128x1_S128

/-- The scale column the second call is given: the normalisation's scale of the two totals and `γ`. -/
theorem V5_scale (c : Dev nD) : V5 m ρ c main_v25
    = shapeCast S128x1 (Cert.ConvBN.scaleOf
        (totals (statistics (V3 m ρ c main_v2) (V3 m ρ c main_v4)) 0 slices_S128x2_S128x1_0_0)
        (totals (statistics (V3 m ρ c main_v2) (V3 m ρ c main_v4)) 1 slices_S128x2_S128x1_0_1)
        (m ((c : Thread nD τ).loc main_arg2))) shapeCasts_S128_S128x1 := by
  show StableHlo.after hostOps1 (W4 m ρ c) (Proc.devRef .tc main_v25) = _
  after_results_simp
  rw [W4_stats, W4_gamma]
  rfl

/-- The shift column the second call is given: the normalisation's shift of the two totals, `γ` and `β`. -/
theorem V5_shift (c : Dev nD) : V5 m ρ c main_v26
    = shapeCast S128x1 (Cert.ConvBN.shiftOf
        (totals (statistics (V3 m ρ c main_v2) (V3 m ρ c main_v4)) 0 slices_S128x2_S128x1_0_0)
        (totals (statistics (V3 m ρ c main_v2) (V3 m ρ c main_v4)) 1 slices_S128x2_S128x1_0_1)
        (m ((c : Thread nD τ).loc main_arg2)) (m ((c : Thread nD τ).loc main_arg3))) shapeCasts_S128_S128x1 := by
  show StableHlo.after hostOps1 (W4 m ρ c) (Proc.devRef .tc main_v26) = _
  after_results_simp
  rw [W4_stats, W4_gamma, W4_beta]
  rfl

/-- The haloed input the calls read: the input with its channel axis moved last, padded by 2 rows and 2 columns on each
    side with the converted integer zero, then narrowed. -/
theorem V3_input (c : Dev nD) : V3 m ρ c main_v2
    = truncf (F := Ideal) .bf16 (pad S32x68x68x64 ![0, 2, 2, 0] ![0, 2, 2, 0] ![0, 0, 0, 0]
        (transpose S32x64x64x64 [0, 2, 3, 1] (m ((c : Thread nD τ).loc main_arg0)) transposes_S32x64x64x64_S32x64x64x64_0_2_3_1)
        (sitofp (F := Ideal) .f32 (constantI S_ 32 0#32)) pads_S32x64x64x64_S32x68x68x64_000_220_220_000 h_S_) bitsLt_bf16_f32 := by
  show StableHlo.after hostOps0_2 (StableHlo.after hostOps0_1 (StableHlo.after hostOps0 (W0 m ρ c))) (Proc.devRef .tc main_v2) = _
  after_results
  rfl

/-- The weight matrix the calls read: the weights with their first three axes merged, then narrowed. -/
theorem V3_weights (c : Dev nD) : V3 m ρ c main_v4
    = truncf (F := Ideal) .bf16 (shapeCast S576x128 (m ((c : Thread nD τ).loc main_arg1)) shapeCasts_S3x3x64x128_S576x128) bitsLt_bf16_f32 := by
  show StableHlo.after hostOps0_2 (StableHlo.after hostOps0_1 (StableHlo.after hostOps0 (W0 m ρ c))) (Proc.devRef .tc main_v4) = _
  after_results
  rfl

end Cert.KernelIdeal.KerValue

end
-- ==== Proof.KerBridge.lean ====
/-
  The kernel program's result is the specification's.

  The haloed input the program builds (channel axis moved last, two zero rows and columns on each side) is
  the specification's `halo`; the weight matrix's row `k = 64·t + ci` is the weights at tap `t`, input channel `ci`;
  so the convolution matrix of image `n` at channel `c`, position `r` is the specification's `convAt`, the sum over the
  576 rows regrouped as nine taps of 64 channels. The statistics array summed over the batch gives the two totals, the
  host's finalising operations are the specification's `scaleOf` and `shiftOf` as they stand, and the second call
  applies them.
-/
import proofs.«176068_g2000404705935580_pallasbulk_80_2_alg».proof.Proof.KerPayload
import proofs.«176068_g2000404705935580_pallasbulk_80_2_alg».proof.Proof.KerHost
import Idealize.ShloMosaic.Lib.KernelVsHost

set_option maxRecDepth 16384

noncomputable section

open scoped BigOperators

namespace Cert.KernelIdeal.KerValue

open Cert.KernelIdeal Cert.KernelIdeal.Gen
open Idealize.ShloMosaic Idealize.ShloMosaic.TcCoe Idealize.ShloMosaic.ValueIdx Idealize.SL.Sem
open Cert.ConvBN (halo conv convAt tot1 tot2 scaleOf shiftOf result tapRow tapCol)

/-- The input as the calls read it: channel axis last, a halo of the converted integer zero, narrowed. -/
def haloed (x : FVec Ideal S32x64x64x64 .f32) : FVec Ideal S32x68x68x64 .bf16 :=
  truncf (F := Ideal) .bf16 (pad S32x68x68x64 ![0, 2, 2, 0] ![0, 2, 2, 0] ![0, 0, 0, 0]
    (transpose S32x64x64x64 [0, 2, 3, 1] x transposes_S32x64x64x64_S32x64x64x64_0_2_3_1)
    (sitofp (F := Ideal) .f32 (constantI S_ 32 0#32)) pads_S32x64x64x64_S32x68x68x64_000_220_220_000 h_S_) bitsLt_bf16_f32

/-- The halo's value: the integer zero converted is the real zero. -/
theorem halo_value : sitofp (F := Ideal) .f32 (constantI S_ 32 0#32) (Shape.Idx.first h_S_) = (0 : EReal) := by
  show (((0#32 : BitVec 32).toInt : ℝ) : EReal) = 0
  simp

/-- Two entries of the haloed image at equal coordinates are equal. -/
theorem halo_congr (x : FVec Ideal Cert.ConvBN.SX .f32) (n : Fin 32) {i i' j j' : Fin 68} {ci ci' : Fin 64}
    (hi : i.val = i'.val) (hj : j.val = j'.val) (hc : ci.val = ci'.val) : halo x n i j ci = halo x n i' j' ci' := by
  obtain rfl : i = i' := Fin.ext hi
  obtain rfl : j = j' := Fin.ext hj
  obtain rfl : ci = ci' := Fin.ext hc
  rfl

/-- The input as the calls read it is the specification's haloed image. -/
theorem haloed_apply (x : FVec Ideal S32x64x64x64 .f32) (n : Fin 32) (i j : Fin 68) (ci : Fin 64) :
    haloed x (ix4 n i j ci) = halo x n i j ci := by
  have hi := i.isLt
  have hj := j.isLt
  unfold haloed halo
  show pad S32x68x68x64 ![0, 2, 2, 0] ![0, 2, 2, 0] ![0, 0, 0, 0]
    (transpose S32x64x64x64 [0, 2, 3, 1] x transposes_S32x64x64x64_S32x64x64x64_0_2_3_1)
    (sitofp (F := Ideal) .f32 (constantI S_ 32 0#32)) pads_S32x64x64x64_S32x68x68x64_000_220_220_000 h_S_ (ix4 n i j ci) = _
  split
  · rename_i h
    refine (pad_apply_of_inside _ _ _ _ _ _ _ (ix4 n i j ci)
      (ix4 n (⟨i.val - 2, by omega⟩ : Fin 64) (⟨j.val - 2, by omega⟩ : Fin 64) ci) ?_).trans ?_
    · intro a
      match a with
      | ⟨0, _⟩ => show n.val = 0 + n.val * (0 + 1); omega
      | ⟨1, _⟩ => show i.val = 2 + (i.val - 2) * (0 + 1); omega
      | ⟨2, _⟩ => show j.val = 2 + (j.val - 2) * (0 + 1); omega
      | ⟨3, _⟩ => show ci.val = 0 + ci.val * (0 + 1); omega
    refine transpose_apply _ _ _ _ (ix4 n ci (⟨i.val - 2, by omega⟩ : Fin 64) (⟨j.val - 2, by omega⟩ : Fin 64)) ?_
    intro b
    match b with
    | ⟨0, _⟩ => rfl
    | ⟨1, _⟩ => rfl
    | ⟨2, _⟩ => rfl
    | ⟨3, _⟩ => rfl
  · rename_i h
    by_cases h1 : 2 ≤ i.val ∧ i.val < 66
    · refine (pad_apply_of_not_inside _ _ _ _ _ _ _ (ix4 n i j ci) (2 : Fin 4) ?_).trans halo_value
      show ¬(2 ≤ j.val ∧ (j.val - 2) % (0 + 1) = 0 ∧ (j.val - 2) / (0 + 1) < 64)
      omega
    · refine (pad_apply_of_not_inside _ _ _ _ _ _ _ (ix4 n i j ci) (1 : Fin 4) ?_).trans halo_value
      show ¬(2 ≤ i.val ∧ (i.val - 2) % (0 + 1) = 0 ∧ (i.val - 2) / (0 + 1) < 64)
      omega

/-- The weight matrix as the calls read it: the first three axes of the weights merged, narrowed. -/
def flatWeights (w : FVec Ideal S3x3x64x128 .f32) : FVec Ideal S576x128 .bf16 :=
  truncf (F := Ideal) .bf16 (shapeCast S576x128 w shapeCasts_S3x3x64x128_S576x128) bitsLt_bf16_f32

/-- Row `k` of the weight matrix holds tap row `k / 192`, tap column `(k / 64) % 3`, input channel `k % 64`. -/
theorem flatWeights_apply (w : FVec Ideal S3x3x64x128 .f32) (k : Fin 576) (c : Fin 128) :
    flatWeights w (ix2 k c)
      = w (ix4 (⟨k.val / 192, by have := k.isLt; omega⟩ : Fin 3) (⟨k.val / 64 % 3, by omega⟩ : Fin 3) (⟨k.val % 64, by omega⟩ : Fin 64) c) := by
  have hk := k.isLt
  unfold flatWeights
  show shapeCast S576x128 w shapeCasts_S3x3x64x128_S576x128 (ix2 k c) = _
  refine shapeCast_apply _ _ _ _ ?_
  rw [Shape.rowMajor_val_four, Shape.rowMajor_val_two]
  show ((k.val / 192 * 3 + k.val / 64 % 3) * 64 + k.val % 64) * 128 + c.val = k.val * 128 + c.val
  omega

/-- A sum over the 576 rows, regrouped as nine taps of 64 channels. -/
theorem sum_taps (g : Fin 576 → EReal) :
    ∑ k : Fin 576, g k
      = ∑ t : Fin 9, ∑ ci : Fin 64, g ⟨64 * t.val + ci.val, by have := t.isLt; have := ci.isLt; omega⟩ := by
  have e := (finProdFinEquiv (m := 9) (n := 64)).sum_comp (fun k : Fin (9 * 64) => g k)
  rw [← e, Fintype.sum_prod_type]
  refine Finset.sum_congr rfl fun t _ => Finset.sum_congr rfl fun ci _ => congrArg g (Fin.ext ?_)
  show ci.val + 64 * t.val = 64 * t.val + ci.val
  omega

/-- The convolution matrix of image `n` of the haloed input with the flattened weights is the specification's
    convolution. -/
theorem convMat_spec (x : FVec Ideal S32x64x64x64 .f32) (w : FVec Ideal S3x3x64x128 .f32) (n : Fin 32) (c : Fin 128)
    (r : Fin 4096) : convMat (imageOf (F := Ideal) (haloed x) n) (flatWeights w) (ix2 c r) = convAt x w n c r := by
  have hr := r.isLt
  rw [convMat_apply, sum_taps]
  unfold Cert.ConvBN.convAt Cert.ConvBN.conv
  refine Finset.sum_congr rfl fun t _ => Finset.sum_congr rfl fun ci _ => ?_
  have ht := t.isLt
  have hci := ci.isLt
  rw [flatWeights_apply]
  unfold patchAt imageOf
  rw [haloed_apply]
  have e1 : (ix4 (⟨(64 * t.val + ci.val) / 192, by omega⟩ : Fin 3) (⟨(64 * t.val + ci.val) / 64 % 3, by omega⟩ : Fin 3)
      (⟨(64 * t.val + ci.val) % 64, by omega⟩ : Fin 64) c : S3x3x64x128.Idx) = ix4 (tapRow t) (tapCol t) ci c := by
    funext a
    apply Fin.ext
    match a with
    | ⟨0, _⟩ => show (64 * t.val + ci.val) / 192 = t.val / 3; omega
    | ⟨1, _⟩ => show (64 * t.val + ci.val) / 64 % 3 = t.val % 3; omega
    | ⟨2, _⟩ => show (64 * t.val + ci.val) % 64 = ci.val; omega
    | ⟨3, _⟩ => rfl
  refine congrArg₂ (· * ·) (congrArg w e1) (halo_congr x n ?_ ?_ ?_)
  · show r.val / 64 + 2 * ((64 * t.val + ci.val) / 64 / 3) = r.val / 64 + 2 * (t.val / 3); omega
  · show r.val % 64 + 2 * ((64 * t.val + ci.val) / 64 % 3) = r.val % 64 + 2 * (t.val % 3); omega
  · show (64 * t.val + ci.val) % 64 = ci.val; omega

/-- The index a sum over the batch axis of the statistics array runs over. -/
theorem lift_batch (h : S32x128x2.Reduces [0] S128x2) (c : Fin 128) (s : Fin 2) (k : Fin (S32x128x2.size 0)) :
    h.lift (ix2 c s) k = ix3 (⟨k.val, k.isLt⟩ : Fin 32) c s := by
  funext ax; apply Fin.ext
  fin_cases ax <;> rfl

/-- The totals over the batch: the zero word plus the sum of the statistics array's column over the 32 images. -/
theorem totals_apply (st : S32x128x2.Idx → EReal) (s : Fin 2) (hs : S128x2.Slices ![0, s.val] S128x1) (c : Fin 128) :
    totals st s hs (ix1 c) = Ideal.ofBits .f32 0x00000000#32 + ∑ n : Fin 32, st (ix3 n c s) := by
  unfold totals
  refine (shapeCast_apply _ _ (ix1 c) (ix2 c (0 : Fin 1)) ?_).trans ?_
  · rw [Shape.rowMajor_val_two, Shape.rowMajor_val_one]
    show c.val * 1 + 0 = c.val
    omega
  refine (extractStridedSlice_apply _ _ _ (ix2 c (0 : Fin 1)) (ix2 c s) ?_).trans ?_
  · intro a
    match a with
    | ⟨0, _⟩ => show c.val = 0 + c.val; omega
    | ⟨1, _⟩ => show s.val = s.val + 0; omega
  refine (Ideal.hostReduceAdd_single reducesTo_S32x128x2_S128x2_d0 (by decide) st _ (ix2 c s)).trans ?_
  refine congrArg₂ (· + ·) rfl (Finset.sum_congr rfl fun k _ => ?_)
  rw [lift_batch]
  rfl

/-- The first call's statistics of the haloed input and the flattened weights: column 0 at image `n`, channel `c` is the
    sum of the convolution over the image's positions. -/
theorem statistics_sum (x : FVec Ideal S32x64x64x64 .f32) (w : FVec Ideal S3x3x64x128 .f32) (n : Fin 32) (c : Fin 128) :
    statistics (F := Ideal) (haloed x) (flatWeights w) (ix3 n c (0 : Fin 2)) = ∑ r : Fin 4096, convAt x w n c r := by
  show k0_pay1 (F := Ideal) (imageOf (F := Ideal) (haloed x) n) (flatWeights w) (ix3 (0 : Fin 1) c (0 : Fin 2)) = _
  rw [pay_stats_sum]
  exact Finset.sum_congr rfl fun r _ => convMat_spec x w n c r

/-- Column 1 is the sum of the convolution's square over the image's positions. -/
theorem statistics_sq (x : FVec Ideal S32x64x64x64 .f32) (w : FVec Ideal S3x3x64x128 .f32) (n : Fin 32) (c : Fin 128) :
    statistics (F := Ideal) (haloed x) (flatWeights w) (ix3 n c (1 : Fin 2))
      = ∑ r : Fin 4096, convAt x w n c r * convAt x w n c r := by
  show k0_pay1 (F := Ideal) (imageOf (F := Ideal) (haloed x) n) (flatWeights w) (ix3 (0 : Fin 1) c (1 : Fin 2)) = _
  rw [pay_stats_sq]
  exact Finset.sum_congr rfl fun r _ => by rw [convMat_spec]

/-- The first total is the specification's. -/
theorem total_sum (x : FVec Ideal S32x64x64x64 .f32) (w : FVec Ideal S3x3x64x128 .f32) :
    totals (statistics (F := Ideal) (haloed x) (flatWeights w)) 0 slices_S128x2_S128x1_0_0 = tot1 x w := by
  funext i
  obtain ⟨ch, rfl⟩ : ∃ ch : Fin 128, i = ix1 ch := ⟨i 0, eq_ix1 i⟩
  rw [totals_apply]
  unfold Cert.ConvBN.tot1
  exact congrArg₂ (· + ·) rfl (Finset.sum_congr rfl fun n _ => statistics_sum x w n ch)

/-- The second total is the specification's. -/
theorem total_sq (x : FVec Ideal S32x64x64x64 .f32) (w : FVec Ideal S3x3x64x128 .f32) :
    totals (statistics (F := Ideal) (haloed x) (flatWeights w)) 1 slices_S128x2_S128x1_0_1 = tot2 x w := by
  funext i
  obtain ⟨ch, rfl⟩ : ∃ ch : Fin 128, i = ix1 ch := ⟨i 0, eq_ix1 i⟩
  rw [totals_apply]
  unfold Cert.ConvBN.tot2
  exact congrArg₂ (· + ·) rfl (Finset.sum_congr rfl fun n _ => statistics_sq x w n ch)

/-- A row of 128 entries seen as a column reads, at `(c, 0)`, the row's entry `c`. -/
theorem column_apply (v : S128.Idx → EReal) (c : Fin 128) :
    shapeCast S128x1 v shapeCasts_S128_S128x1 (ix2 c (0 : Fin 1)) = v (ix1 c) := by
  refine shapeCast_apply _ _ _ _ ?_
  rw [Shape.rowMajor_val_one, Shape.rowMajor_val_two]
  show c.val = c.val * 1 + 0
  omega

variable (m : (ℓ : Loc nD τ sig) → Buf (Elt Ideal) ℓ) (ρ : Dev nD → PrngReg)

/-- THE KERNEL PROGRAM'S RESULT: the result buffer at the last boundary is the specification's `result` of the four
    argument arrays. -/
theorem kernel_result (c : Dev nD) : W7 m ρ c (Proc.devRef .tc main_v28)
    = result (m ((c : Thread nD τ).loc main_arg0)) (m ((c : Thread nD τ).loc main_arg1))
        (m ((c : Thread nD τ).loc main_arg2)) (m ((c : Thread nD τ).loc main_arg3)) := by
  rw [W7_result, W6_result, V5_v2, V5_v4, V5_scale, V5_shift, V3_input, V3_weights]
  funext i
  obtain ⟨n, ch, p, q, rfl⟩ : ∃ (n : Fin 32) (ch : Fin 128) (p q : Fin 64), i = ix4 n ch p q := ⟨i 0, i 1, i 2, i 3, eq_ix4 i⟩
  have hp := p.isLt
  have hq := q.isLt
  refine (Cert.Lib.Reshape4.shapeCast_abm_abcd_apply _ _ rfl n ch p q (⟨p.val * 64 + q.val, by omega⟩ : Fin 4096) rfl).trans ?_
  show k1_pay1 (F := Ideal) (imageOf (F := Ideal) (haloed (m ((c : Thread nD τ).loc main_arg0))) n)
      (flatWeights (m ((c : Thread nD τ).loc main_arg1))) _ _ (ix3 (0 : Fin 1) ch (⟨p.val * 64 + q.val, by omega⟩ : Fin 4096)) = _
  rw [pay_apply_apply, convMat_spec, column_apply, column_apply]
  have h1 := total_sum (m ((c : Thread nD τ).loc main_arg0)) (m ((c : Thread nD τ).loc main_arg1))
  have h2 := total_sq (m ((c : Thread nD τ).loc main_arg0)) (m ((c : Thread nD τ).loc main_arg1))
  unfold haloed flatWeights at h1 h2
  rw [h1, h2]
  unfold Cert.ConvBN.result Cert.ConvBN.convAt
  have e1 : (⟨(p.val * 64 + q.val) / 64, by omega⟩ : Fin 64) = p := Fin.ext (by show (p.val * 64 + q.val) / 64 = p.val; omega)
  have e2 : (⟨(p.val * 64 + q.val) % 64, by omega⟩ : Fin 64) = q := Fin.ext (by show (p.val * 64 + q.val) % 64 = q.val; omega)
  rw [e1, e2]

end Cert.KernelIdeal.KerValue

end
-- ==== Proof.RefRun.lean ====
/-
  The reference program's run with its result array named.

  The program is a chain of twelve segments: eight stretches of host operations (the layout change
  of the images, the four zero paddings and the reshaping of the weights), the first pallas_call
  (the convolution and the per-image sums), a stretch of host operations (the batch statistics and
  the affine map of the normalisation), the second pallas_call (the affine map applied), and a last
  stretch (the layout change of the result). The contents of every buffer at each boundary are a
  fold from the launch memory (`W0` … `W12` of the generated frame); every weakly fair execution
  terminates without a fault, and in its final state every unscoped buffer holds the last
  boundary's contents. Read at the result buffer this gives the result array as `W12` there, beside
  the four argument arrays as launched.
-/
import proofs.«176068_g2000404705935580_pallasbulk_80_2_alg».proof.Proof.Gen.ReferenceIdeal.Frame

set_option maxRecDepth 16384

noncomputable section

namespace Cert.ReferenceIdeal.RefValue

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last
    boundary's contents and the four argument arrays end as launched. -/
theorem run_W12 : θ_run defs (onTc (τ := τ) (main (F := F))) ⟨m, fun _ => 0, ρ⟩ (fun r => ∀ c : Dev nD,
      r.2.mem ((c.tc : Thread nD τ).loc main_v29) = W12 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v29 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c)⟩)

end Cert.ReferenceIdeal.RefValue

end
-- ==== Proof.RefHost.lean ====
/-
  The reference program's host operations read: the result buffer at the last boundary, back
  through the two pallas_calls and the stretches of host operations, as terms of the arrays at the
  boundary before.

  * The last stretch transposes the second call's result [32, 64, 64, 128] to [32, 128, 64, 64].
  * The middle stretch leaves the convolution array as the first call wrote it, and computes the
    scale and shift rows from the per-image sums array, the padded `γ` and the padded `β`: the sums
    over the batch of the two rows of the per-image sums, then the mean, the variance, the scale
    and the shift exactly as the specification writes them.
  * The first eight stretches change the layout of the images to [image, row, column, channel]
    and pad them with a zero halo of width 2 and 64 zero channels; pad the weights with 64 zero
    input channels and reshape them to a [1152, 128] matrix; and pad `γ` and `β` by nothing.
-/
import proofs.«176068_g2000404705935580_pallasbulk_80_2_alg».proof.Proof.Gen.ReferenceIdeal.Frame
import proofs.«176068_g2000404705935580_pallasbulk_80_2_alg».proof.Proof.Spec
import Idealize.ShloMosaic.Lib.StableHlo.Run

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx Idealize.SL.Sem
open Idealize.ShloMosaic.StableHlo
open Idealize.ShloMosaic.Pipeline (Dat Cfg Window)

/-- The sum over the batch of row 0 of the per-image sums [32, 2, 128]: the host's reduction over the batch axis from
    zero, its row 0, as a row of 128. -/
def sumRow (st : FVec Ideal S32x2x128 .f32) : FVec Ideal S128 .f32 :=
  shapeCast S128
    (extractStridedSlice S1x128 ![0, 0]
      (Host.reduceAdd (F := Ideal) st (constant (F := Ideal) S_ .f32 0x00000000#32) reducesTo_S32x2x128_S2x128_d0 h_S_)
      slices_S2x128_S1x128_0_0)
    shapeCasts_S1x128_S128

/-- The same of row 1. -/
def sqRow (st : FVec Ideal S32x2x128 .f32) : FVec Ideal S128 .f32 :=
  shapeCast S128
    (extractStridedSlice S1x128 ![1, 0]
      (Host.reduceAdd (F := Ideal) st (constant (F := Ideal) S_ .f32 0x00000000#32) reducesTo_S32x2x128_S2x128_d0 h_S_)
      slices_S2x128_S1x128_1_0)
    shapeCasts_S1x128_S128

/-- The images in the layout [image, row, column, channel], padded with a zero halo of width 2 and 64 zero channels. -/
def paddedImages (x : FVec Ideal S32x64x64x64 .f32) : FVec Ideal S32x68x68x128 .f32 :=
  pad S32x68x68x128 ![0, 2, 2, 0] ![0, 2, 2, 64] ![0, 0, 0, 0]
    (transpose S32x64x64x64 [0, 2, 3, 1] x transposes_S32x64x64x64_S32x64x64x64_0_2_3_1)
    (sitofp (F := Ideal) .f32 (constantI S_ 32 0#32)) pads_S32x64x64x64_S32x68x68x128_000_220_220_0640 h_S_

/-- The weights padded with 64 zero input channels, as a [1152, 128] matrix. -/
def weightMatrix (w : FVec Ideal S3x3x64x128 .f32) : FVec Ideal S1152x128 .f32 :=
  shapeCast S1152x128
    (pad S3x3x128x128 ![0, 0, 0, 0] ![0, 0, 64, 0] ![0, 0, 0, 0] w
      (sitofp (F := Ideal) .f32 (constantI S_ 32 0#32)) pads_S3x3x64x128_S3x3x128x128_000_000_0640_000 h_S_)
    shapeCasts_S3x3x128x128_S1152x128

variable (m : (ℓ : Loc nD τ sig) → Buf (Elt Ideal) ℓ) (ρ : Dev nD → PrngReg)

/-- The last stretch transposes the second call's result. -/
theorem W12_result (c : Dev nD) : W12 m ρ c (Proc.devRef .tc main_v29)
    = transpose S32x128x64x64 [0, 3, 1, 2] (W11 m ρ c (Proc.devRef .tc main_v28) : S32x64x64x128.Idx → EReal)
        transposes_S32x64x64x128_S32x128x64x64_0_3_1_2 := by
  show StableHlo.after hostOps2 _ (Proc.devRef .tc main_v29) = _
  after_results

/-- The middle stretch does not write the convolution array. -/
theorem W10_conv (c : Dev nD) : W10 m ρ c (Proc.devRef .tc main_v6_0) = W9 m ρ c (Proc.devRef .tc main_v6_0) := by
  show StableHlo.after hostOps1 _ (Proc.devRef .tc main_v6_0) = _
  after_results_simp

/-- The scale row after the middle stretch: the specification's scale of the two batch sums and the padded `γ`. -/
theorem W10_scale (c : Dev nD) : W10 m ρ c (Proc.devRef .tc main_v26)
    = shapeCast S1x1x1x128
        (Cert.ConvBN.scaleOf (sumRow (W9 m ρ c (Proc.devRef .tc main_v6_1))) (sqRow (W9 m ρ c (Proc.devRef .tc main_v6_1)))
          (W9 m ρ c (Proc.devRef .tc main_v4)))
        shapeCasts_S128_S1x1x1x128 := by
  show StableHlo.after hostOps1 _ (Proc.devRef .tc main_v26) = _
  after_results_simp
  rfl

/-- The shift row after the middle stretch: the specification's shift of the two batch sums, the padded `γ` and the
    padded `β`. -/
theorem W10_shift (c : Dev nD) : W10 m ρ c (Proc.devRef .tc main_v27)
    = shapeCast S1x1x1x128
        (Cert.ConvBN.shiftOf (sumRow (W9 m ρ c (Proc.devRef .tc main_v6_1))) (sqRow (W9 m ρ c (Proc.devRef .tc main_v6_1)))
          (W9 m ρ c (Proc.devRef .tc main_v4)) (W9 m ρ c (Proc.devRef .tc main_v5)))
        shapeCasts_S128_S1x1x1x128 := by
  show StableHlo.after hostOps1 _ (Proc.devRef .tc main_v27) = _
  after_results_simp
  rfl

/-- The padded images as the first call finds them. -/
theorem W8_images (c : Dev nD) : W8 m ρ c (Proc.devRef .tc main_v1)
    = paddedImages (m ((c : Thread nD τ).loc main_arg0)) := by
  show StableHlo.after hostOps0_7 _ (Proc.devRef .tc main_v1) = _
  after_results_simp
  rfl

/-- The weight matrix as the first call finds it. -/
theorem W8_weights (c : Dev nD) : W8 m ρ c (Proc.devRef .tc main_v3)
    = weightMatrix (m ((c : Thread nD τ).loc main_arg1)) := by
  show StableHlo.after hostOps0_7 _ (Proc.devRef .tc main_v3) = _
  after_results_simp
  rfl

/-- `γ` padded by nothing, as the first call finds it. -/
theorem W8_gamma (c : Dev nD) : W8 m ρ c (Proc.devRef .tc main_v4)
    = pad S128 ![0] ![0] ![0] (m ((c : Thread nD τ).loc main_arg2) : S128.Idx → EReal)
        (constant (F := Ideal) S_ .f32 0x3F800000#32) pads_S128_S128_000 h_S_ := by
  show StableHlo.after hostOps0_7 _ (Proc.devRef .tc main_v4) = _
  after_results_simp
  rfl

/-- `β` padded by nothing, as the first call finds it. -/
theorem W8_beta (c : Dev nD) : W8 m ρ c (Proc.devRef .tc main_v5)
    = pad S128 ![0] ![0] ![0] (m ((c : Thread nD τ).loc main_arg3) : S128.Idx → EReal)
        (sitofp (F := Ideal) .f32 (constantI S_ 32 0#32)) pads_S128_S128_000 h_S_ := by
  show StableHlo.after hostOps0_7 _ (Proc.devRef .tc main_v5) = _
  after_results_simp
  rfl

end Cert.ReferenceIdeal.RefValue

end
-- ==== Proof.RefRegion0.lean ====
/-
  The first pallas_call's two result arrays, each as one function of its operand arrays.

  The call runs over the 32 images. At image `n` it reads block `n` of the haloed, channel-padded
  input (one image, [1, 68, 68, 128]) and the whole weight matrix ([1152, 128]), and writes block
  `n` of the convolution ([1, 64, 64, 128]) and block `n` of the per-image sums ([1, 2, 128]). So
  the convolution array at `(n, p, q, c)` is the body's first stored value, computed from image
  `n` and the weight matrix, at `(0, p, q, c)`, the sums array at `(n, j, c)` its second stored
  value at `(0, j, c)`; in each array the 32 blocks tile it.
-/
import proofs.«176068_g2000404705935580_pallasbulk_80_2_alg».proof.Proof.Gen.ReferenceIdeal.Frame
import Idealize.ShloMosaic.Lib.Pipeline.Value
import Idealize.ShloMosaic.Lib.ValueIdx

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx Idealize.SL.Sem
open Idealize.ShloMosaic.Pipeline (Dat Cfg Window)

variable {F : FTy → Type} [FloatOps F]
variable (V : (c : Dev nD) → (b : Ref sig .tc) → Buf (Elt F) ((c : Thread nD τ).loc b))

/-- Image `n` of a batch of 32 haloed images [68, 68, 128], as a batch of one. -/
def haloImage (xp : S32x68x68x128.Idx → Elt F .f32) (n : Fin 32) : S1x68x68x128.Idx → Elt F .f32 :=
  fun j => xp (ix4 n (j 1) (j 2) (j 3))

/-- The convolution array of the first call from its two operand arrays. -/
def convArr (xp : S32x68x68x128.Idx → Elt F .f32) (wm : S1152x128.Idx → Elt F .f32) : S32x64x64x128.Idx → Elt F .f32 :=
  fun i => k0_pay3 (haloImage xp (i 0)) wm (ix4 (0 : Fin 1) (i 1) (i 2) (i 3))

/-- The per-image sums array of the first call from its two operand arrays. -/
def sumsArr (xp : S32x68x68x128.Idx → Elt F .f32) (wm : S1152x128.Idx → Elt F .f32) : S32x2x128.Idx → Elt F .f32 :=
  fun i => k0_pay2 (haloImage xp (i 0)) wm (ix3 (0 : Fin 1) (i 1) (i 2))

private theorem zero4 : (![0, 0, 0, 0] : Fin 4 → Nat) = fun _ => 0 := funext fun a => by fin_cases a <;> rfl
private theorem zero3 : (![0, 0, 0] : Fin 3 → Nat) = fun _ => 0 := funext fun a => by fin_cases a <;> rfl
private theorem zero2 : (![0, 0] : Fin 2 → Nat) = fun _ => 0 := funext fun a => by fin_cases a <;> rfl

/-- The index maps of the first call over its grid: the image's, the convolution's and the sums' blocks follow the grid
    point, the weight matrix's block stays at the origin. -/
theorem index_facts0 : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 4) = t.val ∧ win0_2.index t (1 : Fin 4) = 0 ∧ win0_2.index t (2 : Fin 4) = 0 ∧ win0_2.index t (3 : Fin 4) = 0
    ∧ win0_3.index t (0 : Fin 3) = t.val ∧ win0_3.index t (1 : Fin 3) = 0 ∧ win0_3.index t (2 : Fin 3) = 0 :=
  (by decide +kernel : ∀ t : Fin grid0.N, _)

/-- The image block at grid point `t` is image `t`; the weight block is the weight matrix. -/
theorem iblk0_eq (c : Dev nD) (t : Fin cfg0.N) :
    iblk0 V c 0 t = haloImage (V c main_v1) (Fin.cast N_0 t) ∧ iblk0 V c 1 t = V c main_v3 := by
  obtain ⟨a0, a1, a2, a3, b0, b1, c0, c1, c2, c3, d0, d1, d2⟩ := index_facts0 t
  have hI0 : iblk0 V c 0 t = haloImage (V c main_v1) (Fin.cast N_0 t) := by
    funext y
    show V c main_v1 (((cfg0.win 0).blk t).view.emb y) = V c main_v1 _
    refine congrArg _ (funext fun a => Fin.ext ?_)
    match a with
    | ⟨0, _⟩ => show win0_0.index t (0 : Fin 4) * 1 + 1 * (y 0).val = t.val; have : (y 0).val < 1 := (y 0).isLt; omega
    | ⟨1, _⟩ => show win0_0.index t (1 : Fin 4) * 68 + 1 * (y 1).val = (y 1).val; omega
    | ⟨2, _⟩ => show win0_0.index t (2 : Fin 4) * 68 + 1 * (y 2).val = (y 2).val; omega
    | ⟨3, _⟩ => show win0_0.index t (3 : Fin 4) * 128 + 1 * (y 3).val = (y 3).val; omega
  have hI1 : iblk0 V c 1 t = V c main_v3 := by
    funext y
    show V c main_v3 (((cfg0.win 1).blk t).view.emb y) = V c main_v3 y
    refine congrArg _ (funext fun a => Fin.ext ?_)
    match a with
    | ⟨0, _⟩ => show win0_1.index t (0 : Fin 2) * 1152 + 1 * (y 0).val = (y 0).val; omega
    | ⟨1, _⟩ => show win0_1.index t (1 : Fin 2) * 128 + 1 * (y 1).val = (y 1).val; omega
  exact ⟨hI0, hI1⟩

/-- What grid point `t` writes back to the convolution array is block `t` of `convArr` of the operand arrays as the
    call finds them. -/
theorem flushed0_2_eq (c : Dev nD) (t : Fin cfg0.N) :
    (dat0 V c).flushed 2 t = ((cfg0.win 2).blk t).view.read (Elt F) (convArr (V c main_v1) (V c main_v3)) := by
  show (cfg0.win 2).cut (grid0.coords t) ((dat0 V c).after 2 t) = _
  rw [after0_2]
  unfold out0_2
  rw [View.canon_unit_zero zero4]
  simp only [View.ld_unit_zero (S := S1x68x68x128) zero4, View.ld_unit_zero (S := S1152x128) zero2]
  obtain ⟨a0, a1, a2, a3, b0, b1, c0, c1, c2, c3, d0, d1, d2⟩ := index_facts0 t
  obtain ⟨hI0, hI1⟩ := iblk0_eq V c t
  rw [hI0, hI1]
  funext j
  show k0_pay3 (haloImage (V c main_v1) (Fin.cast N_0 t)) (V c main_v3) j
    = convArr (V c main_v1) (V c main_v3) (((cfg0.win 2).blk t).view.emb j)
  unfold convArr
  have hn : (((cfg0.win 2).blk t).view.emb j) 0 = Fin.cast N_0 t :=
    Fin.ext (by show win0_2.index t (0 : Fin 4) * 1 + 1 * (j 0).val = t.val; have : (j 0).val < 1 := (j 0).isLt; omega)
  rw [hn]
  refine congrArg _ (funext fun a => Fin.ext ?_)
  match a with
  | ⟨0, _⟩ => show (j 0).val = 0; have : (j 0).val < 1 := (j 0).isLt; omega
  | ⟨1, _⟩ => show (j 1).val = win0_2.index t (1 : Fin 4) * 64 + 1 * (j 1).val; omega
  | ⟨2, _⟩ => show (j 2).val = win0_2.index t (2 : Fin 4) * 64 + 1 * (j 2).val; omega
  | ⟨3, _⟩ => show (j 3).val = win0_2.index t (3 : Fin 4) * 128 + 1 * (j 3).val; omega

/-- What grid point `t` writes back to the sums array is block `t` of `sumsArr` of the operand arrays as the call
    finds them. -/
theorem flushed0_3_eq (c : Dev nD) (t : Fin cfg0.N) :
    (dat0 V c).flushed 3 t = ((cfg0.win 3).blk t).view.read (Elt F) (sumsArr (V c main_v1) (V c main_v3)) := by
  show (cfg0.win 3).cut (grid0.coords t) ((dat0 V c).after 3 t) = _
  rw [after0_3]
  unfold out0_3
  rw [View.canon_unit_zero zero3]
  simp only [View.ld_unit_zero (S := S1x68x68x128) zero4, View.ld_unit_zero (S := S1152x128) zero2]
  obtain ⟨a0, a1, a2, a3, b0, b1, c0, c1, c2, c3, d0, d1, d2⟩ := index_facts0 t
  obtain ⟨hI0, hI1⟩ := iblk0_eq V c t
  rw [hI0, hI1]
  funext j
  show k0_pay2 (haloImage (V c main_v1) (Fin.cast N_0 t)) (V c main_v3) j
    = sumsArr (V c main_v1) (V c main_v3) (((cfg0.win 3).blk t).view.emb j)
  unfold sumsArr
  have hn : (((cfg0.win 3).blk t).view.emb j) 0 = Fin.cast N_0 t :=
    Fin.ext (by show win0_3.index t (0 : Fin 3) * 1 + 1 * (j 0).val = t.val; have : (j 0).val < 1 := (j 0).isLt; omega)
  rw [hn]
  refine congrArg _ (funext fun a => Fin.ext ?_)
  match a with
  | ⟨0, _⟩ => show (j 0).val = 0; have : (j 0).val < 1 := (j 0).isLt; omega
  | ⟨1, _⟩ => show (j 1).val = win0_3.index t (1 : Fin 3) * 2 + 1 * (j 1).val; omega
  | ⟨2, _⟩ => show (j 2).val = win0_3.index t (2 : Fin 3) * 128 + 1 * (j 2).val; omega

/-- An index of the array is in grid point `t`'s block iff each coordinate is in the block's range. -/
theorem mem_block0_2 (t : Fin cfg0.N) (i : S32x64x64x128.Idx) :
    i ∈ ((cfg0.win 2).blk t).view.set ↔ ∀ a : Fin 4, win0_2.index t a * S1x64x64x128.size a ≤ (i a).val
      ∧ (i a).val < win0_2.index t a * S1x64x64x128.size a + S1x64x64x128.size a := by
  show i ∈ ((View.whole main_v6_0).slice (win0_2.rect t)).set ↔ _
  rw [View.set_slice_whole, Rect.mem_set_unit]
  exact Iff.rfl

/-- An index of the array is in grid point `t`'s block iff each coordinate is in the block's range. -/
theorem mem_block0_3 (t : Fin cfg0.N) (i : S32x2x128.Idx) :
    i ∈ ((cfg0.win 3).blk t).view.set ↔ ∀ a : Fin 3, win0_3.index t a * S1x2x128.size a ≤ (i a).val
      ∧ (i a).val < win0_3.index t a * S1x2x128.size a + S1x2x128.size a := by
  show i ∈ ((View.whole main_v6_1).slice (win0_3.rect t)).set ↔ _
  rw [View.set_slice_whole, Rect.mem_set_unit]
  exact Iff.rfl

/-- Every index of the array is in the block of the grid point that is its image number. -/
theorem cover0_2 (i : S32x64x64x128.Idx) :
    ∃ t : Fin cfg0.N, (cfg0.win 2).flush t = true ∧ i ∈ ((cfg0.win 2).blk t).view.set := by
  have hi0 : (i 0).val < 32 := (i 0).isLt
  have hi1 : (i 1).val < 64 := (i 1).isLt
  have hi2 : (i 2).val < 64 := (i 2).isLt
  have hi3 : (i 3).val < 128 := (i 3).isLt
  refine ⟨Fin.cast N_0.symm (i 0), flush0_2 _, ?_⟩
  rw [mem_block0_2]
  obtain ⟨a0, a1, a2, a3, b0, b1, c0, c1, c2, c3, d0, d1, d2⟩ := index_facts0 (Fin.cast N_0.symm (i 0))
  have e0' : win0_2.index (Fin.cast N_0.symm (i 0)) (0 : Fin 4) = (i 0).val := c0
  intro a
  match a with
  | ⟨0, _⟩ => show win0_2.index (Fin.cast N_0.symm (i 0)) (0 : Fin 4) * 1 ≤ (i 0).val ∧ (i 0).val < win0_2.index (Fin.cast N_0.symm (i 0)) (0 : Fin 4) * 1 + 1; omega
  | ⟨1, _⟩ => show win0_2.index (Fin.cast N_0.symm (i 0)) (1 : Fin 4) * 64 ≤ (i 1).val ∧ (i 1).val < win0_2.index (Fin.cast N_0.symm (i 0)) (1 : Fin 4) * 64 + 64; omega
  | ⟨2, _⟩ => show win0_2.index (Fin.cast N_0.symm (i 0)) (2 : Fin 4) * 64 ≤ (i 2).val ∧ (i 2).val < win0_2.index (Fin.cast N_0.symm (i 0)) (2 : Fin 4) * 64 + 64; omega
  | ⟨3, _⟩ => show win0_2.index (Fin.cast N_0.symm (i 0)) (3 : Fin 4) * 128 ≤ (i 3).val ∧ (i 3).val < win0_2.index (Fin.cast N_0.symm (i 0)) (3 : Fin 4) * 128 + 128; omega

/-- Every index of the array is in the block of the grid point that is its image number. -/
theorem cover0_3 (i : S32x2x128.Idx) :
    ∃ t : Fin cfg0.N, (cfg0.win 3).flush t = true ∧ i ∈ ((cfg0.win 3).blk t).view.set := by
  have hi0 : (i 0).val < 32 := (i 0).isLt
  have hi1 : (i 1).val < 2 := (i 1).isLt
  have hi2 : (i 2).val < 128 := (i 2).isLt
  refine ⟨Fin.cast N_0.symm (i 0), flush0_3 _, ?_⟩
  rw [mem_block0_3]
  obtain ⟨a0, a1, a2, a3, b0, b1, c0, c1, c2, c3, d0, d1, d2⟩ := index_facts0 (Fin.cast N_0.symm (i 0))
  have e0' : win0_3.index (Fin.cast N_0.symm (i 0)) (0 : Fin 3) = (i 0).val := d0
  intro a
  match a with
  | ⟨0, _⟩ => show win0_3.index (Fin.cast N_0.symm (i 0)) (0 : Fin 3) * 1 ≤ (i 0).val ∧ (i 0).val < win0_3.index (Fin.cast N_0.symm (i 0)) (0 : Fin 3) * 1 + 1; omega
  | ⟨1, _⟩ => show win0_3.index (Fin.cast N_0.symm (i 0)) (1 : Fin 3) * 2 ≤ (i 1).val ∧ (i 1).val < win0_3.index (Fin.cast N_0.symm (i 0)) (1 : Fin 3) * 2 + 2; omega
  | ⟨2, _⟩ => show win0_3.index (Fin.cast N_0.symm (i 0)) (2 : Fin 3) * 128 ≤ (i 2).val ∧ (i 2).val < win0_3.index (Fin.cast N_0.symm (i 0)) (2 : Fin 3) * 128 + 128; omega

/-- The convolution array after the first call is `convArr` of the operand arrays as the call finds them. -/
theorem arr0_2 (c : Dev nD) :
    (dat0 V c).arrAt 2 cfg0.N = convArr (V c main_v1) (V c main_v3) :=
  (dat0 V c).arrAt_eq_of_cover 2 _ (fun t _ => flushed0_2_eq V c t) cover0_2

/-- The sums array after the first call is `sumsArr` of the operand arrays as the call finds them. -/
theorem arr0_3 (c : Dev nD) :
    (dat0 V c).arrAt 3 cfg0.N = sumsArr (V c main_v1) (V c main_v3) :=
  (dat0 V c).arrAt_eq_of_cover 3 _ (fun t _ => flushed0_3_eq V c t) cover0_3

end Cert.ReferenceIdeal.RefValue

end
-- ==== Proof.RefRegion1.lean ====
/-
  The second pallas_call's result array as one function of its operand arrays.

  The call runs over the 32 images. At image `n` it reads block `n` of the convolution
  ([1, 64, 64, 128]) and the whole scale and shift rows ([1, 1, 1, 128]), and writes block `n` of
  the result ([1, 64, 64, 128]). So the result array at `(n, p, q, c)` is the body's stored value,
  computed from image `n` and the two rows, at `(0, p, q, c)`; the 32 blocks tile the array.
-/
import proofs.«176068_g2000404705935580_pallasbulk_80_2_alg».proof.Proof.Gen.ReferenceIdeal.Frame
import Idealize.ShloMosaic.Lib.Pipeline.Value
import Idealize.ShloMosaic.Lib.ValueIdx

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx Idealize.SL.Sem
open Idealize.ShloMosaic.Pipeline (Dat Cfg Window)

variable {F : FTy → Type} [FloatOps F]
variable (V : (c : Dev nD) → (b : Ref sig .tc) → Buf (Elt F) ((c : Thread nD τ).loc b))

/-- Image `n` of a batch of 32 arrays [64, 64, 128], as a batch of one. -/
def imageOf (y : S32x64x64x128.Idx → Elt F .f32) (n : Fin 32) : S1x64x64x128.Idx → Elt F .f32 :=
  fun j => y (ix4 n (j 1) (j 2) (j 3))

/-- The result array of the second call from its three operand arrays. -/
def applied (y : S32x64x64x128.Idx → Elt F .f32) (sc sh : S1x1x1x128.Idx → Elt F .f32) : S32x64x64x128.Idx → Elt F .f32 :=
  fun i => k1_pay1 (imageOf y (i 0)) sc sh (ix4 (0 : Fin 1) (i 1) (i 2) (i 3))

private theorem zero4 : (![0, 0, 0, 0] : Fin 4 → Nat) = fun _ => 0 := funext fun a => by fin_cases a <;> rfl

/-- The index maps of the second call over its grid: the convolution's and the result's blocks follow the grid point,
    the scale and shift blocks stay at the origin. -/
theorem index_facts1 : ∀ t : Fin cfg1.N,
    win1_0.index t (0 : Fin 4) = t.val ∧ win1_0.index t (1 : Fin 4) = 0 ∧ win1_0.index t (2 : Fin 4) = 0 ∧ win1_0.index t (3 : Fin 4) = 0
    ∧ win1_1.index t (0 : Fin 4) = 0 ∧ win1_1.index t (1 : Fin 4) = 0 ∧ win1_1.index t (2 : Fin 4) = 0 ∧ win1_1.index t (3 : Fin 4) = 0
    ∧ win1_2.index t (0 : Fin 4) = 0 ∧ win1_2.index t (1 : Fin 4) = 0 ∧ win1_2.index t (2 : Fin 4) = 0 ∧ win1_2.index t (3 : Fin 4) = 0
    ∧ win1_3.index t (0 : Fin 4) = t.val ∧ win1_3.index t (1 : Fin 4) = 0 ∧ win1_3.index t (2 : Fin 4) = 0 ∧ win1_3.index t (3 : Fin 4) = 0 :=
  (by decide +kernel : ∀ t : Fin grid1.N, _)

/-- What grid point `t` writes back is block `t` of `applied` of the operand arrays as the call finds them. -/
theorem flushed1_eq (c : Dev nD) (t : Fin cfg1.N) :
    (dat1 V c).flushed 3 t = ((cfg1.win 3).blk t).view.read (Elt F)
      (applied (V c main_v6_0) (V c main_v26) (V c main_v27)) := by
  show (cfg1.win 3).cut (grid1.coords t) ((dat1 V c).after 3 t) = _
  rw [after1_3]
  unfold out1_3
  rw [View.canon_unit_zero zero4]
  simp only [View.ld_unit_zero (S := S1x64x64x128) zero4, View.ld_unit_zero (S := S1x1x1x128) zero4]
  obtain ⟨a0, a1, a2, a3, b0, b1, b2, b3, c0, c1, c2, c3, d0, d1, d2, d3⟩ := index_facts1 t
  have hI0 : iblk1 V c 0 t = imageOf (V c main_v6_0) (Fin.cast N_1 t) := by
    funext y
    show V c main_v6_0 (((cfg1.win 0).blk t).view.emb y) = V c main_v6_0 _
    refine congrArg _ (funext fun a => Fin.ext ?_)
    match a with
    | ⟨0, _⟩ => show win1_0.index t (0 : Fin 4) * 1 + 1 * (y 0).val = t.val; have : (y 0).val < 1 := (y 0).isLt; omega
    | ⟨1, _⟩ => show win1_0.index t (1 : Fin 4) * 64 + 1 * (y 1).val = (y 1).val; omega
    | ⟨2, _⟩ => show win1_0.index t (2 : Fin 4) * 64 + 1 * (y 2).val = (y 2).val; omega
    | ⟨3, _⟩ => show win1_0.index t (3 : Fin 4) * 128 + 1 * (y 3).val = (y 3).val; omega
  have hI1 : iblk1 V c 1 t = V c main_v26 := by
    funext y
    show V c main_v26 (((cfg1.win 1).blk t).view.emb y) = V c main_v26 y
    refine congrArg _ (funext fun a => Fin.ext ?_)
    match a with
    | ⟨0, _⟩ => show win1_1.index t (0 : Fin 4) * 1 + 1 * (y 0).val = (y 0).val; omega
    | ⟨1, _⟩ => show win1_1.index t (1 : Fin 4) * 1 + 1 * (y 1).val = (y 1).val; omega
    | ⟨2, _⟩ => show win1_1.index t (2 : Fin 4) * 1 + 1 * (y 2).val = (y 2).val; omega
    | ⟨3, _⟩ => show win1_1.index t (3 : Fin 4) * 128 + 1 * (y 3).val = (y 3).val; omega
  have hI2 : iblk1 V c 2 t = V c main_v27 := by
    funext y
    show V c main_v27 (((cfg1.win 2).blk t).view.emb y) = V c main_v27 y
    refine congrArg _ (funext fun a => Fin.ext ?_)
    match a with
    | ⟨0, _⟩ => show win1_2.index t (0 : Fin 4) * 1 + 1 * (y 0).val = (y 0).val; omega
    | ⟨1, _⟩ => show win1_2.index t (1 : Fin 4) * 1 + 1 * (y 1).val = (y 1).val; omega
    | ⟨2, _⟩ => show win1_2.index t (2 : Fin 4) * 1 + 1 * (y 2).val = (y 2).val; omega
    | ⟨3, _⟩ => show win1_2.index t (3 : Fin 4) * 128 + 1 * (y 3).val = (y 3).val; omega
  rw [hI0, hI1, hI2]
  funext j
  show k1_pay1 (imageOf (V c main_v6_0) (Fin.cast N_1 t)) (V c main_v26) (V c main_v27) j
    = applied (V c main_v6_0) (V c main_v26) (V c main_v27) (((cfg1.win 3).blk t).view.emb j)
  unfold applied
  have hn : (((cfg1.win 3).blk t).view.emb j) 0 = Fin.cast N_1 t :=
    Fin.ext (by show win1_3.index t (0 : Fin 4) * 1 + 1 * (j 0).val = t.val; have : (j 0).val < 1 := (j 0).isLt; omega)
  rw [hn]
  refine congrArg _ (funext fun a => Fin.ext ?_)
  match a with
  | ⟨0, _⟩ => show (j 0).val = 0; have : (j 0).val < 1 := (j 0).isLt; omega
  | ⟨1, _⟩ => show (j 1).val = win1_3.index t (1 : Fin 4) * 64 + 1 * (j 1).val; omega
  | ⟨2, _⟩ => show (j 2).val = win1_3.index t (2 : Fin 4) * 64 + 1 * (j 2).val; omega
  | ⟨3, _⟩ => show (j 3).val = win1_3.index t (3 : Fin 4) * 128 + 1 * (j 3).val; omega

/-- An index of the array is in grid point `t`'s block iff each coordinate is in the block's range. -/
theorem mem_block1 (t : Fin cfg1.N) (i : S32x64x64x128.Idx) :
    i ∈ ((cfg1.win 3).blk t).view.set ↔ ∀ a : Fin 4, win1_3.index t a * S1x64x64x128.size a ≤ (i a).val
      ∧ (i a).val < win1_3.index t a * S1x64x64x128.size a + S1x64x64x128.size a := by
  show i ∈ ((View.whole main_v28).slice (win1_3.rect t)).set ↔ _
  rw [View.set_slice_whole, Rect.mem_set_unit]
  exact Iff.rfl

/-- Every index of the array is in the block of the grid point that is its image number. -/
theorem cover1 (i : S32x64x64x128.Idx) :
    ∃ t : Fin cfg1.N, (cfg1.win 3).flush t = true ∧ i ∈ ((cfg1.win 3).blk t).view.set := by
  have hi0 : (i 0).val < 32 := (i 0).isLt
  have hi1 : (i 1).val < 64 := (i 1).isLt
  have hi2 : (i 2).val < 64 := (i 2).isLt
  have hi3 : (i 3).val < 128 := (i 3).isLt
  refine ⟨Fin.cast N_1.symm (i 0), flush1_3 _, ?_⟩
  rw [mem_block1]
  obtain ⟨a0, a1, a2, a3, b0, b1, b2, b3, c0, c1, c2, c3, d0, d1, d2, d3⟩ := index_facts1 (Fin.cast N_1.symm (i 0))
  have e0' : win1_3.index (Fin.cast N_1.symm (i 0)) (0 : Fin 4) = (i 0).val := d0
  intro a
  match a with
  | ⟨0, _⟩ => show win1_3.index (Fin.cast N_1.symm (i 0)) (0 : Fin 4) * 1 ≤ (i 0).val ∧ (i 0).val < win1_3.index (Fin.cast N_1.symm (i 0)) (0 : Fin 4) * 1 + 1; omega
  | ⟨1, _⟩ => show win1_3.index (Fin.cast N_1.symm (i 0)) (1 : Fin 4) * 64 ≤ (i 1).val ∧ (i 1).val < win1_3.index (Fin.cast N_1.symm (i 0)) (1 : Fin 4) * 64 + 64; omega
  | ⟨2, _⟩ => show win1_3.index (Fin.cast N_1.symm (i 0)) (2 : Fin 4) * 64 ≤ (i 2).val ∧ (i 2).val < win1_3.index (Fin.cast N_1.symm (i 0)) (2 : Fin 4) * 64 + 64; omega
  | ⟨3, _⟩ => show win1_3.index (Fin.cast N_1.symm (i 0)) (3 : Fin 4) * 128 ≤ (i 3).val ∧ (i 3).val < win1_3.index (Fin.cast N_1.symm (i 0)) (3 : Fin 4) * 128 + 128; omega

/-- The result array after the second call is `applied` of the operand arrays as the call finds them. -/
theorem arr1 (c : Dev nD) :
    (dat1 V c).arrAt 3 cfg1.N = applied (V c main_v6_0) (V c main_v26) (V c main_v27) :=
  (dat1 V c).arrAt_eq_of_cover 3 _ (fun t _ => flushed1_eq V c t) cover1

end Cert.ReferenceIdeal.RefValue

end
-- ==== Proof.RefPayload.lean ====
/-
  The payloads of the two kernel bodies read at an index, at the ideal values.

  * The second body's stored value at `(0, p, q, c)` is its first operand there times the scale row
    at `c` plus the shift row at `c`.
  * The first body's first stored value at `(0, p, q, c)` is the matrix product at row `64·p + q`,
    column `c`.
  * Its second stored value at `(0, 0, c)` is the sum over the 4096 rows of the matrix product's
    column `c`, at `(0, 1, c)` the sum of its squares.
-/
import proofs.«176068_g2000404705935580_pallasbulk_80_2_alg».proof.Proof.Gen.ReferenceIdeal.Skeleton
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen
open Idealize.ShloMosaic Idealize.ShloMosaic.ValueIdx

/-- The second body's stored value: operand times scale plus shift, entry by entry. -/
theorem k1_pay1_apply (v0 : Vec Ideal S1x64x64x128 .f32) (v2 v6 : Vec Ideal S1x1x1x128 .f32) (p q : Fin 64) (ch : Fin 128) :
    k1_pay1 v0 v2 v6 (ix4 (0 : Fin 1) p q ch)
      = v0 (ix4 (0 : Fin 1) p q ch) * v2 (ix4 (0 : Fin 1) (0 : Fin 1) (0 : Fin 1) ch)
        + v6 (ix4 (0 : Fin 1) (0 : Fin 1) (0 : Fin 1) ch) := by
  unfold k1_pay1
  refine (addf_apply _ _ _).trans ?_
  refine congrArg₂ (· + ·) ((mulf_apply _ _ _).trans (congrArg₂ (· * ·) ?_ ?_)) ?_
  · exact congrFun (shapeCast_self v0 _) _
  · refine (broadcastTo_apply _ _ (ix4 (0 : Fin 1) p q ch) (ix4 (0 : Fin 1) (0 : Fin 1) (0 : Fin 1) ch) fun a => ?_).trans
      (congrFun (shapeCast_self v2 _) _)
    match a with
    | ⟨0, _⟩ => rfl
    | ⟨1, _⟩ => rfl
    | ⟨2, _⟩ => rfl
    | ⟨3, _⟩ => rfl
  · refine (broadcastTo_apply _ _ (ix4 (0 : Fin 1) p q ch) (ix4 (0 : Fin 1) (0 : Fin 1) (0 : Fin 1) ch) fun a => ?_).trans
      (congrFun (shapeCast_self v6 _) _)
    match a with
    | ⟨0, _⟩ => rfl
    | ⟨1, _⟩ => rfl
    | ⟨2, _⟩ => rfl
    | ⟨3, _⟩ => rfl

/-- The first body's first stored value at `(0, p, q, c)` is the matrix product at row `64·p + q`, column `c`. -/
theorem k0_pay3_apply (v0 : Vec Ideal S1x68x68x128 .f32) (v21 : Vec Ideal S1152x128 .f32) (p q : Fin 64) (ch : Fin 128) :
    k0_pay3 v0 v21 (ix4 (0 : Fin 1) p q ch)
      = k0_pay1 v0 v21 (ix2 (⟨64 * p.val + q.val, by have := p.isLt; have := q.isLt; omega⟩ : Fin 4096) ch) := by
  unfold k0_pay3
  refine shapeCast_apply _ _ (ix4 (0 : Fin 1) p q ch) (ix2 (⟨64 * p.val + q.val, by have := p.isLt; have := q.isLt; omega⟩ : Fin 4096) ch) ?_
  rw [Shape.rowMajor_val_two, Shape.rowMajor_val_four]
  show (64 * p.val + q.val) * 128 + ch.val = (((0 * 64 + p.val) * 64 + q.val) * 128 + ch.val)
  omega

/-- The index a sum over the rows inserts at column `c` is `(r, c)`. -/
theorem lift_rows (ch : Fin 128) (r : Fin 4096) :
    (reduces_S4096x128_S128.lift (ix1 ch) r : S4096x128.Idx) = ix2 r ch :=
  funext fun a => Fin.ext (by
    match a with
    | ⟨0, _⟩ => rfl
    | ⟨1, _⟩ => rfl)

/-- The first body's second stored value at `(0, 0, c)`: the sum of column `c` of the matrix product over its rows. -/
theorem k0_pay2_apply0 (v0 : Vec Ideal S1x68x68x128 .f32) (v21 : Vec Ideal S1152x128 .f32) (ch : Fin 128) :
    k0_pay2 v0 v21 (ix3 (0 : Fin 1) (0 : Fin 2) ch) = ∑ r : Fin 4096, k0_pay1 v0 v21 (ix2 r ch) := by
  unfold k0_pay2
  refine (shapeCast_apply _ _ (ix3 (0 : Fin 1) (0 : Fin 2) ch) (ix2 (0 : Fin 2) ch) ?_).trans ?_
  · rw [Shape.rowMajor_val_two, Shape.rowMajor_val_three]
    show 0 * 128 + ch.val = ((0 * 2 + 0) * 128 + ch.val)
    omega
  refine Eq.trans (concatenate_pair_apply_left (t := S2x128) (s₁ := S1x128) (s₂ := S1x128) (0 : Fin 2) _ _ _ (ix2 (0 : Fin 2) ch) rfl (ix2 (0 : Fin 1) ch) fun b => ?_) ?_
  · match b with
    | ⟨0, _⟩ => rfl
    | ⟨1, _⟩ => rfl
  refine (shapeCast_apply _ _ (ix2 (0 : Fin 1) ch) (ix1 ch) ?_).trans ?_
  · rw [Shape.rowMajor_val_one, Shape.rowMajor_val_two]
    show ch.val = 0 * 128 + ch.val
    omega
  refine (Ideal.multiReduction_add_single _ _ reduces_S4096x128_S128 _ _ (ix1 ch)).trans ?_
  exact Finset.sum_congr rfl fun r _ => congrArg _ (lift_rows ch r)

/-- At `(0, 1, c)`: the sum of the squares of column `c` of the matrix product over its rows. -/
theorem k0_pay2_apply1 (v0 : Vec Ideal S1x68x68x128 .f32) (v21 : Vec Ideal S1152x128 .f32) (ch : Fin 128) :
    k0_pay2 v0 v21 (ix3 (0 : Fin 1) (1 : Fin 2) ch)
      = ∑ r : Fin 4096, k0_pay1 v0 v21 (ix2 r ch) * k0_pay1 v0 v21 (ix2 r ch) := by
  unfold k0_pay2
  refine (shapeCast_apply _ _ (ix3 (0 : Fin 1) (1 : Fin 2) ch) (ix2 (1 : Fin 2) ch) ?_).trans ?_
  · rw [Shape.rowMajor_val_two, Shape.rowMajor_val_three]
    show 1 * 128 + ch.val = ((0 * 2 + 1) * 128 + ch.val)
    omega
  refine Eq.trans (concatenate_pair_apply_right (t := S2x128) (s₁ := S1x128) (s₂ := S1x128) (0 : Fin 2) _ _ _ (ix2 (1 : Fin 2) ch) rfl rfl (ix2 (0 : Fin 1) ch) (fun b hb => ?_) ?_) ?_
  · match b with
    | ⟨0, _⟩ => exact absurd rfl hb
    | ⟨1, _⟩ => rfl
  · rfl
  refine (shapeCast_apply _ _ (ix2 (0 : Fin 1) ch) (ix1 ch) ?_).trans ?_
  · rw [Shape.rowMajor_val_one, Shape.rowMajor_val_two]
    show ch.val = 0 * 128 + ch.val
    omega
  refine (Ideal.multiReduction_add_single _ _ reduces_S4096x128_S128 _ _ (ix1 ch)).trans ?_
  exact Finset.sum_congr rfl fun r _ => (congrArg _ (lift_rows ch r)).trans (mulf_apply _ _ _)

end Cert.ReferenceIdeal.RefValue

end
-- ==== Proof.RefOperands.lean ====
/-
  The operand arrays of the first pallas_call read at an index, at the ideal values.

  * The images, moved to the layout [image, row, column, channel] and padded with a halo of width 2
    and 64 more channels, all with the value the integer 0 converts to: at `(n, i, j, k)` the
    specification's haloed image at `(n, i, j, k)` for a channel `k` below 64, zero for the others.
  * The weights, padded with 64 more input channels and reshaped to a [1152, 128] matrix: at row
    `128·t + k`, column `c`, the weight of tap `t`, input channel `k`, output channel `c` for `k`
    below 64, zero for the others.
  * A row of 128 padded by nothing is the row.
-/
import proofs.«176068_g2000404705935580_pallasbulk_80_2_alg».proof.Proof.Gen.ReferenceIdeal
import proofs.«176068_g2000404705935580_pallasbulk_80_2_alg».proof.Proof.Spec
import Idealize.ShloMosaic.Lib.Pipeline.Value
import Idealize.ShloMosaic.Lib.KernelVsHost
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen
open Idealize.ShloMosaic Idealize.ShloMosaic.ValueIdx
open Cert.ConvBN (halo tapRow tapCol)

/-- The padding value: the integer 0 converted to a float is the extended real 0. -/
theorem padValue_eq_zero (i : S_.Idx) : sitofp (F := Ideal) .f32 (constantI S_ 32 0#32) i = (0 : EReal) := by
  show (((0#32 : BitVec 32).toInt : ℝ) : EReal) = 0
  simp

/-- The padded images at `(n, i, j, k)`: the haloed image for a channel below 64, zero for the others. -/
theorem paddedImages_apply (x : FVec Ideal S32x64x64x64 .f32) (n : Fin 32) (i j : Fin 68) (k : Fin 128) :
    pad S32x68x68x128 ![0, 2, 2, 0] ![0, 2, 2, 64] ![0, 0, 0, 0]
        (transpose S32x64x64x64 [0, 2, 3, 1] x transposes_S32x64x64x64_S32x64x64x64_0_2_3_1)
        (sitofp (F := Ideal) .f32 (constantI S_ 32 0#32)) pads_S32x64x64x64_S32x68x68x128_000_220_220_0640 h_S_
        (ix4 n i j k)
      = if h : k.val < 64 then halo x n i j ⟨k.val, h⟩ else 0 := by
  have hi := i.isLt
  have hj := j.isLt
  by_cases hin : ((2 ≤ i.val ∧ i.val < 66) ∧ (2 ≤ j.val ∧ j.val < 66)) ∧ k.val < 64
  · obtain ⟨hij, hk⟩ := hin
    rw [dif_pos hk]
    unfold halo
    rw [dif_pos hij]
    refine (pad_apply_of_inside _ _ _ _ _ _ _ (ix4 n i j k)
      (ix4 n (⟨i.val - 2, by omega⟩ : Fin 64) (⟨j.val - 2, by omega⟩ : Fin 64) (⟨k.val, hk⟩ : Fin 64)) fun a => ?_).trans ?_
    · match a with
      | ⟨0, _⟩ => show n.val = 0 + n.val * (0 + 1); omega
      | ⟨1, _⟩ => show i.val = 2 + (i.val - 2) * (0 + 1); omega
      | ⟨2, _⟩ => show j.val = 2 + (j.val - 2) * (0 + 1); omega
      | ⟨3, _⟩ => show k.val = 0 + k.val * (0 + 1); omega
    · refine transpose_apply _ _ _ _ (ix4 n (⟨k.val, hk⟩ : Fin 64) (⟨i.val - 2, by omega⟩ : Fin 64) (⟨j.val - 2, by omega⟩ : Fin 64)) fun b => ?_
      match b with
      | ⟨0, _⟩ => rfl
      | ⟨1, _⟩ => rfl
      | ⟨2, _⟩ => rfl
      | ⟨3, _⟩ => rfl
  · have hout : ∀ a : Fin 4, ¬((![0, 2, 2, 0] : Fin 4 → Nat) a ≤ ((ix4 n i j k : S32x68x68x128.Idx) (a.cast rfl)).val
          ∧ (((ix4 n i j k : S32x68x68x128.Idx) (a.cast rfl)).val - (![0, 2, 2, 0] : Fin 4 → Nat) a) % ((![0, 0, 0, 0] : Fin 4 → Nat) a + 1) = 0
          ∧ (((ix4 n i j k : S32x68x68x128.Idx) (a.cast rfl)).val - (![0, 2, 2, 0] : Fin 4 → Nat) a) / ((![0, 0, 0, 0] : Fin 4 → Nat) a + 1) < S32x64x64x64.size a)
        → pad S32x68x68x128 ![0, 2, 2, 0] ![0, 2, 2, 64] ![0, 0, 0, 0]
            (transpose S32x64x64x64 [0, 2, 3, 1] x transposes_S32x64x64x64_S32x64x64x64_0_2_3_1)
            (sitofp (F := Ideal) .f32 (constantI S_ 32 0#32)) pads_S32x64x64x64_S32x68x68x128_000_220_220_0640 h_S_
            (ix4 n i j k) = 0 := fun a ha =>
      (pad_apply_of_not_inside _ _ _ _ _ _ _ (ix4 n i j k) a ha).trans (padValue_eq_zero _)
    by_cases hk : k.val < 64
    · rw [dif_pos hk]
      unfold halo
      have hij : ¬((2 ≤ i.val ∧ i.val < 66) ∧ (2 ≤ j.val ∧ j.val < 66)) := fun h => hin ⟨h, hk⟩
      rw [dif_neg hij]
      by_cases hi2 : 2 ≤ i.val ∧ i.val < 66
      · refine hout 2 fun h => ?_
        have h' : 2 ≤ j.val ∧ (j.val - 2) % (0 + 1) = 0 ∧ (j.val - 2) / (0 + 1) < 64 := h
        omega
      · refine hout 1 fun h => ?_
        have h' : 2 ≤ i.val ∧ (i.val - 2) % (0 + 1) = 0 ∧ (i.val - 2) / (0 + 1) < 64 := h
        omega
    · rw [dif_neg hk]
      refine hout 3 fun h => ?_
      have h' : 0 ≤ k.val ∧ (k.val - 0) % (0 + 1) = 0 ∧ (k.val - 0) / (0 + 1) < 64 := h
      omega

/-- The weight matrix at row `128·t + k`, column `c`: the weight of tap `t` for an input channel below 64, zero for the
    others. -/
theorem weightMatrix_apply (w : FVec Ideal S3x3x64x128 .f32) (t : Fin 9) (k : Fin 128) (c : Fin 128) :
    shapeCast S1152x128
        (pad S3x3x128x128 ![0, 0, 0, 0] ![0, 0, 64, 0] ![0, 0, 0, 0] w
          (sitofp (F := Ideal) .f32 (constantI S_ 32 0#32)) pads_S3x3x64x128_S3x3x128x128_000_000_0640_000 h_S_)
        shapeCasts_S3x3x128x128_S1152x128
        (ix2 (⟨128 * t.val + k.val, by have := t.isLt; have := k.isLt; omega⟩ : Fin 1152) c)
      = if h : k.val < 64 then w (ix4 (tapRow t) (tapCol t) ⟨k.val, h⟩ c) else 0 := by
  have ht := t.isLt
  have hk' := k.isLt
  refine (shapeCast_apply _ _ (ix2 (⟨128 * t.val + k.val, by omega⟩ : Fin 1152) c)
    (ix4 (tapRow t) (tapCol t) k c) ?_).trans ?_
  · rw [Shape.rowMajor_val_four, Shape.rowMajor_val_two]
    show (((t.val / 3) * 3 + t.val % 3) * 128 + k.val) * 128 + c.val = (128 * t.val + k.val) * 128 + c.val
    omega
  by_cases hk : k.val < 64
  · rw [dif_pos hk]
    refine pad_apply_of_inside _ _ _ _ _ _ _ (ix4 (tapRow t) (tapCol t) k c)
      (ix4 (tapRow t) (tapCol t) (⟨k.val, hk⟩ : Fin 64) c) fun a => ?_
    match a with
    | ⟨0, _⟩ => show t.val / 3 = 0 + t.val / 3 * (0 + 1); omega
    | ⟨1, _⟩ => show t.val % 3 = 0 + t.val % 3 * (0 + 1); omega
    | ⟨2, _⟩ => show k.val = 0 + k.val * (0 + 1); omega
    | ⟨3, _⟩ => show c.val = 0 + c.val * (0 + 1); omega
  · rw [dif_neg hk]
    refine (pad_apply_of_not_inside _ _ _ _ _ _ _ (ix4 (tapRow t) (tapCol t) k c) 2 fun h => ?_).trans (padValue_eq_zero _)
    have h' : 0 ≤ k.val ∧ (k.val - 0) % (0 + 1) = 0 ∧ (k.val - 0) / (0 + 1) < 64 := h
    omega

/-- A row of 128 padded by nothing is the row. -/
theorem pad_nothing (g : S128.Idx → EReal) (v : S_.Idx → EReal) :
    pad S128 ![0] ![0] ![0] g v pads_S128_S128_000 h_S_ = g := by
  funext i
  refine pad_apply_of_inside _ _ _ _ _ _ _ i i fun a => ?_
  match a with
  | ⟨0, _⟩ => show (i 0).val = 0 + (i 0).val * (0 + 1); omega

end Cert.ReferenceIdeal.RefValue

end
-- ==== Proof.RefTotals.lean ====
/-
  The host's sums over the batch, read at an index, at the ideal values.

  The host reduces the per-image sums [32, 2, 128] over the batch axis from zero, takes row 0 (or
  row 1) of the result [2, 128] and reshapes it to a row of 128. At channel `c` this is zero plus
  the sum over the 32 images of the per-image sums at `(n, 0, c)` (or `(n, 1, c)`).
-/
import proofs.«176068_g2000404705935580_pallasbulk_80_2_alg».proof.Proof.Gen.ReferenceIdeal.Skeleton
import Idealize.ShloMosaic.Lib.Pipeline.Value
import Idealize.ShloMosaic.Lib.ValueIdx
import Idealize.ShloMosaic.PureOps.Ideal.Laws
import Idealize.ShloMosaic.PureOps.Contract
set_option maxRecDepth 16384

noncomputable section

open scoped BigOperators

namespace Cert.ReferenceIdeal.RefValue

open Cert.ReferenceIdeal Cert.ReferenceIdeal.Gen
open Idealize.ShloMosaic Idealize.ShloMosaic.ValueIdx

/-- The index a sum over the batch inserts at `(j, c)` is `(n, j, c)`. -/
theorem lift_batch (hR : S32x2x128.Reduces [0] S2x128) (j : Fin 2) (ch : Fin 128) (n : Fin 32) :
    (hR.lift (ix2 j ch) n : S32x2x128.Idx) = ix3 n j ch :=
  funext fun a => Fin.ext (by
    match a with
    | ⟨0, _⟩ => rfl
    | ⟨1, _⟩ => rfl
    | ⟨2, _⟩ => rfl)

/-- The host's reduction over the batch at `(j, c)`: zero plus the sum over the images. -/
theorem batchReduce_apply (st : FVec Ideal S32x2x128 .f32) (j : Fin 2) (ch : Fin 128) :
    Host.reduceAdd (F := Ideal) st (constant (F := Ideal) S_ .f32 0x00000000#32) reducesTo_S32x2x128_S2x128_d0 h_S_ (ix2 j ch)
      = Ideal.ofBits .f32 0x00000000#32 + ∑ n : Fin 32, st (ix3 n j ch) := by
  have hR : S32x2x128.Reduces [0] S2x128 := by decide
  show Ideal.hostReduceAdd reducesTo_S32x2x128_S2x128_d0 st _ (ix2 j ch) = _
  refine (Ideal.hostReduceAdd_single _ hR st _ (ix2 j ch)).trans ?_
  exact congrArg₂ (· + ·) rfl (Finset.sum_congr rfl fun n _ => congrArg st (lift_batch hR j ch n))

/-- Row 0 of the reduction, as a row of 128, at channel `c`. -/
theorem batchRow0_apply (st : FVec Ideal S32x2x128 .f32) (ch : Fin 128) :
    shapeCast S128
        (extractStridedSlice S1x128 ![0, 0]
          (Host.reduceAdd (F := Ideal) st (constant (F := Ideal) S_ .f32 0x00000000#32) reducesTo_S32x2x128_S2x128_d0 h_S_)
          slices_S2x128_S1x128_0_0)
        shapeCasts_S1x128_S128 (ix1 ch)
      = Ideal.ofBits .f32 0x00000000#32 + ∑ n : Fin 32, st (ix3 n (0 : Fin 2) ch) := by
  refine (shapeCast_apply _ _ (ix1 ch) (ix2 (0 : Fin 1) ch) ?_).trans ?_
  · rw [Shape.rowMajor_val_two, Shape.rowMajor_val_one]
    show 0 * 128 + ch.val = ch.val
    omega
  refine (extractStridedSlice_apply _ _ _ (ix2 (0 : Fin 1) ch) (ix2 (0 : Fin 2) ch) fun a => ?_).trans
    (batchReduce_apply st 0 ch)
  match a with
  | ⟨0, _⟩ => rfl
  | ⟨1, _⟩ => show ch.val = 0 + ch.val; omega

/-- Row 1 of the reduction, as a row of 128, at channel `c`. -/
theorem batchRow1_apply (st : FVec Ideal S32x2x128 .f32) (ch : Fin 128) :
    shapeCast S128
        (extractStridedSlice S1x128 ![1, 0]
          (Host.reduceAdd (F := Ideal) st (constant (F := Ideal) S_ .f32 0x00000000#32) reducesTo_S32x2x128_S2x128_d0 h_S_)
          slices_S2x128_S1x128_1_0)
        shapeCasts_S1x128_S128 (ix1 ch)
      = Ideal.ofBits .f32 0x00000000#32 + ∑ n : Fin 32, st (ix3 n (1 : Fin 2) ch) := by
  refine (shapeCast_apply _ _ (ix1 ch) (ix2 (0 : Fin 1) ch) ?_).trans ?_
  · rw [Shape.rowMajor_val_two, Shape.rowMajor_val_one]
    show 0 * 128 + ch.val = ch.val
    omega
  refine (extractStridedSlice_apply _ _ _ (ix2 (0 : Fin 1) ch) (ix2 (1 : Fin 2) ch) fun a => ?_).trans
    (batchReduce_apply st 1 ch)
  match a with
  | ⟨0, _⟩ => rfl
  | ⟨1, _⟩ => show ch.val = 0 + ch.val; omega

end Cert.ReferenceIdeal.RefValue

end
-- ==== Proof.RefPatches.lean ====
/-
  The left operand of the first body's matrix product, read at an index.

  The body takes the haloed image [1, 68, 68, 128], drops the unit axis, cuts out the nine windows
  [64, 64, 128] at the row and column offsets 0, 2, 4 (tap `t` at row offset `2·(t / 3)`, column
  offset `2·(t % 3)`), flattens each to [4096, 128] (row `r` is position `(r / 64, r % 64)`) and lays
  the nine side by side into [4096, 1152]. So at row `r`, column `128·t + k` it reads the haloed
  image at row `r / 64 + 2·(t / 3)`, column `r % 64 + 2·(t % 3)`, channel `k`.
-/
import proofs.«176068_g2000404705935580_pallasbulk_80_2_alg».proof.Proof.Gen.ReferenceIdeal.Skeleton
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen
open Idealize.ShloMosaic Idealize.ShloMosaic.ValueIdx

/-- The nine shifted windows of the haloed image, flattened and laid side by side. -/
def patches (v0 : Vec Ideal S1x68x68x128 .f32) : FVec Ideal S4096x1152 .f32 :=
  concatenate S4096x1152 1
    [⟨S4096x128, shapeCast S4096x128 (extractStridedSlice S64x64x128 ![0, 0, 0] (shapeCast S68x68x128 v0 shapeCasts_S1x68x68x128_S68x68x128) slices_S68x68x128_o0_0_0_S64x64x128) shapeCasts_S64x64x128_S4096x128⟩,
     ⟨S4096x128, shapeCast S4096x128 (extractStridedSlice S64x64x128 ![0, 2, 0] (shapeCast S68x68x128 v0 shapeCasts_S1x68x68x128_S68x68x128) slices_S68x68x128_o0_2_0_S64x64x128) shapeCasts_S64x64x128_S4096x128⟩,
     ⟨S4096x128, shapeCast S4096x128 (extractStridedSlice S64x64x128 ![0, 4, 0] (shapeCast S68x68x128 v0 shapeCasts_S1x68x68x128_S68x68x128) slices_S68x68x128_o0_4_0_S64x64x128) shapeCasts_S64x64x128_S4096x128⟩,
     ⟨S4096x128, shapeCast S4096x128 (extractStridedSlice S64x64x128 ![2, 0, 0] (shapeCast S68x68x128 v0 shapeCasts_S1x68x68x128_S68x68x128) slices_S68x68x128_o2_0_0_S64x64x128) shapeCasts_S64x64x128_S4096x128⟩,
     ⟨S4096x128, shapeCast S4096x128 (extractStridedSlice S64x64x128 ![2, 2, 0] (shapeCast S68x68x128 v0 shapeCasts_S1x68x68x128_S68x68x128) slices_S68x68x128_o2_2_0_S64x64x128) shapeCasts_S64x64x128_S4096x128⟩,
     ⟨S4096x128, shapeCast S4096x128 (extractStridedSlice S64x64x128 ![2, 4, 0] (shapeCast S68x68x128 v0 shapeCasts_S1x68x68x128_S68x68x128) slices_S68x68x128_o2_4_0_S64x64x128) shapeCasts_S64x64x128_S4096x128⟩,
     ⟨S4096x128, shapeCast S4096x128 (extractStridedSlice S64x64x128 ![4, 0, 0] (shapeCast S68x68x128 v0 shapeCasts_S1x68x68x128_S68x68x128) slices_S68x68x128_o4_0_0_S64x64x128) shapeCasts_S64x64x128_S4096x128⟩,
     ⟨S4096x128, shapeCast S4096x128 (extractStridedSlice S64x64x128 ![4, 2, 0] (shapeCast S68x68x128 v0 shapeCasts_S1x68x68x128_S68x68x128) slices_S68x68x128_o4_2_0_S64x64x128) shapeCasts_S64x64x128_S4096x128⟩,
     ⟨S4096x128, shapeCast S4096x128 (extractStridedSlice S64x64x128 ![4, 4, 0] (shapeCast S68x68x128 v0 shapeCasts_S1x68x68x128_S68x68x128) slices_S68x68x128_o4_4_0_S64x64x128) shapeCasts_S64x64x128_S4096x128⟩]
    concatenates_S4096x128_S4096x128_S4096x128_S4096x128_S4096x128_S4096x128_S4096x128_S4096x128_S4096x128_S4096x1152_d1

/-- The matrix product of the first body is the product of these windows with the weight matrix, into zeros. -/
theorem k0_pay1_eq (v0 : Vec Ideal S1x68x68x128 .f32) (v21 : Vec Ideal S1152x128 .f32) :
    k0_pay1 v0 v21
      = matmul dot_S4096x1152_S1152x128_S4096x128_1_0_0_1_n_n none (patches v0)
          (shapeCast S1152x128 v21 shapeCasts_S1152x128_S1152x128 : FVec Ideal S1152x128 .f32)
          (constant S4096x128 .f32 0x00000000#32) := rfl

/-- One window, flattened, at `(r, k)`: the haloed image at the window's offsets plus `(r / 64, r % 64)`. -/
theorem window_apply (v0 : Vec Ideal S1x68x68x128 .f32) (oy ox : ℕ) (hy : oy ≤ 4) (hx : ox ≤ 4)
    (h : S68x68x128.Slices ![oy, ox, 0] S64x64x128) (r : Fin 4096) (k : Fin 128) :
    shapeCast S4096x128
        (extractStridedSlice S64x64x128 ![oy, ox, 0] (shapeCast S68x68x128 v0 shapeCasts_S1x68x68x128_S68x68x128) h)
        shapeCasts_S64x64x128_S4096x128 (ix2 r k)
      = v0 (ix4 (0 : Fin 1) (⟨r.val / 64 + oy, by have := r.isLt; omega⟩ : Fin 68)
          (⟨r.val % 64 + ox, by omega⟩ : Fin 68) k) := by
  have hr := r.isLt
  refine (shapeCast_apply _ _ (ix2 r k)
    (ix3 (⟨r.val / 64, by omega⟩ : Fin 64) (⟨r.val % 64, by omega⟩ : Fin 64) k) ?_).trans ?_
  · rw [Shape.rowMajor_val_three, Shape.rowMajor_val_two]
    show ((r.val / 64) * 64 + r.val % 64) * 128 + k.val = r.val * 128 + k.val
    omega
  refine (extractStridedSlice_apply _ _ _ _
    (ix3 (⟨r.val / 64 + oy, by omega⟩ : Fin 68) (⟨r.val % 64 + ox, by omega⟩ : Fin 68) k) fun a => ?_).trans ?_
  · match a with
    | ⟨0, _⟩ => show r.val / 64 + oy = oy + r.val / 64; omega
    | ⟨1, _⟩ => show r.val % 64 + ox = ox + r.val % 64; omega
    | ⟨2, _⟩ => show k.val = 0 + k.val; omega
  refine shapeCast_apply _ _ _ (ix4 (0 : Fin 1) (⟨r.val / 64 + oy, by omega⟩ : Fin 68) (⟨r.val % 64 + ox, by omega⟩ : Fin 68) k) ?_
  rw [Shape.rowMajor_val_four, Shape.rowMajor_val_three]
  show (((0 * 68 + (r.val / 64 + oy)) * 68 + (r.val % 64 + ox)) * 128 + k.val)
    = ((r.val / 64 + oy) * 68 + (r.val % 64 + ox)) * 128 + k.val
  omega

/-- Tap 0: columns 0 to 127 are the window at row offset 0, column offset 0. -/
theorem patches_tap0 (v0 : Vec Ideal S1x68x68x128 .f32) (r : Fin 4096) (k : Fin 128) :
    patches v0 (ix2 r (⟨0 + k.val, by have := k.isLt; omega⟩ : Fin 1152))
      = v0 (ix4 (0 : Fin 1) (⟨r.val / 64 + 0, by have := r.isLt; omega⟩ : Fin 68)
          (⟨r.val % 64 + 0, by omega⟩ : Fin 68) k) := by
  unfold patches
  refine (concatenate_apply_piece (t := S4096x1152) (1 : Fin 2) _ _ (ix2 r (⟨0 + k.val, by have := k.isLt; omega⟩ : Fin 1152))
    0 (by simp) S4096x128 _ rfl rfl 0 rfl (ix2 r k) (fun b hb => ?_) ?_).trans
    (window_apply v0 0 0 (by omega) (by omega) _ r k)
  · match b with
    | ⟨0, _⟩ => rfl
    | ⟨1, _⟩ => exact absurd rfl hb
  · rfl

/-- Tap 1: columns 128 to 255 are the window at row offset 0, column offset 2. -/
theorem patches_tap1 (v0 : Vec Ideal S1x68x68x128 .f32) (r : Fin 4096) (k : Fin 128) :
    patches v0 (ix2 r (⟨128 + k.val, by have := k.isLt; omega⟩ : Fin 1152))
      = v0 (ix4 (0 : Fin 1) (⟨r.val / 64 + 0, by have := r.isLt; omega⟩ : Fin 68)
          (⟨r.val % 64 + 2, by omega⟩ : Fin 68) k) := by
  unfold patches
  refine (concatenate_apply_piece (t := S4096x1152) (1 : Fin 2) _ _ (ix2 r (⟨128 + k.val, by have := k.isLt; omega⟩ : Fin 1152))
    1 (by simp) S4096x128 _ rfl rfl 128 rfl (ix2 r k) (fun b hb => ?_) ?_).trans
    (window_apply v0 0 2 (by omega) (by omega) _ r k)
  · match b with
    | ⟨0, _⟩ => rfl
    | ⟨1, _⟩ => exact absurd rfl hb
  · rfl

/-- Tap 2: columns 256 to 383 are the window at row offset 0, column offset 4. -/
theorem patches_tap2 (v0 : Vec Ideal S1x68x68x128 .f32) (r : Fin 4096) (k : Fin 128) :
    patches v0 (ix2 r (⟨256 + k.val, by have := k.isLt; omega⟩ : Fin 1152))
      = v0 (ix4 (0 : Fin 1) (⟨r.val / 64 + 0, by have := r.isLt; omega⟩ : Fin 68)
          (⟨r.val % 64 + 4, by omega⟩ : Fin 68) k) := by
  unfold patches
  refine (concatenate_apply_piece (t := S4096x1152) (1 : Fin 2) _ _ (ix2 r (⟨256 + k.val, by have := k.isLt; omega⟩ : Fin 1152))
    2 (by simp) S4096x128 _ rfl rfl 256 rfl (ix2 r k) (fun b hb => ?_) ?_).trans
    (window_apply v0 0 4 (by omega) (by omega) _ r k)
  · match b with
    | ⟨0, _⟩ => rfl
    | ⟨1, _⟩ => exact absurd rfl hb
  · rfl

/-- Tap 3: columns 384 to 511 are the window at row offset 2, column offset 0. -/
theorem patches_tap3 (v0 : Vec Ideal S1x68x68x128 .f32) (r : Fin 4096) (k : Fin 128) :
    patches v0 (ix2 r (⟨384 + k.val, by have := k.isLt; omega⟩ : Fin 1152))
      = v0 (ix4 (0 : Fin 1) (⟨r.val / 64 + 2, by have := r.isLt; omega⟩ : Fin 68)
          (⟨r.val % 64 + 0, by omega⟩ : Fin 68) k) := by
  unfold patches
  refine (concatenate_apply_piece (t := S4096x1152) (1 : Fin 2) _ _ (ix2 r (⟨384 + k.val, by have := k.isLt; omega⟩ : Fin 1152))
    3 (by simp) S4096x128 _ rfl rfl 384 rfl (ix2 r k) (fun b hb => ?_) ?_).trans
    (window_apply v0 2 0 (by omega) (by omega) _ r k)
  · match b with
    | ⟨0, _⟩ => rfl
    | ⟨1, _⟩ => exact absurd rfl hb
  · rfl

/-- Tap 4: columns 512 to 639 are the window at row offset 2, column offset 2. -/
theorem patches_tap4 (v0 : Vec Ideal S1x68x68x128 .f32) (r : Fin 4096) (k : Fin 128) :
    patches v0 (ix2 r (⟨512 + k.val, by have := k.isLt; omega⟩ : Fin 1152))
      = v0 (ix4 (0 : Fin 1) (⟨r.val / 64 + 2, by have := r.isLt; omega⟩ : Fin 68)
          (⟨r.val % 64 + 2, by omega⟩ : Fin 68) k) := by
  unfold patches
  refine (concatenate_apply_piece (t := S4096x1152) (1 : Fin 2) _ _ (ix2 r (⟨512 + k.val, by have := k.isLt; omega⟩ : Fin 1152))
    4 (by simp) S4096x128 _ rfl rfl 512 rfl (ix2 r k) (fun b hb => ?_) ?_).trans
    (window_apply v0 2 2 (by omega) (by omega) _ r k)
  · match b with
    | ⟨0, _⟩ => rfl
    | ⟨1, _⟩ => exact absurd rfl hb
  · rfl

/-- Tap 5: columns 640 to 767 are the window at row offset 2, column offset 4. -/
theorem patches_tap5 (v0 : Vec Ideal S1x68x68x128 .f32) (r : Fin 4096) (k : Fin 128) :
    patches v0 (ix2 r (⟨640 + k.val, by have := k.isLt; omega⟩ : Fin 1152))
      = v0 (ix4 (0 : Fin 1) (⟨r.val / 64 + 2, by have := r.isLt; omega⟩ : Fin 68)
          (⟨r.val % 64 + 4, by omega⟩ : Fin 68) k) := by
  unfold patches
  refine (concatenate_apply_piece (t := S4096x1152) (1 : Fin 2) _ _ (ix2 r (⟨640 + k.val, by have := k.isLt; omega⟩ : Fin 1152))
    5 (by simp) S4096x128 _ rfl rfl 640 rfl (ix2 r k) (fun b hb => ?_) ?_).trans
    (window_apply v0 2 4 (by omega) (by omega) _ r k)
  · match b with
    | ⟨0, _⟩ => rfl
    | ⟨1, _⟩ => exact absurd rfl hb
  · rfl

/-- Tap 6: columns 768 to 895 are the window at row offset 4, column offset 0. -/
theorem patches_tap6 (v0 : Vec Ideal S1x68x68x128 .f32) (r : Fin 4096) (k : Fin 128) :
    patches v0 (ix2 r (⟨768 + k.val, by have := k.isLt; omega⟩ : Fin 1152))
      = v0 (ix4 (0 : Fin 1) (⟨r.val / 64 + 4, by have := r.isLt; omega⟩ : Fin 68)
          (⟨r.val % 64 + 0, by omega⟩ : Fin 68) k) := by
  unfold patches
  refine (concatenate_apply_piece (t := S4096x1152) (1 : Fin 2) _ _ (ix2 r (⟨768 + k.val, by have := k.isLt; omega⟩ : Fin 1152))
    6 (by simp) S4096x128 _ rfl rfl 768 rfl (ix2 r k) (fun b hb => ?_) ?_).trans
    (window_apply v0 4 0 (by omega) (by omega) _ r k)
  · match b with
    | ⟨0, _⟩ => rfl
    | ⟨1, _⟩ => exact absurd rfl hb
  · rfl

/-- Tap 7: columns 896 to 1023 are the window at row offset 4, column offset 2. -/
theorem patches_tap7 (v0 : Vec Ideal S1x68x68x128 .f32) (r : Fin 4096) (k : Fin 128) :
    patches v0 (ix2 r (⟨896 + k.val, by have := k.isLt; omega⟩ : Fin 1152))
      = v0 (ix4 (0 : Fin 1) (⟨r.val / 64 + 4, by have := r.isLt; omega⟩ : Fin 68)
          (⟨r.val % 64 + 2, by omega⟩ : Fin 68) k) := by
  unfold patches
  refine (concatenate_apply_piece (t := S4096x1152) (1 : Fin 2) _ _ (ix2 r (⟨896 + k.val, by have := k.isLt; omega⟩ : Fin 1152))
    7 (by simp) S4096x128 _ rfl rfl 896 rfl (ix2 r k) (fun b hb => ?_) ?_).trans
    (window_apply v0 4 2 (by omega) (by omega) _ r k)
  · match b with
    | ⟨0, _⟩ => rfl
    | ⟨1, _⟩ => exact absurd rfl hb
  · rfl

/-- Tap 8: columns 1024 to 1151 are the window at row offset 4, column offset 4. -/
theorem patches_tap8 (v0 : Vec Ideal S1x68x68x128 .f32) (r : Fin 4096) (k : Fin 128) :
    patches v0 (ix2 r (⟨1024 + k.val, by have := k.isLt; omega⟩ : Fin 1152))
      = v0 (ix4 (0 : Fin 1) (⟨r.val / 64 + 4, by have := r.isLt; omega⟩ : Fin 68)
          (⟨r.val % 64 + 4, by omega⟩ : Fin 68) k) := by
  unfold patches
  refine (concatenate_apply_piece (t := S4096x1152) (1 : Fin 2) _ _ (ix2 r (⟨1024 + k.val, by have := k.isLt; omega⟩ : Fin 1152))
    8 (by simp) S4096x128 _ rfl rfl 1024 rfl (ix2 r k) (fun b hb => ?_) ?_).trans
    (window_apply v0 4 4 (by omega) (by omega) _ r k)
  · match b with
    | ⟨0, _⟩ => rfl
    | ⟨1, _⟩ => exact absurd rfl hb
  · rfl

/-- The windows at row `r`, column `128·t + k`: the haloed image at row `r / 64 + 2·(t / 3)`, column
    `r % 64 + 2·(t % 3)`, channel `k` — the column and the two coordinates given by their values. -/
theorem patches_apply_of_eq (v0 : Vec Ideal S1x68x68x128 .f32) (r : Fin 4096) (T : ℕ) (hT : T < 9) (k : Fin 128)
    (col : Fin 1152) (i j : Fin 68) (hcol : col.val = 128 * T + k.val)
    (hi : i.val = r.val / 64 + 2 * (T / 3)) (hj : j.val = r.val % 64 + 2 * (T % 3)) :
    patches v0 (ix2 r col) = v0 (ix4 (0 : Fin 1) i j k) := by
  have hk := k.isLt
  have hr := r.isLt
  interval_cases T
  · obtain rfl : col = (⟨0 + k.val, by clear hcol hi hj; omega⟩ : Fin 1152) := Fin.ext (by omega)
    obtain rfl : i = (⟨r.val / 64 + 0, by clear hcol hi hj; omega⟩ : Fin 68) := Fin.ext (by omega)
    obtain rfl : j = (⟨r.val % 64 + 0, by clear hcol hi hj; omega⟩ : Fin 68) := Fin.ext (by omega)
    exact patches_tap0 v0 r k
  · obtain rfl : col = (⟨128 + k.val, by clear hcol hi hj; omega⟩ : Fin 1152) := Fin.ext (by omega)
    obtain rfl : i = (⟨r.val / 64 + 0, by clear hcol hi hj; omega⟩ : Fin 68) := Fin.ext (by omega)
    obtain rfl : j = (⟨r.val % 64 + 2, by clear hcol hi hj; omega⟩ : Fin 68) := Fin.ext (by omega)
    exact patches_tap1 v0 r k
  · obtain rfl : col = (⟨256 + k.val, by clear hcol hi hj; omega⟩ : Fin 1152) := Fin.ext (by omega)
    obtain rfl : i = (⟨r.val / 64 + 0, by clear hcol hi hj; omega⟩ : Fin 68) := Fin.ext (by omega)
    obtain rfl : j = (⟨r.val % 64 + 4, by clear hcol hi hj; omega⟩ : Fin 68) := Fin.ext (by omega)
    exact patches_tap2 v0 r k
  · obtain rfl : col = (⟨384 + k.val, by clear hcol hi hj; omega⟩ : Fin 1152) := Fin.ext (by omega)
    obtain rfl : i = (⟨r.val / 64 + 2, by clear hcol hi hj; omega⟩ : Fin 68) := Fin.ext (by omega)
    obtain rfl : j = (⟨r.val % 64 + 0, by clear hcol hi hj; omega⟩ : Fin 68) := Fin.ext (by omega)
    exact patches_tap3 v0 r k
  · obtain rfl : col = (⟨512 + k.val, by clear hcol hi hj; omega⟩ : Fin 1152) := Fin.ext (by omega)
    obtain rfl : i = (⟨r.val / 64 + 2, by clear hcol hi hj; omega⟩ : Fin 68) := Fin.ext (by omega)
    obtain rfl : j = (⟨r.val % 64 + 2, by clear hcol hi hj; omega⟩ : Fin 68) := Fin.ext (by omega)
    exact patches_tap4 v0 r k
  · obtain rfl : col = (⟨640 + k.val, by clear hcol hi hj; omega⟩ : Fin 1152) := Fin.ext (by omega)
    obtain rfl : i = (⟨r.val / 64 + 2, by clear hcol hi hj; omega⟩ : Fin 68) := Fin.ext (by omega)
    obtain rfl : j = (⟨r.val % 64 + 4, by clear hcol hi hj; omega⟩ : Fin 68) := Fin.ext (by omega)
    exact patches_tap5 v0 r k
  · obtain rfl : col = (⟨768 + k.val, by clear hcol hi hj; omega⟩ : Fin 1152) := Fin.ext (by omega)
    obtain rfl : i = (⟨r.val / 64 + 4, by clear hcol hi hj; omega⟩ : Fin 68) := Fin.ext (by omega)
    obtain rfl : j = (⟨r.val % 64 + 0, by clear hcol hi hj; omega⟩ : Fin 68) := Fin.ext (by omega)
    exact patches_tap6 v0 r k
  · obtain rfl : col = (⟨896 + k.val, by clear hcol hi hj; omega⟩ : Fin 1152) := Fin.ext (by omega)
    obtain rfl : i = (⟨r.val / 64 + 4, by clear hcol hi hj; omega⟩ : Fin 68) := Fin.ext (by omega)
    obtain rfl : j = (⟨r.val % 64 + 2, by clear hcol hi hj; omega⟩ : Fin 68) := Fin.ext (by omega)
    exact patches_tap7 v0 r k
  · obtain rfl : col = (⟨1024 + k.val, by clear hcol hi hj; omega⟩ : Fin 1152) := Fin.ext (by omega)
    obtain rfl : i = (⟨r.val / 64 + 4, by clear hcol hi hj; omega⟩ : Fin 68) := Fin.ext (by omega)
    obtain rfl : j = (⟨r.val % 64 + 4, by clear hcol hi hj; omega⟩ : Fin 68) := Fin.ext (by omega)
    exact patches_tap8 v0 r k

/-- The windows at row `r`, column `128·t + k`. -/
theorem patches_apply (v0 : Vec Ideal S1x68x68x128 .f32) (r : Fin 4096) (t : Fin 9) (k : Fin 128) :
    patches v0 (ix2 r (⟨128 * t.val + k.val, by have := t.isLt; have := k.isLt; omega⟩ : Fin 1152))
      = v0 (ix4 (0 : Fin 1) (⟨r.val / 64 + 2 * (t.val / 3), by have := r.isLt; have := t.isLt; omega⟩ : Fin 68)
          (⟨r.val % 64 + 2 * (t.val % 3), by omega⟩ : Fin 68) k) :=
  patches_apply_of_eq v0 r t.val t.isLt k _ _ _ rfl rfl rfl

end Cert.ReferenceIdeal.RefValue

end
-- ==== Proof.LibDense.lean ====
/-
  A plain matrix product read at an index.

  For `l : [A, K]` and `r : [K, B]` the product with dimension numbers "contract axis 1 of the left with axis 0 of the
  right, no batch axes" — what `jnp.dot` of two matrices lowers to, on the matrix unit (into a zero accumulator) and on
  the host alike — is, at the ideal instance and at the element `(a, b)`, the exact sum over `k` of
  `l (a, k) · r (k, b)`. General in `A`, `K`, `B` and in the operands' float formats.
-/
import Idealize.ShloMosaic.PureOps.Ideal
import Idealize.ShloMosaic.PureOps.Ideal.Laws
import Idealize.ShloMosaic.Lib.ValueIdx

noncomputable section

open scoped BigOperators

namespace Cert.Lib.Dense

open Idealize.ShloMosaic Idealize.ShloMosaic.ValueIdx

/-- The dimension numbers of `l @ r` for `l : [A, K]`, `r : [K, B]`. -/
abbrev denseDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

section
variable {A K B : Nat} (wf : DotDims.WF ⟨2, ![A, K]⟩ ⟨2, ![K, B]⟩ ⟨2, ![A, B]⟩ [1] [0] [0] [1] [] [])

/-- The left operand's row is the result's row … -/
theorem dense_lhs0 (i : (⟨2, ![A, B]⟩ : Shape).Idx) (q : (denseDims A K B wf).contr.Idx) :
    ((denseDims A K B wf).lhsIdx i q 0).val = (i 0).val := by
  unfold DotDims.lhsIdx
  rw [dif_neg (show ¬(0 : Fin 2) ∈ (denseDims A K B wf).lhsBatch from List.not_mem_nil),
    dif_pos (show (0 : Fin 2) ∈ (denseDims A K B wf).lhsNonContracting from List.mem_singleton.mpr rfl)]
  rfl

/-- … and its column the contraction coordinate. -/
theorem dense_lhs1 (i : (⟨2, ![A, B]⟩ : Shape).Idx) (q : (denseDims A K B wf).contr.Idx) :
    ((denseDims A K B wf).lhsIdx i q 1).val = (q ⟨0, (Nat.one_pos : 0 < 1)⟩).val :=
  (denseDims A K B wf).lhsIdx_val_of_single rfl i q

/-- The right operand's row is the contraction coordinate … -/
theorem dense_rhs0 (i : (⟨2, ![A, B]⟩ : Shape).Idx) (q : (denseDims A K B wf).contr.Idx) :
    ((denseDims A K B wf).rhsIdx i q 0).val = (q ⟨0, (Nat.one_pos : 0 < 1)⟩).val :=
  (denseDims A K B wf).rhsIdx_val_of_single rfl i q

/-- … and its column the result's column. -/
theorem dense_rhs1 (i : (⟨2, ![A, B]⟩ : Shape).Idx) (q : (denseDims A K B wf).contr.Idx) :
    ((denseDims A K B wf).rhsIdx i q 1).val = (i 1).val := by
  unfold DotDims.rhsIdx
  rw [dif_neg (show ¬(1 : Fin 2) ∈ (denseDims A K B wf).rhsBatch from List.not_mem_nil),
    dif_pos (show (1 : Fin 2) ∈ (denseDims A K B wf).rhsNonContracting from List.mem_singleton.mpr rfl)]
  rfl

/-- The contraction's sum, re-indexed by its one coordinate. -/
theorem dense_sum {φ₁ φ₂ : FTy} (l : FVec Ideal ⟨2, ![A, K]⟩ φ₁) (r : FVec Ideal ⟨2, ![K, B]⟩ φ₂) (a : Fin A) (b : Fin B) :
    (∑ q : (denseDims A K B wf).contr.Idx,
        l ((denseDims A K B wf).lhsIdx (ix2 a b) q) * r ((denseDims A K B wf).rhsIdx (ix2 a b) q))
      = ∑ k : Fin K, l (ix2 a k) * r (ix2 k b) := by
  rw [← Equiv.sum_comp (contrEquiv1 (denseDims A K B wf) K rfl rfl).symm]
  refine Finset.sum_congr rfl fun k _ => ?_
  have hk := contrEquiv1_symm_val (denseDims A K B wf) K rfl rfl k
  have el : (denseDims A K B wf).lhsIdx (ix2 a b) ((contrEquiv1 (denseDims A K B wf) K rfl rfl).symm k) = ix2 a k :=
    funext fun x => Fin.ext (by
      match x with
      | ⟨0, _⟩ => exact dense_lhs0 wf _ _
      | ⟨1, _⟩ => exact (dense_lhs1 wf _ _).trans hk)
  have er : (denseDims A K B wf).rhsIdx (ix2 a b) ((contrEquiv1 (denseDims A K B wf) K rfl rfl).symm k) = ix2 k b :=
    funext fun x => Fin.ext (by
      match x with
      | ⟨0, _⟩ => exact (dense_rhs0 wf _ _).trans hk
      | ⟨1, _⟩ => exact dense_rhs1 wf _ _)
  rw [el, er]

/-- THE MATRIX UNIT'S PRODUCT into a zero accumulator, read at `(a, b)`. -/
theorem dense_matmul_apply {φ₁ φ₂ : FTy} (prec : Option ContractPrecision)
    (l : FVec Ideal ⟨2, ![A, K]⟩ φ₁) (r : FVec Ideal ⟨2, ![K, B]⟩ φ₂) (a : Fin A) (b : Fin B) :
    FloatOps.matmul (denseDims A K B wf) prec l r (constant (F := Ideal) ⟨2, ![A, B]⟩ .f32 0x00000000#32) (ix2 a b)
      = ∑ k : Fin K, l (ix2 a k) * r (ix2 k b) := by
  rw [Ideal.matmul_constant_zero_apply]
  exact dense_sum wf l r a b

/-- THE HOST'S PRODUCT, read at `(a, b)`. -/
theorem dense_dotGeneral_apply {φ₁ φ₂ : FTy} (prec : Option ContractPrecision) (sched : HostSchedule)
    (l : FVec Ideal ⟨2, ![A, K]⟩ φ₁) (r : FVec Ideal ⟨2, ![K, B]⟩ φ₂) (a : Fin A) (b : Fin B) :
    FloatOps.dotGeneral (denseDims A K B wf) prec sched l r (ix2 a b) = ∑ k : Fin K, l (ix2 a k) * r (ix2 k b) := by
  rw [Ideal.dotGeneral_apply]
  exact dense_sum wf l r a b

end

end Cert.Lib.Dense

end
-- ==== Proof.LibRefSums.lean ====
/-
  Two facts about finite sums over consecutive naturals.

  A sum over the `T * B` naturals below `T * B` is the sum over the `T` blocks of `B` consecutive ones; a sum over
  the `a + b` naturals below `a + b` whose terms vanish from `a` on is the sum over the first `a`.
-/
import Mathlib.Algebra.BigOperators.Fin
import Mathlib.Logic.Equiv.Fin.Basic

open scoped BigOperators

namespace Cert.Lib.RefSums

/-- The index `B * t + j` of entry `j` of block `t` is below `T * B`. -/
theorem block_index_lt {T B : ℕ} (t : Fin T) (j : Fin B) : B * t.val + j.val < T * B := by
  have ht := t.isLt
  have hj := j.isLt
  calc B * t.val + j.val < B * t.val + B := by omega
    _ = B * (t.val + 1) := by rw [Nat.mul_add, Nat.mul_one]
    _ ≤ B * T := Nat.mul_le_mul_left _ (by omega)
    _ = T * B := Nat.mul_comm _ _

/-- A sum over `Fin (T * B)`, taken block by block: block `t` holds the indices `B * t + j`, `j < B`. -/
theorem sum_fin_mul {M : Type*} [AddCommMonoid M] (T B : ℕ) (g : Fin (T * B) → M) :
    ∑ k : Fin (T * B), g k = ∑ t : Fin T, ∑ j : Fin B, g ⟨B * t.val + j.val, block_index_lt t j⟩ := by
  rw [← Equiv.sum_comp finProdFinEquiv g, Fintype.sum_prod_type]
  refine Finset.sum_congr rfl fun t _ => Finset.sum_congr rfl fun j _ => congrArg g (Fin.ext ?_)
  show j.val + B * t.val = B * t.val + j.val
  omega

/-- A sum over `Fin (a + b)` whose terms vanish from index `a` on is the sum of its first `a` terms. -/
theorem sum_fin_add_of_zero {M : Type*} [AddCommMonoid M] (a b : ℕ) (g : Fin (a + b) → M)
    (hz : ∀ i : Fin b, g (Fin.natAdd a i) = 0) :
    ∑ k : Fin (a + b), g k = ∑ i : Fin a, g (Fin.castAdd b i) := by
  rw [Fin.sum_univ_add, Finset.sum_eq_zero (fun i _ => hz i), add_zero]

end Cert.Lib.RefSums
-- ==== Proof.RefConv.lean ====
/-
  The first body's matrix product is the convolution.

  At row `r`, column `c` the product of the nine windows [4096, 1152] with the weight matrix
  [1152, 128] is the sum over `k < 1152` of window entry `(r, k)` times weight entry `(k, c)`. The
  columns come in nine blocks of 128, one per tap; in block `t` the first 64 entries are the haloed
  image at the tap's position times the tap's weights and the last 64 are zero times zero. What
  is left is the specification's convolution at position `r` with its two factors exchanged.
-/
import proofs.«176068_g2000404705935580_pallasbulk_80_2_alg».proof.Proof.RefPatches
import proofs.«176068_g2000404705935580_pallasbulk_80_2_alg».proof.Proof.LibDense
import proofs.«176068_g2000404705935580_pallasbulk_80_2_alg».proof.Proof.LibRefSums
import proofs.«176068_g2000404705935580_pallasbulk_80_2_alg».proof.Proof.Spec

set_option maxRecDepth 16384

noncomputable section

open scoped BigOperators

namespace Cert.ReferenceIdeal.RefValue

open Cert.ReferenceIdeal Cert.ReferenceIdeal.Gen
open Idealize.ShloMosaic Idealize.ShloMosaic.ValueIdx
open Cert.ConvBN (halo tapRow tapCol conv convAt)

/-- The matrix product at `(r, c)`, for a haloed image whose channels from 64 on are zero and a weight matrix whose
    rows `128·t + k`, `k` from 64 on, are zero: the convolution at position `r`, output channel `c`. -/
theorem k0_pay1_conv (x : FVec Ideal Cert.ConvBN.SX .f32) (w : FVec Ideal Cert.ConvBN.SW .f32) (n : Fin 32)
    (v0 : Vec Ideal S1x68x68x128 .f32) (v21 : Vec Ideal S1152x128 .f32)
    (h0 : ∀ (i j : Fin 68) (k : Fin 128),
      v0 (ix4 (0 : Fin 1) i j k) = if h : k.val < 64 then halo x n i j ⟨k.val, h⟩ else 0)
    (h1 : ∀ (t : Fin 9) (k c : Fin 128),
      v21 (ix2 (⟨128 * t.val + k.val, by have := t.isLt; have := k.isLt; omega⟩ : Fin 1152) c)
        = if h : k.val < 64 then w (ix4 (tapRow t) (tapCol t) ⟨k.val, h⟩ c) else 0)
    (r : Fin 4096) (c : Fin 128) :
    k0_pay1 v0 v21 (ix2 r c) = convAt x w n c r := by
  rw [k0_pay1_eq]
  refine (Cert.Lib.Dense.dense_matmul_apply dot_S4096x1152_S1152x128_S4096x128_1_0_0_1_n_n_wf none (patches v0)
    (shapeCast S1152x128 v21 shapeCasts_S1152x128_S1152x128 : FVec Ideal S1152x128 .f32) r c).trans ?_
  rw [shapeCast_self]
  refine (Cert.Lib.RefSums.sum_fin_mul 9 128 (fun k => patches v0 (ix2 r k) * v21 (ix2 k c))).trans ?_
  unfold convAt conv
  refine Finset.sum_congr rfl fun t _ => ?_
  have e : ∀ j : Fin 128,
      patches v0 (ix2 r (⟨128 * t.val + j.val, Cert.Lib.RefSums.block_index_lt t j⟩ : Fin 1152))
          * v21 (ix2 (⟨128 * t.val + j.val, Cert.Lib.RefSums.block_index_lt t j⟩ : Fin 1152) c)
        = (if h : j.val < 64 then
              halo x n (⟨r.val / 64 + 2 * (t.val / 3), by have := r.isLt; have := t.isLt; omega⟩ : Fin 68)
                (⟨r.val % 64 + 2 * (t.val % 3), by omega⟩ : Fin 68) ⟨j.val, h⟩ else 0)
          * (if h : j.val < 64 then w (ix4 (tapRow t) (tapCol t) ⟨j.val, h⟩ c) else 0) := fun j => by
    rw [← h0, ← h1]
    exact congrArg₂ (· * ·) (patches_apply v0 r t j) rfl
  refine (Finset.sum_congr rfl fun j _ => e j).trans ?_
  refine (Cert.Lib.RefSums.sum_fin_add_of_zero 64 64 _ fun i => ?_).trans ?_
  · have hge : ¬(Fin.natAdd 64 i).val < 64 := by show ¬(64 + i.val < 64); omega
    beta_reduce
    rw [dif_neg hge, dif_neg hge, mul_zero]
  · refine Finset.sum_congr rfl fun ci _ => ?_
    have hlt : (Fin.castAdd 64 ci).val < 64 := ci.isLt
    beta_reduce
    rw [dif_pos hlt, dif_pos hlt]
    exact mul_comm _ _

end Cert.ReferenceIdeal.RefValue

end
-- ==== Proof.RefValue.lean ====
/-
  The reference program computes the specification's function.

  Reading the result buffer back through the run: the last stretch transposes the second call's
  result; the second call multiplies the convolution by the scale row and adds the shift row; the
  middle stretch computes those rows from the per-image sums, `γ` and `β` as the specification
  writes them; the first call's convolution array is the specification's convolution (the 64 zero
  channels contribute zero times zero to each sum) and its per-image sums are the sums of the
  convolution and of its square over the positions of an image; so the sums over the batch are the
  specification's two totals. Put together, the result buffer holds `result x w γ β`.
-/
import proofs.«176068_g2000404705935580_pallasbulk_80_2_alg».proof.Proof.RefRun
import proofs.«176068_g2000404705935580_pallasbulk_80_2_alg».proof.Proof.RefHost
import proofs.«176068_g2000404705935580_pallasbulk_80_2_alg».proof.Proof.RefRegion0
import proofs.«176068_g2000404705935580_pallasbulk_80_2_alg».proof.Proof.RefRegion1
import proofs.«176068_g2000404705935580_pallasbulk_80_2_alg».proof.Proof.RefPayload
import proofs.«176068_g2000404705935580_pallasbulk_80_2_alg».proof.Proof.RefOperands
import proofs.«176068_g2000404705935580_pallasbulk_80_2_alg».proof.Proof.RefTotals
import proofs.«176068_g2000404705935580_pallasbulk_80_2_alg».proof.Proof.RefConv

set_option maxRecDepth 16384

noncomputable section

open scoped BigOperators

namespace Cert.ReferenceIdeal.RefValue

open Cert.ReferenceIdeal Cert.ReferenceIdeal.Gen
open Idealize.ShloMosaic Idealize.ShloMosaic.TcCoe Idealize.ShloMosaic.ValueIdx Idealize.SL.Sem
open Idealize.ShloMosaic.Pipeline (Dat Cfg Window)
open Cert.ConvBN (halo tapRow tapCol conv convAt tot1 tot2 scaleOf shiftOf result)

variable (m : (ℓ : Loc nD τ sig) → Buf (Elt Ideal) ℓ) (ρ : Dev nD → PrngReg)

/-- The four argument arrays at launch. -/
abbrev argX (c : Dev nD) : FVec Ideal S32x64x64x64 .f32 := m ((c : Thread nD τ).loc main_arg0)
abbrev argW (c : Dev nD) : FVec Ideal S3x3x64x128 .f32 := m ((c : Thread nD τ).loc main_arg1)
abbrev argG (c : Dev nD) : FVec Ideal S128 .f32 := m ((c : Thread nD τ).loc main_arg2)
abbrev argB (c : Dev nD) : FVec Ideal S128 .f32 := m ((c : Thread nD τ).loc main_arg3)

/-! ## The arrays after the first call -/

/-- The convolution array after the first call. -/
theorem W9_conv (c : Dev nD) : W9 m ρ c (Proc.devRef .tc main_v6_0)
    = convArr (F := Ideal) (paddedImages (argX m c)) (weightMatrix (argW m c)) := by
  refine (W9_arr m ρ c 2).trans ((arr0_2 (V8 m ρ) c).trans ?_)
  exact congrArg₂ (convArr (F := Ideal)) (W8_images m ρ c) (W8_weights m ρ c)

/-- The per-image sums array after the first call. -/
theorem W9_sums (c : Dev nD) : W9 m ρ c (Proc.devRef .tc main_v6_1)
    = sumsArr (F := Ideal) (paddedImages (argX m c)) (weightMatrix (argW m c)) := by
  refine (W9_arr m ρ c 3).trans ((arr0_3 (V8 m ρ) c).trans ?_)
  exact congrArg₂ (sumsArr (F := Ideal)) (W8_images m ρ c) (W8_weights m ρ c)

/-- `γ`, padded by nothing and untouched by the first call. -/
theorem W9_gamma (c : Dev nD) : W9 m ρ c (Proc.devRef .tc main_v4) = argG m c :=
  (W9_of_ne m ρ c main_v4 (by decide)).trans ((W8_gamma m ρ c).trans (pad_nothing _ _))

/-- `β`, padded by nothing and untouched by the first call. -/
theorem W9_beta (c : Dev nD) : W9 m ρ c (Proc.devRef .tc main_v5) = argB m c :=
  (W9_of_ne m ρ c main_v5 (by decide)).trans ((W8_beta m ρ c).trans (pad_nothing _ _))

/-! ## The convolution and the totals -/

/-- The matrix product of image `n` is the convolution of image `n`. -/
theorem conv_entry (c : Dev nD) (n : Fin 32) (r : Fin 4096) (ch : Fin 128) :
    k0_pay1 (haloImage (F := Ideal) (paddedImages (argX m c)) n) (weightMatrix (argW m c)) (ix2 r ch)
      = convAt (argX m c) (argW m c) n ch r :=
  k0_pay1_conv (argX m c) (argW m c) n _ _ (fun i j k => paddedImages_apply (argX m c) n i j k)
    (fun t k c' => weightMatrix_apply (argW m c) t k c') r ch

/-- The per-image sum of the convolution. -/
theorem sums_entry0 (c : Dev nD) (n : Fin 32) (ch : Fin 128) :
    sumsArr (F := Ideal) (paddedImages (argX m c)) (weightMatrix (argW m c)) (ix3 n (0 : Fin 2) ch)
      = ∑ r : Fin 4096, convAt (argX m c) (argW m c) n ch r := by
  show k0_pay2 (haloImage (F := Ideal) (paddedImages (argX m c)) n) (weightMatrix (argW m c)) (ix3 (0 : Fin 1) (0 : Fin 2) ch) = _
  rw [k0_pay2_apply0]
  exact Finset.sum_congr rfl fun r _ => conv_entry m c n r ch

/-- The per-image sum of the convolution's square. -/
theorem sums_entry1 (c : Dev nD) (n : Fin 32) (ch : Fin 128) :
    sumsArr (F := Ideal) (paddedImages (argX m c)) (weightMatrix (argW m c)) (ix3 n (1 : Fin 2) ch)
      = ∑ r : Fin 4096, convAt (argX m c) (argW m c) n ch r * convAt (argX m c) (argW m c) n ch r := by
  show k0_pay2 (haloImage (F := Ideal) (paddedImages (argX m c)) n) (weightMatrix (argW m c)) (ix3 (0 : Fin 1) (1 : Fin 2) ch) = _
  rw [k0_pay2_apply1]
  exact Finset.sum_congr rfl fun r _ => by rw [conv_entry m c n r ch]

/-- The sum over the batch of the per-image sums is the specification's first total. -/
theorem sumRow_eq (c : Dev nD) :
    sumRow (sumsArr (F := Ideal) (paddedImages (argX m c)) (weightMatrix (argW m c))) = tot1 (argX m c) (argW m c) := by
  funext i
  obtain ⟨ch, rfl⟩ : ∃ ch : Fin 128, i = ix1 ch := ⟨i 0, eq_ix1 i⟩
  refine (batchRow0_apply _ ch).trans ?_
  show _ = Ideal.ofBits .f32 0x00000000#32 + ∑ n : Fin 32, ∑ r : Fin 4096, convAt (argX m c) (argW m c) n ch r
  exact congrArg₂ (· + ·) rfl (Finset.sum_congr rfl fun n _ => sums_entry0 m c n ch)

/-- The sum over the batch of the per-image sums of squares is the specification's second total. -/
theorem sqRow_eq (c : Dev nD) :
    sqRow (sumsArr (F := Ideal) (paddedImages (argX m c)) (weightMatrix (argW m c))) = tot2 (argX m c) (argW m c) := by
  funext i
  obtain ⟨ch, rfl⟩ : ∃ ch : Fin 128, i = ix1 ch := ⟨i 0, eq_ix1 i⟩
  refine (batchRow1_apply _ ch).trans ?_
  show _ = Ideal.ofBits .f32 0x00000000#32
    + ∑ n : Fin 32, ∑ r : Fin 4096, convAt (argX m c) (argW m c) n ch r * convAt (argX m c) (argW m c) n ch r
  exact congrArg₂ (· + ·) rfl (Finset.sum_congr rfl fun n _ => sums_entry1 m c n ch)

/-! ## The second call's result and the result buffer -/

/-- The second call's result array: the convolution times the scale row plus the shift row. -/
theorem W11_result (c : Dev nD) : W11 m ρ c (Proc.devRef .tc main_v28)
    = applied (F := Ideal) (convArr (F := Ideal) (paddedImages (argX m c)) (weightMatrix (argW m c)))
        (shapeCast S1x1x1x128 (scaleOf (tot1 (argX m c) (argW m c)) (tot2 (argX m c) (argW m c)) (argG m c))
          shapeCasts_S128_S1x1x1x128)
        (shapeCast S1x1x1x128
          (shiftOf (tot1 (argX m c) (argW m c)) (tot2 (argX m c) (argW m c)) (argG m c) (argB m c))
          shapeCasts_S128_S1x1x1x128) := by
  refine (W11_arr m ρ c 3).trans ((arr1 (V10 m ρ) c).trans ?_)
  show applied (F := Ideal) (W10 m ρ c (Proc.devRef .tc main_v6_0)) (W10 m ρ c (Proc.devRef .tc main_v26))
    (W10 m ρ c (Proc.devRef .tc main_v27)) = _
  rw [W10_conv, W10_scale, W10_shift, W9_conv, W9_sums, W9_gamma, W9_beta, sumRow_eq, sqRow_eq]

/-- A row of 128 reshaped to [1, 1, 1, 128], read at `(0, 0, 0, c)`. -/
theorem row_apply (f : S128.Idx → EReal) (ch : Fin 128) :
    shapeCast S1x1x1x128 f shapeCasts_S128_S1x1x1x128 (ix4 (0 : Fin 1) (0 : Fin 1) (0 : Fin 1) ch) = f (ix1 ch) := by
  refine shapeCast_apply _ _ (ix4 (0 : Fin 1) (0 : Fin 1) (0 : Fin 1) ch) (ix1 ch) ?_
  rw [Shape.rowMajor_val_one, Shape.rowMajor_val_four]
  show ch.val = (((0 * 1 + 0) * 1 + 0) * 128 + ch.val)
  omega

/-- THE RESULT BUFFER at the last boundary holds the specification's result of the four argument arrays. -/
theorem result_eq (c : Dev nD) : W12 m ρ c (Proc.devRef .tc main_v29)
    = result (argX m c) (argW m c) (argG m c) (argB m c) := by
  rw [W12_result, W11_result]
  funext i
  obtain ⟨n, ch, p, q, rfl⟩ : ∃ (n : Fin 32) (ch : Fin 128) (p q : Fin 64), i = ix4 n ch p q :=
    ⟨i 0, i 1, i 2, i 3, eq_ix4 i⟩
  refine (transpose_apply _ _ _ (ix4 n ch p q) (ix4 n p q ch) fun b => ?_).trans ?_
  · match b with
    | ⟨0, _⟩ => rfl
    | ⟨1, _⟩ => rfl
    | ⟨2, _⟩ => rfl
    | ⟨3, _⟩ => rfl
  show k1_pay1 (imageOf (F := Ideal) (convArr (F := Ideal) (paddedImages (argX m c)) (weightMatrix (argW m c))) n) _ _ (ix4 (0 : Fin 1) p q ch)
    = conv (argX m c) (argW m c) n ch p q
        * scaleOf (tot1 (argX m c) (argW m c)) (tot2 (argX m c) (argW m c)) (argG m c) (ix1 ch)
      + shiftOf (tot1 (argX m c) (argW m c)) (tot2 (argX m c) (argW m c)) (argG m c) (argB m c) (ix1 ch)
  rw [k1_pay1_apply, row_apply, row_apply]
  refine congrArg₂ (· + ·) (congrArg₂ (· * ·) ?_ rfl) rfl
  show k0_pay3 (haloImage (F := Ideal) (paddedImages (argX m c)) n) (weightMatrix (argW m c)) (ix4 (0 : Fin 1) p q ch) = _
  rw [k0_pay3_apply, conv_entry]
  unfold convAt
  exact congrArg₂ (conv (argX m c) (argW m c) n ch)
    (Fin.ext (by show (64 * p.val + q.val) / 64 = p.val; have := q.isLt; omega))
    (Fin.ext (by show (64 * p.val + q.val) % 64 = q.val; have := q.isLt; omega))

/-! ## The run -/

/-- Every weakly fair execution of the reference program terminates, nothing faulting; the result array ends at the
    specification's result of the four argument arrays, and the argument arrays end as launched. -/
theorem run : θ_run (defs (F := Ideal)) (onTc (τ := τ) (main (F := Ideal))) ⟨m, fun _ => 0, ρ⟩ (fun r => ∀ c : Dev nD,
      r.2.mem ((c.tc : Thread nD τ).loc main_v29)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_eq m ρ c), (h c).2⟩) (run_W12 m ρ)

end Cert.ReferenceIdeal.RefValue

end
-- ==== Proof.lean ====
/-
  A dilated 3x3 convolution followed by batch normalisation, computed two ways, is one function on the
  extended reals.

  The kernel program convolves every image twice: a first pass over the batch keeps, per output channel,
  only the sum of the convolution over an image's positions and the sum of its squares; the host adds these
  over the batch and turns the two totals, `γ` and `β` into a scale and a shift per channel; a second pass
  recomputes the convolution and applies scale and shift. The reference pads the 64 input channels of the
  input and of the weights with zeros up to 128, convolves once (keeping the result), takes the same
  statistics, finalises them with the same operations, and applies scale and shift in a second pass.
  Both are `Cert.ConvBN.result` of the four argument arrays (Proof/Spec.lean): the contraction over
  9·64 weight rows on one side and over 9·128 rows on the other differ by terms `0 · 0`, and the sums over
  positions and over the batch are taken in the same grouping on both sides.

  The three frames are the generated ones; the idealisation rewrote nothing, so there is nothing to preserve.
-/
import proofs.«176068_g2000404705935580_pallasbulk_80_2_alg».proof.Defs
import proofs.«176068_g2000404705935580_pallasbulk_80_2_alg».proof.Proof.Gen.Kernel
import proofs.«176068_g2000404705935580_pallasbulk_80_2_alg».proof.Proof.Gen.Kernel.Frame
import proofs.«176068_g2000404705935580_pallasbulk_80_2_alg».proof.Proof.Gen.KernelIdeal
import proofs.«176068_g2000404705935580_pallasbulk_80_2_alg».proof.Proof.Gen.KernelIdeal.Frame
import proofs.«176068_g2000404705935580_pallasbulk_80_2_alg».proof.Proof.Gen.ReferenceIdeal
import proofs.«176068_g2000404705935580_pallasbulk_80_2_alg».proof.Proof.Gen.ReferenceIdeal.Frame
import proofs.«176068_g2000404705935580_pallasbulk_80_2_alg».proof.Proof.Gen.Pre_finite_inputs
import proofs.«176068_g2000404705935580_pallasbulk_80_2_alg».proof.Proof.KerRun
import proofs.«176068_g2000404705935580_pallasbulk_80_2_alg».proof.Proof.KerBridge
import proofs.«176068_g2000404705935580_pallasbulk_80_2_alg».proof.Proof.RefValue
import Idealize.ShloMosaic.Adequacy
import Idealize.ShloMosaic.Init

noncomputable section

namespace Cert.Proof

open Idealize.ShloMosaic Idealize.ShloMosaic.TcCoe Idealize.SL.Sem

/-- The kernel program runs, and its result array ends at the specification's function of the argument arrays, which
    end as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v28)
            = Cert.ConvBN.result (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run (Cert.KernelIdeal.defs (F := Ideal)) _ _).mono
    (fun r h c => ⟨(h c).1.trans (Cert.KernelIdeal.KerValue.kernel_result m ρ c), (h c).2⟩)
    (Cert.KernelIdeal.KerValue.run_named (F := Ideal) m ρ)

/-- From memories agreeing on the arguments both programs run, and both result arrays end at the specification's
    function of the kernel program's argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ConvBN.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), kernel_run m ρ, ?_⟩
  refine (θ_run (Cert.ReferenceIdeal.defs (F := Ideal)) _ _).mono (fun r h c => ⟨?_, (h c).2⟩)
    (Cert.ReferenceIdeal.RefValue.run m' ρ')
  rw [(h c).1, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.ReferenceIdeal.Gen.frame m ρ,
    trivial,
    algebraic⟩

end Cert.Proof

end
